-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v175)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v175) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v234) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S3x2x400000 : Shape := ⟨3, ![3, 2, 400000]⟩
abbrev S2x3x128x128 : Shape := ⟨4, ![2, 3, 128, 128]⟩
abbrev S2x3x128 : Shape := ⟨3, ![2, 3, 128]⟩
abbrev S128x2 : Shape := ⟨2, ![128, 2]⟩
abbrev S2 : Shape := ⟨1, ![2]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S2x3x128x128 : S_.BroadcastsInDim S2x3x128x128 (![] : Fin 0 → Fin S2x3x128x128.rank)
  reducesTo_S2x3x128x128_S_d0_1_2_3 : S2x3x128x128.ReducesTo [0, 1, 2, 3] S_
  bcast_S_S2x3x128 : S_.BroadcastsInDim S2x3x128 (![] : Fin 0 → Fin S2x3x128.rank)
  reducesTo_S2x3x128_S_d0_1_2 : S2x3x128.ReducesTo [0, 1, 2] S_
  bcast_S_S128x2 : S_.BroadcastsInDim S128x2 (![] : Fin 0 → Fin S128x2.rank)
  reducesTo_S128x2_S_d0_1 : S128x2.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg5 : FVec F S128x2 .f32) (main_arg6 : FVec F S2 .f32) (main_v13 : IVec S_ 1) (main_v16 : IVec S2x3x128 1) : IVec S_ 1 :=
  let main_c_5 : IVec S_ 1 := constantI S_ 1 1#1
  let main_v17 : IVec S_ 1 := (fun x v => Host.reduce IntOp.andi x v reducesTo_S2x3x128_S_d0_1_2 h_S_) main_v16 main_c_5
  let main_v18 : IVec S_ 1 := andi main_v13 main_v17
  let main_v19 : FVec F S128x2 .f32 := Host.absf main_arg5
  let main_cst_6 : FVec F S_ .f32 := constant S_ .f32 0x7F800000#32
  let main_v20 : FVec F S128x2 .f32 := broadcastInDim S128x2 ![] bcast_S_S128x2 main_cst_6
  let main_v21 : IVec S128x2 1 := cmpf .olt main_v19 main_v20
  let main_c_7 : IVec S_ 1 := constantI S_ 1 1#1
  let main_v22 : IVec S_ 1 := (fun x v => Host.reduce IntOp.andi x v reducesTo_S128x2_S_d0_1 h_S_) main_v21 main_c_7
  let main_v23 : IVec S_ 1 := andi main_v18 main_v22
  let main_v24 : FVec F S2 .f32 := Host.absf main_arg6
  let main_cst_8 : FVec F S_ .f32 := constant S_ .f32 0x7F800000#32
  let main_v25 : FVec F S2 .f32 := broadcastInDim S2 ![] bcast_S_S2 main_cst_8
  let main_v26 : IVec S2 1 := cmpf .olt main_v24 main_v25
  let main_c_9 : IVec S_ 1 := constantI S_ 1 1#1
  let main_v27 : IVec S_ 1 := (fun x v => Host.reduce IntOp.andi x v reducesTo_S2_S_d0 h_S_) main_v26 main_c_9
  let main_v28 : IVec S_ 1 := andi main_v23 main_v27
  main_v28

def fn {F : FTy → Type} [FloatOps F] (main_arg0 : FVec F S100000x128 .f32) (main_arg1 : IVec S3x2x400000 32) (main_arg2 : FVec F S2x3x128x128 .f32) (main_arg3 : FVec F S2x3x128x128 .f32) (main_arg4 : FVec F S2x3x128 .f32) (main_arg5 : FVec F S128x2 .f32) (main_arg6 : FVec F S2 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S2x3x128x128 .f32 := Host.absf main_arg2
  let main_cst_0 : FVec F S_ .f32 := constant S_ .f32 0x7F800000#32
  let main_v5 : FVec F S2x3x128x128 .f32 := broadcastInDim S2x3x128x128 ![] bcast_S_S2x3x128x128 main_cst_0
  let main_v6 : IVec S2x3x128x128 1 := cmpf .olt main_v4 main_v5
  let main_c_1 : IVec S_ 1 := constantI S_ 1 1#1
  let main_v7 : IVec S_ 1 := (fun x v => Host.reduce IntOp.andi x v reducesTo_S2x3x128x128_S_d0_1_2_3 h_S_) main_v6 main_c_1
  let main_v8 : IVec S_ 1 := andi main_v3 main_v7
  let main_v9 : FVec F S2x3x128x128 .f32 := Host.absf main_arg3
  let main_cst_2 : FVec F S_ .f32 := constant S_ .f32 0x7F800000#32
  let main_v10 : FVec F S2x3x128x128 .f32 := broadcastInDim S2x3x128x128 ![] bcast_S_S2x3x128x128 main_cst_2
  let main_v11 : IVec S2x3x128x128 1 := cmpf .olt main_v9 main_v10
  let main_c_3 : IVec S_ 1 := constantI S_ 1 1#1
  let main_v12 : IVec S_ 1 := (fun x v => Host.reduce IntOp.andi x v reducesTo_S2x3x128x128_S_d0_1_2_3 h_S_) main_v11 main_c_3
  let main_v13 : IVec S_ 1 := andi main_v8 main_v12
  let main_v14 : FVec F S2x3x128 .f32 := Host.absf main_arg4
  let main_cst_4 : FVec F S_ .f32 := constant S_ .f32 0x7F800000#32
  let main_v15 : FVec F S2x3x128 .f32 := broadcastInDim S2x3x128 ![] bcast_S_S2x3x128 main_cst_4
  let main_v16 : IVec S2x3x128 1 := cmpf .olt main_v14 main_v15
  fn_part1 (F := F) main_arg5 main_arg6 main_v13 main_v16
-- ==== Kernel.lean ====
abbrev S100000x128 : Shape := ⟨2, ![100000, 128]⟩
abbrev S3x2x400000 : Shape := ⟨3, ![3, 2, 400000]⟩
abbrev S2x3x128x128 : Shape := ⟨4, ![2, 3, 128, 128]⟩
abbrev S2x3x128 : Shape := ⟨3, ![2, 3, 128]⟩
abbrev S128x2 : Shape := ⟨2, ![128, 2]⟩
abbrev S2 : Shape := ⟨1, ![2]⟩
abbrev S1x2x400000 : Shape := ⟨3, ![1, 2, 400000]⟩
abbrev S2x400000 : Shape := ⟨2, ![2, 400000]⟩
abbrev S1x400000 : Shape := ⟨2, ![1, 400000]⟩
abbrev S400000 : Shape := ⟨1, ![400000]⟩
abbrev S_ : Shape := ⟨0, ![]⟩
abbrev S400000x1 : Shape := ⟨2, ![400000, 1]⟩
abbrev S400000x128 : Shape := ⟨2, ![400000, 128]⟩
abbrev S100000 : Shape := ⟨1, ![100000]⟩
abbrev S100000x1 : Shape := ⟨2, ![100000, 1]⟩
abbrev S1x100000x128 : Shape := ⟨3, ![1, 100000, 128]⟩
abbrev S3x100000x128 : Shape := ⟨3, ![3, 100000, 128]⟩
abbrev S1x3x128x128 : Shape := ⟨4, ![1, 3, 128, 128]⟩
abbrev S3x128x128 : Shape := ⟨3, ![3, 128, 128]⟩
abbrev S1x3x128 : Shape := ⟨3, ![1, 3, 128]⟩
abbrev S3x128 : Shape := ⟨2, ![3, 128]⟩
abbrev S5000x128 : Shape := ⟨2, ![5000, 128]⟩
abbrev S3x5000x128 : Shape := ⟨3, ![3, 5000, 128]⟩
abbrev S1x5000x128 : Shape := ⟨3, ![1, 5000, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S100000x2 : Shape := ⟨2, ![100000, 2]⟩
abbrev S1x2 : Shape := ⟨2, ![1, 2]⟩

abbrev nBuf : Space → Nat
  | .hbm => 219
  | .vmem => 18
  | .smem => 0
  | _ => 0

abbrev hbmTy0_0 (i : Nat) : BufTy := match i % 128 with
  | 0 => ⟨S100000x128, .f32⟩
  | 1 => ⟨S3x2x400000, .i32⟩
  | 2 => ⟨S2x3x128x128, .f32⟩
  | 3 => ⟨S2x3x128x128, .f32⟩
  | 4 => ⟨S2x3x128, .f32⟩
  | 5 => ⟨S128x2, .f32⟩
  | 6 => ⟨S2, .f32⟩
  | 7 => ⟨S1x2x400000, .i32⟩
  | 8 => ⟨S2x400000, .i32⟩
  | 9 => ⟨S1x400000, .i32⟩
  | 10 => ⟨S400000, .i32⟩
  | 11 => ⟨S1x400000, .i32⟩
  | 12 => ⟨S400000, .i32⟩
  | 13 => ⟨S_, .i32⟩
  | 14 => ⟨S400000, .i32⟩
  | 15 => ⟨S400000, .i1⟩
  | 16 => ⟨S_, .i32⟩
  | 17 => ⟨S400000, .i32⟩
  | 18 => ⟨S400000, .i32⟩
  | 19 => ⟨S400000, .i32⟩
  | 20 => ⟨S400000x1, .i32⟩
  | 21 => ⟨S400000x128, .f32⟩
  | 22 => ⟨S_, .f32⟩
  | 23 => ⟨S100000x128, .f32⟩
  | 24 => ⟨S400000x1, .i32⟩
  | 25 => ⟨S100000x128, .f32⟩
  | 26 => ⟨S_, .f32⟩
  | 27 => ⟨S400000, .f32⟩
  | 28 => ⟨S_, .f32⟩
  | 29 => ⟨S100000, .f32⟩
  | 30 => ⟨S400000x1, .i32⟩
  | 31 => ⟨S100000, .f32⟩
  | 32 => ⟨S_, .f32⟩
  | 33 => ⟨S100000, .f32⟩
  | 34 => ⟨S100000, .f32⟩
  | 35 => ⟨S100000x1, .f32⟩
  | 36 => ⟨S100000x128, .f32⟩
  | 37 => ⟨S100000x128, .f32⟩
  | 38 => ⟨S1x2x400000, .i32⟩
  | 39 => ⟨S2x400000, .i32⟩
  | 40 => ⟨S1x400000, .i32⟩
  | 41 => ⟨S400000, .i32⟩
  | 42 => ⟨S1x400000, .i32⟩
  | 43 => ⟨S400000, .i32⟩
  | 44 => ⟨S_, .i32⟩
  | 45 => ⟨S400000, .i32⟩
  | 46 => ⟨S400000, .i1⟩
  | 47 => ⟨S_, .i32⟩
  | 48 => ⟨S400000, .i32⟩
  | 49 => ⟨S400000, .i32⟩
  | 50 => ⟨S400000, .i32⟩
  | 51 => ⟨S400000x1, .i32⟩
  | 52 => ⟨S400000x128, .f32⟩
  | 53 => ⟨S_, .f32⟩
  | 54 => ⟨S100000x128, .f32⟩
  | 55 => ⟨S400000x1, .i32⟩
  | 56 => ⟨S100000x128, .f32⟩
  | 57 => ⟨S_, .f32⟩
  | 58 => ⟨S400000, .f32⟩
  | 59 => ⟨S_, .f32⟩
  | 60 => ⟨S100000, .f32⟩
  | 61 => ⟨S400000x1, .i32⟩
  | 62 => ⟨S100000, .f32⟩
  | 63 => ⟨S_, .f32⟩
  | 64 => ⟨S100000, .f32⟩
  | 65 => ⟨S100000, .f32⟩
  | 66 => ⟨S100000x1, .f32⟩
  | 67 => ⟨S100000x128, .f32⟩
  | 68 => ⟨S100000x128, .f32⟩
  | 69 => ⟨S1x2x400000, .i32⟩
  | 70 => ⟨S2x400000, .i32⟩
  | 71 => ⟨S1x400000, .i32⟩
  | 72 => ⟨S400000, .i32⟩
  | 73 => ⟨S1x400000, .i32⟩
  | 74 => ⟨S400000, .i32⟩
  | 75 => ⟨S_, .i32⟩
  | 76 => ⟨S400000, .i32⟩
  | 77 => ⟨S400000, .i1⟩
  | 78 => ⟨S_, .i32⟩
  | 79 => ⟨S400000, .i32⟩
  | 80 => ⟨S400000, .i32⟩
  | 81 => ⟨S400000, .i32⟩
  | 82 => ⟨S400000x1, .i32⟩
  | 83 => ⟨S400000x128, .f32⟩
  | 84 => ⟨S_, .f32⟩
  | 85 => ⟨S100000x128, .f32⟩
  | 86 => ⟨S400000x1, .i32⟩
  | 87 => ⟨S100000x128, .f32⟩
  | 88 => ⟨S_, .f32⟩
  | 89 => ⟨S400000, .f32⟩
  | 90 => ⟨S_, .f32⟩
  | 91 => ⟨S100000, .f32⟩
  | 92 => ⟨S400000x1, .i32⟩
  | 93 => ⟨S100000, .f32⟩
  | 94 => ⟨S_, .f32⟩
  | 95 => ⟨S100000, .f32⟩
  | 96 => ⟨S100000, .f32⟩
  | 97 => ⟨S100000x1, .f32⟩
  | 98 => ⟨S100000x128, .f32⟩
  | 99 => ⟨S100000x128, .f32⟩
  | 100 => ⟨S1x100000x128, .f32⟩
  | 101 => ⟨S1x100000x128, .f32⟩
  | 102 => ⟨S1x100000x128, .f32⟩
  | 103 => ⟨S3x100000x128, .f32⟩
  | 104 => ⟨S1x3x128x128, .f32⟩
  | 105 => ⟨S3x128x128, .f32⟩
  | 106 => ⟨S1x3x128x128, .f32⟩
  | 107 => ⟨S3x128x128, .f32⟩
  | 108 => ⟨S1x3x128, .f32⟩
  | 109 => ⟨S3x128, .f32⟩
  | 110 => ⟨S100000x128, .f32⟩
  | 111 => ⟨S1x2x400000, .i32⟩
  | 112 => ⟨S2x400000, .i32⟩
  | 113 => ⟨S1x400000, .i32⟩
  | 114 => ⟨S400000, .i32⟩
  | 115 => ⟨S1x400000, .i32⟩
  | 116 => ⟨S400000, .i32⟩
  | 117 => ⟨S_, .i32⟩
  | 118 => ⟨S400000, .i32⟩
  | 119 => ⟨S400000, .i1⟩
  | 120 => ⟨S_, .i32⟩
  | 121 => ⟨S400000, .i32⟩
  | 122 => ⟨S400000, .i32⟩
  | 123 => ⟨S400000, .i32⟩
  | 124 => ⟨S400000x1, .i32⟩
  | 125 => ⟨S400000x128, .f32⟩
  | 126 => ⟨S_, .f32⟩
  | 127 => ⟨S100000x128, .f32⟩
  | _ => ⟨S100000x128, .f32⟩

abbrev hbmTy0_1 (i : Nat) : BufTy := match i % 128 with
  | 0 => ⟨S400000x1, .i32⟩
  | 1 => ⟨S100000x128, .f32⟩
  | 2 => ⟨S_, .f32⟩
  | 3 => ⟨S400000, .f32⟩
  | 4 => ⟨S_, .f32⟩
  | 5 => ⟨S100000, .f32⟩
  | 6 => ⟨S400000x1, .i32⟩
  | 7 => ⟨S100000, .f32⟩
  | 8 => ⟨S_, .f32⟩
  | 9 => ⟨S100000, .f32⟩
  | 10 => ⟨S100000, .f32⟩
  | 11 => ⟨S100000x1, .f32⟩
  | 12 => ⟨S100000x128, .f32⟩
  | 13 => ⟨S100000x128, .f32⟩
  | 14 => ⟨S1x2x400000, .i32⟩
  | 15 => ⟨S2x400000, .i32⟩
  | 16 => ⟨S1x400000, .i32⟩
  | 17 => ⟨S400000, .i32⟩
  | 18 => ⟨S1x400000, .i32⟩
  | 19 => ⟨S400000, .i32⟩
  | 20 => ⟨S_, .i32⟩
  | 21 => ⟨S400000, .i32⟩
  | 22 => ⟨S400000, .i1⟩
  | 23 => ⟨S_, .i32⟩
  | 24 => ⟨S400000, .i32⟩
  | 25 => ⟨S400000, .i32⟩
  | 26 => ⟨S400000, .i32⟩
  | 27 => ⟨S400000x1, .i32⟩
  | 28 => ⟨S400000x128, .f32⟩
  | 29 => ⟨S_, .f32⟩
  | 30 => ⟨S100000x128, .f32⟩
  | 31 => ⟨S400000x1, .i32⟩
  | 32 => ⟨S100000x128, .f32⟩
  | 33 => ⟨S_, .f32⟩
  | 34 => ⟨S400000, .f32⟩
  | 35 => ⟨S_, .f32⟩
  | 36 => ⟨S100000, .f32⟩
  | 37 => ⟨S400000x1, .i32⟩
  | 38 => ⟨S100000, .f32⟩
  | 39 => ⟨S_, .f32⟩
  | 40 => ⟨S100000, .f32⟩
  | 41 => ⟨S100000, .f32⟩
  | 42 => ⟨S100000x1, .f32⟩
  | 43 => ⟨S100000x128, .f32⟩
  | 44 => ⟨S100000x128, .f32⟩
  | 45 => ⟨S1x2x400000, .i32⟩
  | 46 => ⟨S2x400000, .i32⟩
  | 47 => ⟨S1x400000, .i32⟩
  | 48 => ⟨S400000, .i32⟩
  | 49 => ⟨S1x400000, .i32⟩
  | 50 => ⟨S400000, .i32⟩
  | 51 => ⟨S_, .i32⟩
  | 52 => ⟨S400000, .i32⟩
  | 53 => ⟨S400000, .i1⟩
  | 54 => ⟨S_, .i32⟩
  | 55 => ⟨S400000, .i32⟩
  | 56 => ⟨S400000, .i32⟩
  | 57 => ⟨S400000, .i32⟩
  | 58 => ⟨S400000x1, .i32⟩
  | 59 => ⟨S400000x128, .f32⟩
  | 60 => ⟨S_, .f32⟩
  | 61 => ⟨S100000x128, .f32⟩
  | 62 => ⟨S400000x1, .i32⟩
  | 63 => ⟨S100000x128, .f32⟩
  | 64 => ⟨S_, .f32⟩
  | 65 => ⟨S400000, .f32⟩
  | 66 => ⟨S_, .f32⟩
  | 67 => ⟨S100000, .f32⟩
  | 68 => ⟨S400000x1, .i32⟩
  | 69 => ⟨S100000, .f32⟩
  | 70 => ⟨S_, .f32⟩
  | 71 => ⟨S100000, .f32⟩
  | 72 => ⟨S100000, .f32⟩
  | 73 => ⟨S100000x1, .f32⟩
  | 74 => ⟨S100000x128, .f32⟩
  | 75 => ⟨S100000x128, .f32⟩
  | 76 => ⟨S1x100000x128, .f32⟩
  | 77 => ⟨S1x100000x128, .f32⟩
  | 78 => ⟨S1x100000x128, .f32⟩
  | 79 => ⟨S3x100000x128, .f32⟩
  | 80 => ⟨S1x3x128x128, .f32⟩
  | 81 => ⟨S3x128x128, .f32⟩
  | 82 => ⟨S1x3x128x128, .f32⟩
  | 83 => ⟨S3x128x128, .f32⟩
  | 84 => ⟨S1x3x128, .f32⟩
  | 85 => ⟨S3x128, .f32⟩
  | 86 => ⟨S100000x128, .f32⟩
  | 87 => ⟨S100000x2, .f32⟩
  | 88 => ⟨S1x2, .f32⟩
  | 89 => ⟨S100000x2, .f32⟩
  | 90 => ⟨S100000x2, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S3x5000x128, .f32⟩
  | .local _ .vmem, ⟨3, _⟩ => ⟨S3x5000x128, .f32⟩
  | .local _ .vmem, ⟨4, _⟩ => ⟨S3x128x128, .f32⟩
  | .local _ .vmem, ⟨5, _⟩ => ⟨S3x128x128, .f32⟩
  | .local _ .vmem, ⟨6, _⟩ => ⟨S3x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S3x5000x128, .f32⟩
  | .local _ .vmem, ⟨12, _⟩ => ⟨S3x5000x128, .f32⟩
  | .local _ .vmem, ⟨13, _⟩ => ⟨S3x128x128, .f32⟩
  | .local _ .vmem, ⟨14, _⟩ => ⟨S3x128x128, .f32⟩
  | .local _ .vmem, ⟨15, _⟩ => ⟨S3x128, .f32⟩
  | .local _ .vmem, ⟨16, _⟩ => ⟨S5000x128, .f32⟩
  | .local _ .vmem, ⟨17, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c : Ref sig .tc := ⟨.hbm, 13, rfl⟩
abbrev main_v6 : Ref sig .tc := ⟨.hbm, 14, rfl⟩
abbrev main_v7 : Ref sig .tc := ⟨.hbm, 15, rfl⟩
abbrev main_c_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_1 : Ref sig .tc := ⟨.hbm, 26, rfl⟩
abbrev main_v16 : Ref sig .tc := ⟨.hbm, 27, rfl⟩
abbrev main_cst_2 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_3 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_c_4 : Ref sig .tc := ⟨.hbm, 44, rfl⟩
abbrev main_v31 : Ref sig .tc := ⟨.hbm, 45, rfl⟩
abbrev main_v32 : Ref sig .tc := ⟨.hbm, 46, rfl⟩
abbrev main_c_5 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_6 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_7 : Ref sig .tc := ⟨.hbm, 57, rfl⟩
abbrev main_v41 : Ref sig .tc := ⟨.hbm, 58, rfl⟩
abbrev main_cst_8 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_9 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_c_10 : Ref sig .tc := ⟨.hbm, 75, rfl⟩
abbrev main_v56 : Ref sig .tc := ⟨.hbm, 76, rfl⟩
abbrev main_v57 : Ref sig .tc := ⟨.hbm, 77, rfl⟩
abbrev main_c_11 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_cst_12 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_cst_13 : Ref sig .tc := ⟨.hbm, 88, rfl⟩
abbrev main_v66 : Ref sig .tc := ⟨.hbm, 89, rfl⟩
abbrev main_cst_14 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_cst_15 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_c_16 : Ref sig .tc := ⟨.hbm, 117, rfl⟩
abbrev main_v92 : Ref sig .tc := ⟨.hbm, 118, rfl⟩
abbrev main_v93 : Ref sig .tc := ⟨.hbm, 119, rfl⟩
abbrev main_c_17 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_cst_18 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_cst_19 : Ref sig .tc := ⟨.hbm, 130, rfl⟩
abbrev main_v102 : Ref sig .tc := ⟨.hbm, 131, rfl⟩
abbrev main_cst_20 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_cst_21 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_v109 : Ref sig .tc := ⟨.hbm, 140, rfl⟩
abbrev main_v110 : Ref sig .tc := ⟨.hbm, 141, rfl⟩
abbrev main_v111 : Ref sig .tc := ⟨.hbm, 142, rfl⟩
abbrev main_v112 : Ref sig .tc := ⟨.hbm, 143, rfl⟩
abbrev main_v113 : Ref sig .tc := ⟨.hbm, 144, rfl⟩
abbrev main_v114 : Ref sig .tc := ⟨.hbm, 145, rfl⟩
abbrev main_v115 : Ref sig .tc := ⟨.hbm, 146, rfl⟩
abbrev main_v116 : Ref sig .tc := ⟨.hbm, 147, rfl⟩
abbrev main_c_22 : Ref sig .tc := ⟨.hbm, 148, rfl⟩
abbrev main_v117 : Ref sig .tc := ⟨.hbm, 149, rfl⟩
abbrev main_v118 : Ref sig .tc := ⟨.hbm, 150, rfl⟩
abbrev main_c_23 : Ref sig .tc := ⟨.hbm, 151, rfl⟩
abbrev main_v119 : Ref sig .tc := ⟨.hbm, 152, rfl⟩
abbrev main_v120 : Ref sig .tc := ⟨.hbm, 153, rfl⟩
abbrev main_v121 : Ref sig .tc := ⟨.hbm, 154, rfl⟩
abbrev main_v122 : Ref sig .tc := ⟨.hbm, 155, rfl⟩
abbrev main_v123 : Ref sig .tc := ⟨.hbm, 156, rfl⟩
abbrev main_cst_24 : Ref sig .tc := ⟨.hbm, 157, rfl⟩
abbrev main_v124 : Ref sig .tc := ⟨.hbm, 158, rfl⟩
abbrev main_v125 : Ref sig .tc := ⟨.hbm, 159, rfl⟩
abbrev main_v126 : Ref sig .tc := ⟨.hbm, 160, rfl⟩
abbrev main_cst_25 : Ref sig .tc := ⟨.hbm, 161, rfl⟩
abbrev main_v127 : Ref sig .tc := ⟨.hbm, 162, rfl⟩
abbrev main_cst_26 : Ref sig .tc := ⟨.hbm, 163, rfl⟩
abbrev main_v128 : Ref sig .tc := ⟨.hbm, 164, rfl⟩
abbrev main_v129 : Ref sig .tc := ⟨.hbm, 165, rfl⟩
abbrev main_v130 : Ref sig .tc := ⟨.hbm, 166, rfl⟩
abbrev main_cst_27 : Ref sig .tc := ⟨.hbm, 167, rfl⟩
abbrev main_v131 : Ref sig .tc := ⟨.hbm, 168, rfl⟩
abbrev main_v132 : Ref sig .tc := ⟨.hbm, 169, rfl⟩
abbrev main_v133 : Ref sig .tc := ⟨.hbm, 170, rfl⟩
abbrev main_v134 : Ref sig .tc := ⟨.hbm, 171, rfl⟩
abbrev main_v135 : Ref sig .tc := ⟨.hbm, 172, rfl⟩
abbrev main_v136 : Ref sig .tc := ⟨.hbm, 173, rfl⟩
abbrev main_v137 : Ref sig .tc := ⟨.hbm, 174, rfl⟩
abbrev main_v138 : Ref sig .tc := ⟨.hbm, 175, rfl⟩
abbrev main_v139 : Ref sig .tc := ⟨.hbm, 176, rfl⟩
abbrev main_v140 : Ref sig .tc := ⟨.hbm, 177, rfl⟩
abbrev main_v141 : Ref sig .tc := ⟨.hbm, 178, rfl⟩
abbrev main_c_28 : Ref sig .tc := ⟨.hbm, 179, rfl⟩
abbrev main_v142 : Ref sig .tc := ⟨.hbm, 180, rfl⟩
abbrev main_v143 : Ref sig .tc := ⟨.hbm, 181, rfl⟩
abbrev main_c_29 : Ref sig .tc := ⟨.hbm, 182, rfl⟩
abbrev main_v144 : Ref sig .tc := ⟨.hbm, 183, rfl⟩
abbrev main_v145 : Ref sig .tc := ⟨.hbm, 184, rfl⟩
abbrev main_v146 : Ref sig .tc := ⟨.hbm, 185, rfl⟩
abbrev main_v147 : Ref sig .tc := ⟨.hbm, 186, rfl⟩
abbrev main_v148 : Ref sig .tc := ⟨.hbm, 187, rfl⟩
abbrev main_cst_30 : Ref sig .tc := ⟨.hbm, 188, rfl⟩
abbrev main_v149 : Ref sig .tc := ⟨.hbm, 189, rfl⟩
abbrev main_v150 : Ref sig .tc := ⟨.hbm, 190, rfl⟩
abbrev main_v151 : Ref sig .tc := ⟨.hbm, 191, rfl⟩
abbrev main_cst_31 : Ref sig .tc := ⟨.hbm, 192, rfl⟩
abbrev main_v152 : Ref sig .tc := ⟨.hbm, 193, rfl⟩
abbrev main_cst_32 : Ref sig .tc := ⟨.hbm, 194, rfl⟩
abbrev main_v153 : Ref sig .tc := ⟨.hbm, 195, rfl⟩
abbrev main_v154 : Ref sig .tc := ⟨.hbm, 196, rfl⟩
abbrev main_v155 : Ref sig .tc := ⟨.hbm, 197, rfl⟩
abbrev main_cst_33 : Ref sig .tc := ⟨.hbm, 198, rfl⟩
abbrev main_v156 : Ref sig .tc := ⟨.hbm, 199, rfl⟩
abbrev main_v157 : Ref sig .tc := ⟨.hbm, 200, rfl⟩
abbrev main_v158 : Ref sig .tc := ⟨.hbm, 201, rfl⟩
abbrev main_v159 : Ref sig .tc := ⟨.hbm, 202, rfl⟩
abbrev main_v160 : Ref sig .tc := ⟨.hbm, 203, rfl⟩
abbrev main_v161 : Ref sig .tc := ⟨.hbm, 204, rfl⟩
abbrev main_v162 : Ref sig .tc := ⟨.hbm, 205, rfl⟩
abbrev main_v163 : Ref sig .tc := ⟨.hbm, 206, rfl⟩
abbrev main_v164 : Ref sig .tc := ⟨.hbm, 207, rfl⟩
abbrev main_v165 : Ref sig .tc := ⟨.hbm, 208, rfl⟩
abbrev main_v166 : Ref sig .tc := ⟨.hbm, 209, rfl⟩
abbrev main_v167 : Ref sig .tc := ⟨.hbm, 210, rfl⟩
abbrev main_v168 : Ref sig .tc := ⟨.hbm, 211, rfl⟩
abbrev main_v169 : Ref sig .tc := ⟨.hbm, 212, rfl⟩
abbrev main_v170 : Ref sig .tc := ⟨.hbm, 213, rfl⟩
abbrev main_v171 : Ref sig .tc := ⟨.hbm, 214, rfl⟩
abbrev main_v172 : Ref sig .tc := ⟨.hbm, 215, rfl⟩
abbrev main_v173 : Ref sig .tc := ⟨.hbm, 216, rfl⟩
abbrev main_v174 : Ref sig .tc := ⟨.hbm, 217, rfl⟩
abbrev main_v175 : Ref sig .tc := ⟨.hbm, 218, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S3x128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S3x5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S3x128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S3x128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S3x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S3x2x400000_S1x2x400000_0_0_0 : S3x2x400000.Slices ![0, 0, 0] S1x2x400000
  shapeCasts_S1x2x400000_S2x400000 : S1x2x400000.ShapeCasts S2x400000
  slices_S2x400000_S1x400000_0_0 : S2x400000.Slices ![0, 0] S1x400000
  shapeCasts_S1x400000_S400000 : S1x400000.ShapeCasts S400000
  slices_S2x400000_S1x400000_1_0 : S2x400000.Slices ![1, 0] S1x400000
  bcast_S_S400000 : S_.BroadcastsInDim S400000 (![] : Fin 0 → Fin S400000.rank)
  bcast_S400000_S400000x1_0 : S400000.BroadcastsInDim S400000x1 (![0] : Fin 1 → Fin S400000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  slices_S3x2x400000_S1x2x400000_1_0_0 : S3x2x400000.Slices ![1, 0, 0] S1x2x400000
  slices_S3x2x400000_S1x2x400000_2_0_0 : S3x2x400000.Slices ![2, 0, 0] S1x2x400000
  bcast_S100000x128_S1x100000x128_1_2 : S100000x128.BroadcastsInDim S1x100000x128 (![1, 2] : Fin 2 → Fin S1x100000x128.rank)
  concatenates_S1x100000x128_S1x100000x128_S1x100000x128_S3x100000x128_d0 : Shape.Concatenates [S1x100000x128, S1x100000x128, S1x100000x128] S3x100000x128 0
  slices_S2x3x128x128_S1x3x128x128_0_0_0_0 : S2x3x128x128.Slices ![0, 0, 0, 0] S1x3x128x128
  shapeCasts_S1x3x128x128_S3x128x128 : S1x3x128x128.ShapeCasts S3x128x128
  slices_S2x3x128_S1x3x128_0_0_0 : S2x3x128.Slices ![0, 0, 0] S1x3x128
  shapeCasts_S1x3x128_S3x128 : S1x3x128.ShapeCasts S3x128
  inb_S5000x128_S5000x128_0_0 : ∀ a, (![0, 0] : Fin 2 → Nat) a + S5000x128.size a ≤ S5000x128.size a
  h_S5000x128 : 0 < S5000x128.numel
  inb_S3x5000x128_S1x5000x128_0_0_0 : ∀ a, (![0, 0, 0] : Fin 3 → Nat) a + S1x5000x128.size a ≤ S3x5000x128.size a
  h_S1x5000x128 : 0 < S1x5000x128.numel
  shapeCasts_S1x5000x128_S5000x128 : S1x5000x128.ShapeCasts S5000x128
  inb_S3x128x128_S1x128x128_0_0_0 : ∀ a, (![0, 0, 0] : Fin 3 → Nat) a + S1x128x128.size a ≤ S3x128x128.size a
  h_S1x128x128 : 0 < S1x128x128.numel
  shapeCasts_S1x128x128_S128x128 : S1x128x128.ShapeCasts S128x128
  inb_S3x128_S1x128_0_0 : ∀ a, (![0, 0] : Fin 2 → Nat) a + S1x128.size a ≤ S3x128.size a
  h_S1x128 : 0 < S1x128.numel
  shapeCasts_S1x128_S128 : S1x128.ShapeCasts S128
  shapeCasts_S128_S1x128 : S128.ShapeCasts S1x128
  broadcasts_S1x128_S5000x128 : S1x128.Broadcasts S5000x128
  inb_S3x5000x128_S1x5000x128_1_0_0 : ∀ a, (![1, 0, 0] : Fin 3 → Nat) a + S1x5000x128.size a ≤ S3x5000x128.size a
  inb_S3x128x128_S1x128x128_1_0_0 : ∀ a, (![1, 0, 0] : Fin 3 → Nat) a + S1x128x128.size a ≤ S3x128x128.size a
  inb_S3x128_S1x128_1_0 : ∀ a, (![1, 0] : Fin 2 → Nat) a + S1x128.size a ≤ S3x128.size a
  inb_S3x5000x128_S1x5000x128_2_0_0 : ∀ a, (![2, 0, 0] : Fin 3 → Nat) a + S1x5000x128.size a ≤ S3x5000x128.size a
  inb_S3x128x128_S1x128x128_2_0_0 : ∀ a, (![2, 0, 0] : Fin 3 → Nat) a + S1x128x128.size a ≤ S3x128x128.size a
  inb_S3x128_S1x128_2_0 : ∀ a, (![2, 0] : Fin 2 → Nat) a + S1x128.size a ≤ S3x128.size a
  slices_S2x3x128x128_S1x3x128x128_1_0_0_0 : S2x3x128x128.Slices ![1, 0, 0, 0] S1x3x128x128
  slices_S2x3x128_S1x3x128_1_0_0 : S2x3x128.Slices ![1, 0, 0] S1x3x128
  shapeCasts_S5000x128_S5000x128 : S5000x128.ShapeCasts S5000x128
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  gather_S100000x128_S400000x1_S400000x128_1_0_n_n_0_1_1128_wf : GatherDims.WF S100000x128 S400000x1 S400000x128 [1] [0] [] [0] [] 1 ![1, 128]
  scatter_S100000x128_S400000x1_S400000x128_1_0_0_1_wf : ScatterDims.WF S100000x128 S400000x1 S400000x128 [1] [0] [0] 1
  scatter_S100000_S400000x1_S400000_n_0_0_1_wf : ScatterDims.WF S100000 S400000x1 S400000 [] [0] [0] 1
  dot_S5000x128_S128x128_S5000x128_1_0_0_1_n_n_wf : DotDims.WF S5000x128 S128x128 S5000x128 [1] [0] [0] [1] [] []
  dot_S100000x128_S128x2_S100000x2_1_0_0_1_n_n_wf : DotDims.WF S100000x128 S128x2 S100000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3x5000x128.size a ≤ S3x100000x128.size a
  hwx0_1 : ∀ i : grid0.Coords, EltTy.bits .f32 = 32 ∨ (Rect.block (s := S3x100000x128) S3x5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S3x128x128.size a ≤ S3x128x128.size a
  hwx0_2 : ∀ i : grid0.Coords, EltTy.bits .f32 = 32 ∨ (Rect.block (s := S3x128x128) S3x128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S3x128x128.size a ≤ S3x128x128.size a
  hwx0_3 : ∀ i : grid0.Coords, EltTy.bits .f32 = 32 ∨ (Rect.block (s := S3x128x128) S3x128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S3x128.size a ≤ S3x128.size a
  hwx0_4 : ∀ i : grid0.Coords, EltTy.bits .f32 = 32 ∨ (Rect.block (s := S3x128) S3x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S3x5000x128.size a ≤ S3x100000x128.size a
  hwx1_1 : ∀ i : grid1.Coords, EltTy.bits .f32 = 32 ∨ (Rect.block (s := S3x100000x128) S3x5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S3x128x128.size a ≤ S3x128x128.size a
  hwx1_2 : ∀ i : grid1.Coords, EltTy.bits .f32 = 32 ∨ (Rect.block (s := S3x128x128) S3x128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S3x128x128.size a ≤ S3x128x128.size a
  hwx1_3 : ∀ i : grid1.Coords, EltTy.bits .f32 = 32 ∨ (Rect.block (s := S3x128x128) S3x128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S3x128.size a ≤ S3x128.size a
  hwx1_4 : ∀ i : grid1.Coords, EltTy.bits .f32 = 32 ∨ (Rect.block (s := S3x128) S3x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)

variable [Facts₀]

def gather_S100000x128_S400000x1_S400000x128_1_0_n_n_0_1_1128 : GatherDims S100000x128 S400000x1 S400000x128 where
  offsetDims := [1]
  collapsedSliceDims := [0]
  operandBatchingDims := []
  startIndicesBatchingDims := []
  startIndexMap := [0]
  indexVectorDim := 1
  sliceSizes := ![1, 128]
  wf := gather_S100000x128_S400000x1_S400000x128_1_0_n_n_0_1_1128_wf
def scatter_S100000x128_S400000x1_S400000x128_1_0_0_1 : ScatterDims S100000x128 S400000x1 S400000x128 where
  updateWindowDims := [1]
  insertedWindowDims := [0]
  scatterDimsToOperandDims := [0]
  indexVectorDim := 1
  wf := scatter_S100000x128_S400000x1_S400000x128_1_0_0_1_wf
def scatter_S100000_S400000x1_S400000_n_0_0_1 : ScatterDims S100000 S400000x1 S400000 where
  updateWindowDims := []
  insertedWindowDims := [0]
  scatterDimsToOperandDims := [0]
  indexVectorDim := 1
  wf := scatter_S100000_S400000x1_S400000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S100000x128_S128x2_S100000x2_1_0_0_1_n_n : DotDims S100000x128 S128x2 S100000x2 where
  lhsContracting := [1]
  rhsContracting := [0]
  lhsNonContracting := [0]
  rhsNonContracting := [1]
  lhsBatch := []
  rhsBatch := []
  wf := dot_S100000x128_S128x2_S100000x2_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v78) S3x5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v80) S3x128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v82) S3x128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v84) S3x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v85) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v85) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v164) S3x5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v166) S3x128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v168) S3x128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v170) S3x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v171) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x128 : Shape := ⟨2, ![100000, 128]⟩
abbrev S3x2x400000 : Shape := ⟨3, ![3, 2, 400000]⟩
abbrev S2x3x128x128 : Shape := ⟨4, ![2, 3, 128, 128]⟩
abbrev S2x3x128 : Shape := ⟨3, ![2, 3, 128]⟩
abbrev S128x2 : Shape := ⟨2, ![128, 2]⟩
abbrev S2 : Shape := ⟨1, ![2]⟩
abbrev S_ : Shape := ⟨0, ![]⟩
abbrev S1x2x400000 : Shape := ⟨3, ![1, 2, 400000]⟩
abbrev S2x400000 : Shape := ⟨2, ![2, 400000]⟩
abbrev S1x400000 : Shape := ⟨2, ![1, 400000]⟩
abbrev S400000 : Shape := ⟨1, ![400000]⟩
abbrev S400000x1 : Shape := ⟨2, ![400000, 1]⟩
abbrev S400000x128 : Shape := ⟨2, ![400000, 128]⟩
abbrev S100000 : Shape := ⟨1, ![100000]⟩
abbrev S100000x1 : Shape := ⟨2, ![100000, 1]⟩
abbrev S1x1x128x128 : Shape := ⟨4, ![1, 1, 128, 128]⟩
abbrev S128x128 : Shape := ⟨2, ![128, 128]⟩
abbrev S1x1x128 : Shape := ⟨3, ![1, 1, 128]⟩
abbrev S128 : Shape := ⟨1, ![128]⟩
abbrev S1x128 : Shape := ⟨2, ![1, 128]⟩
abbrev S100000x2 : Shape := ⟨2, ![100000, 2]⟩
abbrev S1x2 : Shape := ⟨2, ![1, 2]⟩

abbrev nBuf : Space → Nat
  | .hbm => 282
  | .vmem => 0
  | .smem => 0
  | _ => 0

abbrev hbmTy0_0 (i : Nat) : BufTy := match i % 128 with
  | 0 => ⟨S100000x128, .f32⟩
  | 1 => ⟨S3x2x400000, .i32⟩
  | 2 => ⟨S2x3x128x128, .f32⟩
  | 3 => ⟨S2x3x128x128, .f32⟩
  | 4 => ⟨S2x3x128, .f32⟩
  | 5 => ⟨S128x2, .f32⟩
  | 6 => ⟨S2, .f32⟩
  | 7 => ⟨S_, .f32⟩
  | 8 => ⟨S100000x128, .f32⟩
  | 9 => ⟨S1x2x400000, .i32⟩
  | 10 => ⟨S2x400000, .i32⟩
  | 11 => ⟨S1x400000, .i32⟩
  | 12 => ⟨S400000, .i32⟩
  | 13 => ⟨S1x400000, .i32⟩
  | 14 => ⟨S400000, .i32⟩
  | 15 => ⟨S_, .i32⟩
  | 16 => ⟨S400000, .i32⟩
  | 17 => ⟨S400000, .i1⟩
  | 18 => ⟨S_, .i32⟩
  | 19 => ⟨S400000, .i32⟩
  | 20 => ⟨S400000, .i32⟩
  | 21 => ⟨S400000, .i32⟩
  | 22 => ⟨S400000x1, .i32⟩
  | 23 => ⟨S400000x128, .f32⟩
  | 24 => ⟨S_, .f32⟩
  | 25 => ⟨S100000x128, .f32⟩
  | 26 => ⟨S400000x1, .i32⟩
  | 27 => ⟨S100000x128, .f32⟩
  | 28 => ⟨S_, .f32⟩
  | 29 => ⟨S400000, .f32⟩
  | 30 => ⟨S_, .f32⟩
  | 31 => ⟨S100000, .f32⟩
  | 32 => ⟨S400000x1, .i32⟩
  | 33 => ⟨S100000, .f32⟩
  | 34 => ⟨S_, .f32⟩
  | 35 => ⟨S100000, .f32⟩
  | 36 => ⟨S100000, .f32⟩
  | 37 => ⟨S100000x1, .f32⟩
  | 38 => ⟨S100000x128, .f32⟩
  | 39 => ⟨S100000x128, .f32⟩
  | 40 => ⟨S1x1x128x128, .f32⟩
  | 41 => ⟨S128x128, .f32⟩
  | 42 => ⟨S100000x128, .f32⟩
  | 43 => ⟨S100000x128, .f32⟩
  | 44 => ⟨S1x1x128x128, .f32⟩
  | 45 => ⟨S128x128, .f32⟩
  | 46 => ⟨S100000x128, .f32⟩
  | 47 => ⟨S100000x128, .f32⟩
  | 48 => ⟨S1x1x128, .f32⟩
  | 49 => ⟨S128, .f32⟩
  | 50 => ⟨S1x128, .f32⟩
  | 51 => ⟨S100000x128, .f32⟩
  | 52 => ⟨S100000x128, .f32⟩
  | 53 => ⟨S1x2x400000, .i32⟩
  | 54 => ⟨S2x400000, .i32⟩
  | 55 => ⟨S1x400000, .i32⟩
  | 56 => ⟨S400000, .i32⟩
  | 57 => ⟨S1x400000, .i32⟩
  | 58 => ⟨S400000, .i32⟩
  | 59 => ⟨S_, .i32⟩
  | 60 => ⟨S400000, .i32⟩
  | 61 => ⟨S400000, .i1⟩
  | 62 => ⟨S_, .i32⟩
  | 63 => ⟨S400000, .i32⟩
  | 64 => ⟨S400000, .i32⟩
  | 65 => ⟨S400000, .i32⟩
  | 66 => ⟨S400000x1, .i32⟩
  | 67 => ⟨S400000x128, .f32⟩
  | 68 => ⟨S_, .f32⟩
  | 69 => ⟨S100000x128, .f32⟩
  | 70 => ⟨S400000x1, .i32⟩
  | 71 => ⟨S100000x128, .f32⟩
  | 72 => ⟨S_, .f32⟩
  | 73 => ⟨S400000, .f32⟩
  | 74 => ⟨S_, .f32⟩
  | 75 => ⟨S100000, .f32⟩
  | 76 => ⟨S400000x1, .i32⟩
  | 77 => ⟨S100000, .f32⟩
  | 78 => ⟨S_, .f32⟩
  | 79 => ⟨S100000, .f32⟩
  | 80 => ⟨S100000, .f32⟩
  | 81 => ⟨S100000x1, .f32⟩
  | 82 => ⟨S100000x128, .f32⟩
  | 83 => ⟨S100000x128, .f32⟩
  | 84 => ⟨S1x1x128x128, .f32⟩
  | 85 => ⟨S128x128, .f32⟩
  | 86 => ⟨S100000x128, .f32⟩
  | 87 => ⟨S100000x128, .f32⟩
  | 88 => ⟨S1x1x128x128, .f32⟩
  | 89 => ⟨S128x128, .f32⟩
  | 90 => ⟨S100000x128, .f32⟩
  | 91 => ⟨S100000x128, .f32⟩
  | 92 => ⟨S1x1x128, .f32⟩
  | 93 => ⟨S128, .f32⟩
  | 94 => ⟨S1x128, .f32⟩
  | 95 => ⟨S100000x128, .f32⟩
  | 96 => ⟨S100000x128, .f32⟩
  | 97 => ⟨S1x2x400000, .i32⟩
  | 98 => ⟨S2x400000, .i32⟩
  | 99 => ⟨S1x400000, .i32⟩
  | 100 => ⟨S400000, .i32⟩
  | 101 => ⟨S1x400000, .i32⟩
  | 102 => ⟨S400000, .i32⟩
  | 103 => ⟨S_, .i32⟩
  | 104 => ⟨S400000, .i32⟩
  | 105 => ⟨S400000, .i1⟩
  | 106 => ⟨S_, .i32⟩
  | 107 => ⟨S400000, .i32⟩
  | 108 => ⟨S400000, .i32⟩
  | 109 => ⟨S400000, .i32⟩
  | 110 => ⟨S400000x1, .i32⟩
  | 111 => ⟨S400000x128, .f32⟩
  | 112 => ⟨S_, .f32⟩
  | 113 => ⟨S100000x128, .f32⟩
  | 114 => ⟨S400000x1, .i32⟩
  | 115 => ⟨S100000x128, .f32⟩
  | 116 => ⟨S_, .f32⟩
  | 117 => ⟨S400000, .f32⟩
  | 118 => ⟨S_, .f32⟩
  | 119 => ⟨S100000, .f32⟩
  | 120 => ⟨S400000x1, .i32⟩
  | 121 => ⟨S100000, .f32⟩
  | 122 => ⟨S_, .f32⟩
  | 123 => ⟨S100000, .f32⟩
  | 124 => ⟨S100000, .f32⟩
  | 125 => ⟨S100000x1, .f32⟩
  | 126 => ⟨S100000x128, .f32⟩
  | 127 => ⟨S100000x128, .f32⟩
  | _ => ⟨S100000x128, .f32⟩

abbrev hbmTy0_1 (i : Nat) : BufTy := match i % 128 with
  | 0 => ⟨S1x1x128x128, .f32⟩
  | 1 => ⟨S128x128, .f32⟩
  | 2 => ⟨S100000x128, .f32⟩
  | 3 => ⟨S100000x128, .f32⟩
  | 4 => ⟨S1x1x128x128, .f32⟩
  | 5 => ⟨S128x128, .f32⟩
  | 6 => ⟨S100000x128, .f32⟩
  | 7 => ⟨S100000x128, .f32⟩
  | 8 => ⟨S1x1x128, .f32⟩
  | 9 => ⟨S128, .f32⟩
  | 10 => ⟨S1x128, .f32⟩
  | 11 => ⟨S100000x128, .f32⟩
  | 12 => ⟨S100000x128, .f32⟩
  | 13 => ⟨S_, .f32⟩
  | 14 => ⟨S100000x128, .f32⟩
  | 15 => ⟨S100000x128, .f32⟩
  | 16 => ⟨S_, .f32⟩
  | 17 => ⟨S100000x128, .f32⟩
  | 18 => ⟨S1x2x400000, .i32⟩
  | 19 => ⟨S2x400000, .i32⟩
  | 20 => ⟨S1x400000, .i32⟩
  | 21 => ⟨S400000, .i32⟩
  | 22 => ⟨S1x400000, .i32⟩
  | 23 => ⟨S400000, .i32⟩
  | 24 => ⟨S_, .i32⟩
  | 25 => ⟨S400000, .i32⟩
  | 26 => ⟨S400000, .i1⟩
  | 27 => ⟨S_, .i32⟩
  | 28 => ⟨S400000, .i32⟩
  | 29 => ⟨S400000, .i32⟩
  | 30 => ⟨S400000, .i32⟩
  | 31 => ⟨S400000x1, .i32⟩
  | 32 => ⟨S400000x128, .f32⟩
  | 33 => ⟨S_, .f32⟩
  | 34 => ⟨S100000x128, .f32⟩
  | 35 => ⟨S400000x1, .i32⟩
  | 36 => ⟨S100000x128, .f32⟩
  | 37 => ⟨S_, .f32⟩
  | 38 => ⟨S400000, .f32⟩
  | 39 => ⟨S_, .f32⟩
  | 40 => ⟨S100000, .f32⟩
  | 41 => ⟨S400000x1, .i32⟩
  | 42 => ⟨S100000, .f32⟩
  | 43 => ⟨S_, .f32⟩
  | 44 => ⟨S100000, .f32⟩
  | 45 => ⟨S100000, .f32⟩
  | 46 => ⟨S100000x1, .f32⟩
  | 47 => ⟨S100000x128, .f32⟩
  | 48 => ⟨S100000x128, .f32⟩
  | 49 => ⟨S1x1x128x128, .f32⟩
  | 50 => ⟨S128x128, .f32⟩
  | 51 => ⟨S100000x128, .f32⟩
  | 52 => ⟨S100000x128, .f32⟩
  | 53 => ⟨S1x1x128x128, .f32⟩
  | 54 => ⟨S128x128, .f32⟩
  | 55 => ⟨S100000x128, .f32⟩
  | 56 => ⟨S100000x128, .f32⟩
  | 57 => ⟨S1x1x128, .f32⟩
  | 58 => ⟨S128, .f32⟩
  | 59 => ⟨S1x128, .f32⟩
  | 60 => ⟨S100000x128, .f32⟩
  | 61 => ⟨S100000x128, .f32⟩
  | 62 => ⟨S1x2x400000, .i32⟩
  | 63 => ⟨S2x400000, .i32⟩
  | 64 => ⟨S1x400000, .i32⟩
  | 65 => ⟨S400000, .i32⟩
  | 66 => ⟨S1x400000, .i32⟩
  | 67 => ⟨S400000, .i32⟩
  | 68 => ⟨S_, .i32⟩
  | 69 => ⟨S400000, .i32⟩
  | 70 => ⟨S400000, .i1⟩
  | 71 => ⟨S_, .i32⟩
  | 72 => ⟨S400000, .i32⟩
  | 73 => ⟨S400000, .i32⟩
  | 74 => ⟨S400000, .i32⟩
  | 75 => ⟨S400000x1, .i32⟩
  | 76 => ⟨S400000x128, .f32⟩
  | 77 => ⟨S_, .f32⟩
  | 78 => ⟨S100000x128, .f32⟩
  | 79 => ⟨S400000x1, .i32⟩
  | 80 => ⟨S100000x128, .f32⟩
  | 81 => ⟨S_, .f32⟩
  | 82 => ⟨S400000, .f32⟩
  | 83 => ⟨S_, .f32⟩
  | 84 => ⟨S100000, .f32⟩
  | 85 => ⟨S400000x1, .i32⟩
  | 86 => ⟨S100000, .f32⟩
  | 87 => ⟨S_, .f32⟩
  | 88 => ⟨S100000, .f32⟩
  | 89 => ⟨S100000, .f32⟩
  | 90 => ⟨S100000x1, .f32⟩
  | 91 => ⟨S100000x128, .f32⟩
  | 92 => ⟨S100000x128, .f32⟩
  | 93 => ⟨S1x1x128x128, .f32⟩
  | 94 => ⟨S128x128, .f32⟩
  | 95 => ⟨S100000x128, .f32⟩
  | 96 => ⟨S100000x128, .f32⟩
  | 97 => ⟨S1x1x128x128, .f32⟩
  | 98 => ⟨S128x128, .f32⟩
  | 99 => ⟨S100000x128, .f32⟩
  | 100 => ⟨S100000x128, .f32⟩
  | 101 => ⟨S1x1x128, .f32⟩
  | 102 => ⟨S128, .f32⟩
  | 103 => ⟨S1x128, .f32⟩
  | 104 => ⟨S100000x128, .f32⟩
  | 105 => ⟨S100000x128, .f32⟩
  | 106 => ⟨S1x2x400000, .i32⟩
  | 107 => ⟨S2x400000, .i32⟩
  | 108 => ⟨S1x400000, .i32⟩
  | 109 => ⟨S400000, .i32⟩
  | 110 => ⟨S1x400000, .i32⟩
  | 111 => ⟨S400000, .i32⟩
  | 112 => ⟨S_, .i32⟩
  | 113 => ⟨S400000, .i32⟩
  | 114 => ⟨S400000, .i1⟩
  | 115 => ⟨S_, .i32⟩
  | 116 => ⟨S400000, .i32⟩
  | 117 => ⟨S400000, .i32⟩
  | 118 => ⟨S400000, .i32⟩
  | 119 => ⟨S400000x1, .i32⟩
  | 120 => ⟨S400000x128, .f32⟩
  | 121 => ⟨S_, .f32⟩
  | 122 => ⟨S100000x128, .f32⟩
  | 123 => ⟨S400000x1, .i32⟩
  | 124 => ⟨S100000x128, .f32⟩
  | 125 => ⟨S_, .f32⟩
  | 126 => ⟨S400000, .f32⟩
  | 127 => ⟨S_, .f32⟩
  | _ => ⟨S100000x128, .f32⟩

abbrev hbmTy0_2 (i : Nat) : BufTy := match i % 128 with
  | 0 => ⟨S100000, .f32⟩
  | 1 => ⟨S400000x1, .i32⟩
  | 2 => ⟨S100000, .f32⟩
  | 3 => ⟨S_, .f32⟩
  | 4 => ⟨S100000, .f32⟩
  | 5 => ⟨S100000, .f32⟩
  | 6 => ⟨S100000x1, .f32⟩
  | 7 => ⟨S100000x128, .f32⟩
  | 8 => ⟨S100000x128, .f32⟩
  | 9 => ⟨S1x1x128x128, .f32⟩
  | 10 => ⟨S128x128, .f32⟩
  | 11 => ⟨S100000x128, .f32⟩
  | 12 => ⟨S100000x128, .f32⟩
  | 13 => ⟨S1x1x128x128, .f32⟩
  | 14 => ⟨S128x128, .f32⟩
  | 15 => ⟨S100000x128, .f32⟩
  | 16 => ⟨S100000x128, .f32⟩
  | 17 => ⟨S1x1x128, .f32⟩
  | 18 => ⟨S128, .f32⟩
  | 19 => ⟨S1x128, .f32⟩
  | 20 => ⟨S100000x128, .f32⟩
  | 21 => ⟨S100000x128, .f32⟩
  | 22 => ⟨S100000x2, .f32⟩
  | 23 => ⟨S1x2, .f32⟩
  | 24 => ⟨S100000x2, .f32⟩
  | 25 => ⟨S100000x2, .f32⟩
  | _ => ⟨S100000x128, .f32⟩

abbrev hbmTy (i : Nat) : BufTy := match i / 128 with
  | 0 => hbmTy0_0 i
  | 1 => hbmTy0_1 i
  | 2 => hbmTy0_2 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c : Ref sig .tc := ⟨.hbm, 15, rfl⟩
abbrev main_v7 : Ref sig .tc := ⟨.hbm, 16, rfl⟩
abbrev main_v8 : Ref sig .tc := ⟨.hbm, 17, rfl⟩
abbrev main_c_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_1 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_2 : Ref sig .tc := ⟨.hbm, 28, rfl⟩
abbrev main_v17 : Ref sig .tc := ⟨.hbm, 29, rfl⟩
abbrev main_cst_3 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_4 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_c_5 : Ref sig .tc := ⟨.hbm, 59, rfl⟩
abbrev main_v45 : Ref sig .tc := ⟨.hbm, 60, rfl⟩
abbrev main_v46 : Ref sig .tc := ⟨.hbm, 61, rfl⟩
abbrev main_c_6 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_cst_7 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_cst_8 : Ref sig .tc := ⟨.hbm, 72, rfl⟩
abbrev main_v55 : Ref sig .tc := ⟨.hbm, 73, rfl⟩
abbrev main_cst_9 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_cst_10 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_c_11 : Ref sig .tc := ⟨.hbm, 103, rfl⟩
abbrev main_v83 : Ref sig .tc := ⟨.hbm, 104, rfl⟩
abbrev main_v84 : Ref sig .tc := ⟨.hbm, 105, rfl⟩
abbrev main_c_12 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_cst_13 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_cst_14 : Ref sig .tc := ⟨.hbm, 116, rfl⟩
abbrev main_v93 : Ref sig .tc := ⟨.hbm, 117, rfl⟩
abbrev main_cst_15 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_cst_16 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_v101 : Ref sig .tc := ⟨.hbm, 127, rfl⟩
abbrev main_v102 : Ref sig .tc := ⟨.hbm, 128, rfl⟩
abbrev main_v103 : Ref sig .tc := ⟨.hbm, 129, rfl⟩
abbrev main_v104 : Ref sig .tc := ⟨.hbm, 130, rfl⟩
abbrev main_v105 : Ref sig .tc := ⟨.hbm, 131, rfl⟩
abbrev main_v106 : Ref sig .tc := ⟨.hbm, 132, rfl⟩
abbrev main_v107 : Ref sig .tc := ⟨.hbm, 133, rfl⟩
abbrev main_v108 : Ref sig .tc := ⟨.hbm, 134, rfl⟩
abbrev main_v109 : Ref sig .tc := ⟨.hbm, 135, rfl⟩
abbrev main_v110 : Ref sig .tc := ⟨.hbm, 136, rfl⟩
abbrev main_v111 : Ref sig .tc := ⟨.hbm, 137, rfl⟩
abbrev main_v112 : Ref sig .tc := ⟨.hbm, 138, rfl⟩
abbrev main_v113 : Ref sig .tc := ⟨.hbm, 139, rfl⟩
abbrev main_v114 : Ref sig .tc := ⟨.hbm, 140, rfl⟩
abbrev main_call0_cst : Ref sig .tc := ⟨.hbm, 141, rfl⟩
abbrev main_call0_v0 : Ref sig .tc := ⟨.hbm, 142, rfl⟩
abbrev main_v115 : Ref sig .tc := ⟨.hbm, 143, rfl⟩
abbrev main_cst_17 : Ref sig .tc := ⟨.hbm, 144, rfl⟩
abbrev main_v116 : Ref sig .tc := ⟨.hbm, 145, rfl⟩
abbrev main_v117 : Ref sig .tc := ⟨.hbm, 146, rfl⟩
abbrev main_v118 : Ref sig .tc := ⟨.hbm, 147, rfl⟩
abbrev main_v119 : Ref sig .tc := ⟨.hbm, 148, rfl⟩
abbrev main_v120 : Ref sig .tc := ⟨.hbm, 149, rfl⟩
abbrev main_v121 : Ref sig .tc := ⟨.hbm, 150, rfl⟩
abbrev main_v122 : Ref sig .tc := ⟨.hbm, 151, rfl⟩
abbrev main_c_18 : Ref sig .tc := ⟨.hbm, 152, rfl⟩
abbrev main_v123 : Ref sig .tc := ⟨.hbm, 153, rfl⟩
abbrev main_v124 : Ref sig .tc := ⟨.hbm, 154, rfl⟩
abbrev main_c_19 : Ref sig .tc := ⟨.hbm, 155, rfl⟩
abbrev main_v125 : Ref sig .tc := ⟨.hbm, 156, rfl⟩
abbrev main_v126 : Ref sig .tc := ⟨.hbm, 157, rfl⟩
abbrev main_v127 : Ref sig .tc := ⟨.hbm, 158, rfl⟩
abbrev main_v128 : Ref sig .tc := ⟨.hbm, 159, rfl⟩
abbrev main_v129 : Ref sig .tc := ⟨.hbm, 160, rfl⟩
abbrev main_cst_20 : Ref sig .tc := ⟨.hbm, 161, rfl⟩
abbrev main_v130 : Ref sig .tc := ⟨.hbm, 162, rfl⟩
abbrev main_v131 : Ref sig .tc := ⟨.hbm, 163, rfl⟩
abbrev main_v132 : Ref sig .tc := ⟨.hbm, 164, rfl⟩
abbrev main_cst_21 : Ref sig .tc := ⟨.hbm, 165, rfl⟩
abbrev main_v133 : Ref sig .tc := ⟨.hbm, 166, rfl⟩
abbrev main_cst_22 : Ref sig .tc := ⟨.hbm, 167, rfl⟩
abbrev main_v134 : Ref sig .tc := ⟨.hbm, 168, rfl⟩
abbrev main_v135 : Ref sig .tc := ⟨.hbm, 169, rfl⟩
abbrev main_v136 : Ref sig .tc := ⟨.hbm, 170, rfl⟩
abbrev main_cst_23 : Ref sig .tc := ⟨.hbm, 171, rfl⟩
abbrev main_v137 : Ref sig .tc := ⟨.hbm, 172, rfl⟩
abbrev main_v138 : Ref sig .tc := ⟨.hbm, 173, rfl⟩
abbrev main_v139 : Ref sig .tc := ⟨.hbm, 174, rfl⟩
abbrev main_v140 : Ref sig .tc := ⟨.hbm, 175, rfl⟩
abbrev main_v141 : Ref sig .tc := ⟨.hbm, 176, rfl⟩
abbrev main_v142 : Ref sig .tc := ⟨.hbm, 177, rfl⟩
abbrev main_v143 : Ref sig .tc := ⟨.hbm, 178, rfl⟩
abbrev main_v144 : Ref sig .tc := ⟨.hbm, 179, rfl⟩
abbrev main_v145 : Ref sig .tc := ⟨.hbm, 180, rfl⟩
abbrev main_v146 : Ref sig .tc := ⟨.hbm, 181, rfl⟩
abbrev main_v147 : Ref sig .tc := ⟨.hbm, 182, rfl⟩
abbrev main_v148 : Ref sig .tc := ⟨.hbm, 183, rfl⟩
abbrev main_v149 : Ref sig .tc := ⟨.hbm, 184, rfl⟩
abbrev main_v150 : Ref sig .tc := ⟨.hbm, 185, rfl⟩
abbrev main_v151 : Ref sig .tc := ⟨.hbm, 186, rfl⟩
abbrev main_v152 : Ref sig .tc := ⟨.hbm, 187, rfl⟩
abbrev main_v153 : Ref sig .tc := ⟨.hbm, 188, rfl⟩
abbrev main_v154 : Ref sig .tc := ⟨.hbm, 189, rfl⟩
abbrev main_v155 : Ref sig .tc := ⟨.hbm, 190, rfl⟩
abbrev main_v156 : Ref sig .tc := ⟨.hbm, 191, rfl⟩
abbrev main_v157 : Ref sig .tc := ⟨.hbm, 192, rfl⟩
abbrev main_v158 : Ref sig .tc := ⟨.hbm, 193, rfl⟩
abbrev main_v159 : Ref sig .tc := ⟨.hbm, 194, rfl⟩
abbrev main_v160 : Ref sig .tc := ⟨.hbm, 195, rfl⟩
abbrev main_c_24 : Ref sig .tc := ⟨.hbm, 196, rfl⟩
abbrev main_v161 : Ref sig .tc := ⟨.hbm, 197, rfl⟩
abbrev main_v162 : Ref sig .tc := ⟨.hbm, 198, rfl⟩
abbrev main_c_25 : Ref sig .tc := ⟨.hbm, 199, rfl⟩
abbrev main_v163 : Ref sig .tc := ⟨.hbm, 200, rfl⟩
abbrev main_v164 : Ref sig .tc := ⟨.hbm, 201, rfl⟩
abbrev main_v165 : Ref sig .tc := ⟨.hbm, 202, rfl⟩
abbrev main_v166 : Ref sig .tc := ⟨.hbm, 203, rfl⟩
abbrev main_v167 : Ref sig .tc := ⟨.hbm, 204, rfl⟩
abbrev main_cst_26 : Ref sig .tc := ⟨.hbm, 205, rfl⟩
abbrev main_v168 : Ref sig .tc := ⟨.hbm, 206, rfl⟩
abbrev main_v169 : Ref sig .tc := ⟨.hbm, 207, rfl⟩
abbrev main_v170 : Ref sig .tc := ⟨.hbm, 208, rfl⟩
abbrev main_cst_27 : Ref sig .tc := ⟨.hbm, 209, rfl⟩
abbrev main_v171 : Ref sig .tc := ⟨.hbm, 210, rfl⟩
abbrev main_cst_28 : Ref sig .tc := ⟨.hbm, 211, rfl⟩
abbrev main_v172 : Ref sig .tc := ⟨.hbm, 212, rfl⟩
abbrev main_v173 : Ref sig .tc := ⟨.hbm, 213, rfl⟩
abbrev main_v174 : Ref sig .tc := ⟨.hbm, 214, rfl⟩
abbrev main_cst_29 : Ref sig .tc := ⟨.hbm, 215, rfl⟩
abbrev main_v175 : Ref sig .tc := ⟨.hbm, 216, rfl⟩
abbrev main_v176 : Ref sig .tc := ⟨.hbm, 217, rfl⟩
abbrev main_v177 : Ref sig .tc := ⟨.hbm, 218, rfl⟩
abbrev main_v178 : Ref sig .tc := ⟨.hbm, 219, rfl⟩
abbrev main_v179 : Ref sig .tc := ⟨.hbm, 220, rfl⟩
abbrev main_v180 : Ref sig .tc := ⟨.hbm, 221, rfl⟩
abbrev main_v181 : Ref sig .tc := ⟨.hbm, 222, rfl⟩
abbrev main_v182 : Ref sig .tc := ⟨.hbm, 223, rfl⟩
abbrev main_v183 : Ref sig .tc := ⟨.hbm, 224, rfl⟩
abbrev main_v184 : Ref sig .tc := ⟨.hbm, 225, rfl⟩
abbrev main_v185 : Ref sig .tc := ⟨.hbm, 226, rfl⟩
abbrev main_v186 : Ref sig .tc := ⟨.hbm, 227, rfl⟩
abbrev main_v187 : Ref sig .tc := ⟨.hbm, 228, rfl⟩
abbrev main_v188 : Ref sig .tc := ⟨.hbm, 229, rfl⟩
abbrev main_v189 : Ref sig .tc := ⟨.hbm, 230, rfl⟩
abbrev main_v190 : Ref sig .tc := ⟨.hbm, 231, rfl⟩
abbrev main_v191 : Ref sig .tc := ⟨.hbm, 232, rfl⟩
abbrev main_v192 : Ref sig .tc := ⟨.hbm, 233, rfl⟩
abbrev main_v193 : Ref sig .tc := ⟨.hbm, 234, rfl⟩
abbrev main_v194 : Ref sig .tc := ⟨.hbm, 235, rfl⟩
abbrev main_v195 : Ref sig .tc := ⟨.hbm, 236, rfl⟩
abbrev main_v196 : Ref sig .tc := ⟨.hbm, 237, rfl⟩
abbrev main_v197 : Ref sig .tc := ⟨.hbm, 238, rfl⟩
abbrev main_v198 : Ref sig .tc := ⟨.hbm, 239, rfl⟩
abbrev main_c_30 : Ref sig .tc := ⟨.hbm, 240, rfl⟩
abbrev main_v199 : Ref sig .tc := ⟨.hbm, 241, rfl⟩
abbrev main_v200 : Ref sig .tc := ⟨.hbm, 242, rfl⟩
abbrev main_c_31 : Ref sig .tc := ⟨.hbm, 243, rfl⟩
abbrev main_v201 : Ref sig .tc := ⟨.hbm, 244, rfl⟩
abbrev main_v202 : Ref sig .tc := ⟨.hbm, 245, rfl⟩
abbrev main_v203 : Ref sig .tc := ⟨.hbm, 246, rfl⟩
abbrev main_v204 : Ref sig .tc := ⟨.hbm, 247, rfl⟩
abbrev main_v205 : Ref sig .tc := ⟨.hbm, 248, rfl⟩
abbrev main_cst_32 : Ref sig .tc := ⟨.hbm, 249, rfl⟩
abbrev main_v206 : Ref sig .tc := ⟨.hbm, 250, rfl⟩
abbrev main_v207 : Ref sig .tc := ⟨.hbm, 251, rfl⟩
abbrev main_v208 : Ref sig .tc := ⟨.hbm, 252, rfl⟩
abbrev main_cst_33 : Ref sig .tc := ⟨.hbm, 253, rfl⟩
abbrev main_v209 : Ref sig .tc := ⟨.hbm, 254, rfl⟩
abbrev main_cst_34 : Ref sig .tc := ⟨.hbm, 255, rfl⟩
abbrev main_v210 : Ref sig .tc := ⟨.hbm, 256, rfl⟩
abbrev main_v211 : Ref sig .tc := ⟨.hbm, 257, rfl⟩
abbrev main_v212 : Ref sig .tc := ⟨.hbm, 258, rfl⟩
abbrev main_cst_35 : Ref sig .tc := ⟨.hbm, 259, rfl⟩
abbrev main_v213 : Ref sig .tc := ⟨.hbm, 260, rfl⟩
abbrev main_v214 : Ref sig .tc := ⟨.hbm, 261, rfl⟩
abbrev main_v215 : Ref sig .tc := ⟨.hbm, 262, rfl⟩
abbrev main_v216 : Ref sig .tc := ⟨.hbm, 263, rfl⟩
abbrev main_v217 : Ref sig .tc := ⟨.hbm, 264, rfl⟩
abbrev main_v218 : Ref sig .tc := ⟨.hbm, 265, rfl⟩
abbrev main_v219 : Ref sig .tc := ⟨.hbm, 266, rfl⟩
abbrev main_v220 : Ref sig .tc := ⟨.hbm, 267, rfl⟩
abbrev main_v221 : Ref sig .tc := ⟨.hbm, 268, rfl⟩
abbrev main_v222 : Ref sig .tc := ⟨.hbm, 269, rfl⟩
abbrev main_v223 : Ref sig .tc := ⟨.hbm, 270, rfl⟩
abbrev main_v224 : Ref sig .tc := ⟨.hbm, 271, rfl⟩
abbrev main_v225 : Ref sig .tc := ⟨.hbm, 272, rfl⟩
abbrev main_v226 : Ref sig .tc := ⟨.hbm, 273, rfl⟩
abbrev main_v227 : Ref sig .tc := ⟨.hbm, 274, rfl⟩
abbrev main_v228 : Ref sig .tc := ⟨.hbm, 275, rfl⟩
abbrev main_v229 : Ref sig .tc := ⟨.hbm, 276, rfl⟩
abbrev main_v230 : Ref sig .tc := ⟨.hbm, 277, rfl⟩
abbrev main_v231 : Ref sig .tc := ⟨.hbm, 278, rfl⟩
abbrev main_v232 : Ref sig .tc := ⟨.hbm, 279, rfl⟩
abbrev main_v233 : Ref sig .tc := ⟨.hbm, 280, rfl⟩
abbrev main_v234 : Ref sig .tc := ⟨.hbm, 281, rfl⟩

abbrev nD : Nat := 1
abbrev τ : Topo := Topo.v7x

variable {F : FTy → Type} [FloatOps F]

class Facts₀ : Prop where
  bcast_S_S100000x128 : S_.BroadcastsInDim S100000x128 (![] : Fin 0 → Fin S100000x128.rank)
  slices_S3x2x400000_S1x2x400000_0_0_0 : S3x2x400000.Slices ![0, 0, 0] S1x2x400000
  shapeCasts_S1x2x400000_S2x400000 : S1x2x400000.ShapeCasts S2x400000
  slices_S2x400000_S1x400000_0_0 : S2x400000.Slices ![0, 0] S1x400000
  shapeCasts_S1x400000_S400000 : S1x400000.ShapeCasts S400000
  slices_S2x400000_S1x400000_1_0 : S2x400000.Slices ![1, 0] S1x400000
  bcast_S_S400000 : S_.BroadcastsInDim S400000 (![] : Fin 0 → Fin S400000.rank)
  bcast_S400000_S400000x1_0 : S400000.BroadcastsInDim S400000x1 (![0] : Fin 1 → Fin S400000x1.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  slices_S2x3x128x128_S1x1x128x128_0_0_0_0 : S2x3x128x128.Slices ![0, 0, 0, 0] S1x1x128x128
  shapeCasts_S1x1x128x128_S128x128 : S1x1x128x128.ShapeCasts S128x128
  slices_S2x3x128_S1x1x128_0_0_0 : S2x3x128.Slices ![0, 0, 0] S1x1x128
  shapeCasts_S1x1x128_S128 : S1x1x128.ShapeCasts S128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  slices_S3x2x400000_S1x2x400000_1_0_0 : S3x2x400000.Slices ![1, 0, 0] S1x2x400000
  slices_S2x3x128x128_S1x1x128x128_0_1_0_0 : S2x3x128x128.Slices ![0, 1, 0, 0] S1x1x128x128
  slices_S2x3x128_S1x1x128_0_1_0 : S2x3x128.Slices ![0, 1, 0] S1x1x128
  slices_S3x2x400000_S1x2x400000_2_0_0 : S3x2x400000.Slices ![2, 0, 0] S1x2x400000
  slices_S2x3x128x128_S1x1x128x128_0_2_0_0 : S2x3x128x128.Slices ![0, 2, 0, 0] S1x1x128x128
  slices_S2x3x128_S1x1x128_0_2_0 : S2x3x128.Slices ![0, 2, 0] S1x1x128
  slices_S2x3x128x128_S1x1x128x128_1_0_0_0 : S2x3x128x128.Slices ![1, 0, 0, 0] S1x1x128x128
  slices_S2x3x128_S1x1x128_1_0_0 : S2x3x128.Slices ![1, 0, 0] S1x1x128
  slices_S2x3x128x128_S1x1x128x128_1_1_0_0 : S2x3x128x128.Slices ![1, 1, 0, 0] S1x1x128x128
  slices_S2x3x128_S1x1x128_1_1_0 : S2x3x128.Slices ![1, 1, 0] S1x1x128
  slices_S2x3x128x128_S1x1x128x128_1_2_0_0 : S2x3x128x128.Slices ![1, 2, 0, 0] S1x1x128x128
  slices_S2x3x128_S1x1x128_1_2_0 : S2x3x128.Slices ![1, 2, 0] S1x1x128
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  gather_S100000x128_S400000x1_S400000x128_1_0_n_n_0_1_1128_wf : GatherDims.WF S100000x128 S400000x1 S400000x128 [1] [0] [] [0] [] 1 ![1, 128]
  scatter_S100000x128_S400000x1_S400000x128_1_0_0_1_wf : ScatterDims.WF S100000x128 S400000x1 S400000x128 [1] [0] [0] 1
  scatter_S100000_S400000x1_S400000_n_0_0_1_wf : ScatterDims.WF S100000 S400000x1 S400000 [] [0] [0] 1
  dot_S100000x128_S128x128_S100000x128_1_0_0_1_n_n_wf : DotDims.WF S100000x128 S128x128 S100000x128 [1] [0] [0] [1] [] []
  dot_S100000x128_S128x2_S100000x2_1_0_0_1_n_n_wf : DotDims.WF S100000x128 S128x2 S100000x2 [1] [0] [0] [1] [] []

variable [Facts₀]

def gather_S100000x128_S400000x1_S400000x128_1_0_n_n_0_1_1128 : GatherDims S100000x128 S400000x1 S400000x128 where
  offsetDims := [1]
  collapsedSliceDims := [0]
  operandBatchingDims := []
  startIndicesBatchingDims := []
  startIndexMap := [0]
  indexVectorDim := 1
  sliceSizes := ![1, 128]
  wf := gather_S100000x128_S400000x1_S400000x128_1_0_n_n_0_1_1128_wf
def scatter_S100000x128_S400000x1_S400000x128_1_0_0_1 : ScatterDims S100000x128 S400000x1 S400000x128 where
  updateWindowDims := [1]
  insertedWindowDims := [0]
  scatterDimsToOperandDims := [0]
  indexVectorDim := 1
  wf := scatter_S100000x128_S400000x1_S400000x128_1_0_0_1_wf
def scatter_S100000_S400000x1_S400000_n_0_0_1 : ScatterDims S100000 S400000x1 S400000 where
  updateWindowDims := []
  insertedWindowDims := [0]
  scatterDimsToOperandDims := [0]
  indexVectorDim := 1
  wf := scatter_S100000_S400000x1_S400000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x2_S100000x2_1_0_0_1_n_n : DotDims S100000x128 S128x2 S100000x2 where
  lhsContracting := [1]
  rhsContracting := [0]
  lhsNonContracting := [0]
  rhsNonContracting := [1]
  lhsBatch := []
  rhsBatch := []
  wf := dot_S100000x128_S128x2_S100000x2_1_0_0_1_n_n_wf

class Facts : Prop extends Facts₀ where

variable [Facts]
-- ==== Proof.KernelStage0.lean ====
/-
  Region 0 of the program: the dense stage of one layer as a pipelined kernel over twenty row blocks.

  At a grid point the body is handed five input blocks — 5000 rows of the node features, the same 5000 rows of each of
  the three stacked neighbour means, the three neighbour weight matrices, the three root weight matrices and the three
  bias rows — and stores one 5000-row block of the layer's output. Stated at ANY contents `V` of the buffers when the
  region is entered: what the output block holds after the body (the one store's payload over the loaded pieces), the
  body's triple, the pipeline's proof data, and the body obligation at every point.
-/
import proofs.«133929_j46901042872931_1_alg».proof.Proof.Gen.Kernel.Launch
import proofs.«133929_j46901042872931_1_alg».proof.Proof.Gen.Kernel.Skeleton
import proofs.«133929_j46901042872931_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Stage0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! Each input window's staging buffer holds its block at every point, fetched there or not: a window fetched only at
    the first point has the same block index at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The rectangles the body reads and writes through -/

/-- the whole 5000-row block -/
abbrev rA : Rect S5000x128 := Rect.unit (s := S5000x128) ![0, 0] S5000x128.size inb_S5000x128_S5000x128_0_0
/-- relation `r`'s slab of the stacked neighbour means -/
abbrev rB0 : Rect S3x5000x128 := Rect.unit (s := S3x5000x128) ![0, 0, 0] S1x5000x128.size inb_S3x5000x128_S1x5000x128_0_0_0
abbrev rB1 : Rect S3x5000x128 := Rect.unit (s := S3x5000x128) ![1, 0, 0] S1x5000x128.size inb_S3x5000x128_S1x5000x128_1_0_0
abbrev rB2 : Rect S3x5000x128 := Rect.unit (s := S3x5000x128) ![2, 0, 0] S1x5000x128.size inb_S3x5000x128_S1x5000x128_2_0_0
/-- relation `r`'s weight matrix -/
abbrev rC0 : Rect S3x128x128 := Rect.unit (s := S3x128x128) ![0, 0, 0] S1x128x128.size inb_S3x128x128_S1x128x128_0_0_0
abbrev rC1 : Rect S3x128x128 := Rect.unit (s := S3x128x128) ![1, 0, 0] S1x128x128.size inb_S3x128x128_S1x128x128_1_0_0
abbrev rC2 : Rect S3x128x128 := Rect.unit (s := S3x128x128) ![2, 0, 0] S1x128x128.size inb_S3x128x128_S1x128x128_2_0_0
/-- relation `r`'s bias row -/
abbrev rD0 : Rect S3x128 := Rect.unit (s := S3x128) ![0, 0] S1x128.size inb_S3x128_S1x128_0_0
abbrev rD1 : Rect S3x128 := Rect.unit (s := S3x128) ![1, 0] S1x128.size inb_S3x128_S1x128_1_0
abbrev rD2 : Rect S3x128 := Rect.unit (s := S3x128) ![2, 0] S1x128.size inb_S3x128_S1x128_2_0

/-- The output block after the body, from the five input blocks: its one store, of the whole block. -/
def out0_5 (x0 : Vec F S5000x128 .f32) (x1 : Vec F S3x5000x128 .f32) (x2 : Vec F S3x128x128 .f32) (x3 : Vec F S3x128x128 .f32) (x4 : Vec F S3x128 .f32) : Vec F S5000x128 .f32 :=
  View.canon [⟨rA, k0_pay1 (View.ld x0 rA) (k0_pay2 (View.ld x0 rA) (View.ld x1 rB0) (View.ld x2 rC0) (View.ld x3 rC0) (View.ld x4 rD0) (View.ld x1 rB1) (View.ld x2 rC1) (View.ld x3 rC1)) (k0_pay3 (View.ld x4 rD1)) (View.ld x1 rB2) (View.ld x2 rC2) (View.ld x3 rC2) (View.ld x4 rD2)⟩]

/-- The one store covers the block. -/
theorem cover0_5 (p0 : Vec F S5000x128 .f32) (y : S5000x128.Idx) :
    ∃ pc ∈ ([⟨rA, p0⟩] : List (View.Piece (Elt F) S5000x128 .f32)), y ∈ pc.1.set :=
  View.cover_of_tiled [⟨rA, p0⟩] S5000x128.size (by rfl) y

set_option maxHeartbeats 4000000 in
/-- The body on whole staging buffers, the inputs' at contents `x0 … x4` and the output's at anything, returns with the
    inputs' as they were and the output's at `out0_5` of them. -/
theorem sound_kernel0 (c : Dev nD) (E : Set ℕ) (i : grid0.Coords)
    (arg0 : Memref sig .tc .vmem S5000x128 .f32) (harg0 : arg0.IsWhole) (arg1 : Memref sig .tc .vmem S3x5000x128 .f32) (harg1 : arg1.IsWhole)
    (arg2 : Memref sig .tc .vmem S3x128x128 .f32) (harg2 : arg2.IsWhole) (arg3 : Memref sig .tc .vmem S3x128x128 .f32) (harg3 : arg3.IsWhole)
    (arg4 : Memref sig .tc .vmem S3x128 .f32) (harg4 : arg4.IsWhole) (arg5 : Memref sig .tc .vmem S5000x128 .f32) (harg5 : arg5.IsWhole)
    (x0 : Vec F S5000x128 .f32) (x1 : Vec F S3x5000x128 .f32) (x2 : Vec F S3x128x128 .f32) (x3 : Vec F S3x128x128 .f32) (x4 : Vec F S3x128 .f32) (K : PUnit → sProp 𝕄) :
    iprop(owns (c : Thread nD τ) arg0 fullShare x0 ∗ owns (c : Thread nD τ) arg1 fullShare x1 ∗ owns (c : Thread nD τ) arg2 fullShare x2
        ∗ owns (c : Thread nD τ) arg3 fullShare x3 ∗ owns (c : Thread nD τ) arg4 fullShare x4 ∗ (∃ d, owns (c : Thread nD τ) arg5 fullShare d)
        ∗ (iprop(owns (c : Thread nD τ) arg0 fullShare x0 ∗ owns (c : Thread nD τ) arg1 fullShare x1 ∗ owns (c : Thread nD τ) arg2 fullShare x2
            ∗ owns (c : Thread nD τ) arg3 fullShare x3 ∗ owns (c : Thread nD τ) arg4 fullShare x4 ∗ owns (c : Thread nD τ) arg5 fullShare (out0_5 x0 x1 x2 x3 x4)) -∗ K ⟨⟩))
      ⊢ wp frame (wpE (defs₀ (F := F)) Variants.none c none) E (cc0__sage_kernel i arg0 harg0 arg1 harg1 arg2 harg2 arg3 harg3 arg4 harg4 arg5 harg5) K := by
  simp only [cc0__sage_kernel_eq_skeleton]; unfold cc0__sage_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  try dsimp only
  exact View.read_writes_eq_canon _ _ _ (cover0_5 _)

/-! ## The pipeline's proof data -/

/-- The arrays as the region finds them; after the body at point `t` each input's buffer at its block and the output's
    at `out0_5` of the input blocks; the scoped rest and the generator register untouched; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = out0_5 (iblk0 V c 0 t) (iblk0 V c 1 t) (iblk0 V c 2 t) (iblk0 V c 3 t) (iblk0 V c 4 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' buffers hold their blocks, so the body's triple applies; the invariant and the
    core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Stage0

end
-- ==== Proof.KernelStage1.lean ====
/-
  Region 1 of the program: the dense stage of one layer as a pipelined kernel over twenty row blocks.

  At a grid point the body is handed five input blocks — 5000 rows of the node features, the same 5000 rows of each of
  the three stacked neighbour means, the three neighbour weight matrices, the three root weight matrices and the three
  bias rows — and stores one 5000-row block of the layer's output. Stated at ANY contents `V` of the buffers when the
  region is entered: what the output block holds after the body (the one store's payload over the loaded pieces), the
  body's triple, the pipeline's proof data, and the body obligation at every point.
-/
import proofs.«133929_j46901042872931_1_alg».proof.Proof.Gen.Kernel.Launch
import proofs.«133929_j46901042872931_1_alg».proof.Proof.Gen.Kernel.Skeleton
import proofs.«133929_j46901042872931_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Stage1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the region is entered
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! Each input window's staging buffer holds its block at every point, fetched there or not: a window fetched only at
    the first point has the same block index at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The rectangles the body reads and writes through -/

/-- the whole 5000-row block -/
abbrev rA : Rect S5000x128 := Rect.unit (s := S5000x128) ![0, 0] S5000x128.size inb_S5000x128_S5000x128_0_0
/-- relation `r`'s slab of the stacked neighbour means -/
abbrev rB0 : Rect S3x5000x128 := Rect.unit (s := S3x5000x128) ![0, 0, 0] S1x5000x128.size inb_S3x5000x128_S1x5000x128_0_0_0
abbrev rB1 : Rect S3x5000x128 := Rect.unit (s := S3x5000x128) ![1, 0, 0] S1x5000x128.size inb_S3x5000x128_S1x5000x128_1_0_0
abbrev rB2 : Rect S3x5000x128 := Rect.unit (s := S3x5000x128) ![2, 0, 0] S1x5000x128.size inb_S3x5000x128_S1x5000x128_2_0_0
/-- relation `r`'s weight matrix -/
abbrev rC0 : Rect S3x128x128 := Rect.unit (s := S3x128x128) ![0, 0, 0] S1x128x128.size inb_S3x128x128_S1x128x128_0_0_0
abbrev rC1 : Rect S3x128x128 := Rect.unit (s := S3x128x128) ![1, 0, 0] S1x128x128.size inb_S3x128x128_S1x128x128_1_0_0
abbrev rC2 : Rect S3x128x128 := Rect.unit (s := S3x128x128) ![2, 0, 0] S1x128x128.size inb_S3x128x128_S1x128x128_2_0_0
/-- relation `r`'s bias row -/
abbrev rD0 : Rect S3x128 := Rect.unit (s := S3x128) ![0, 0] S1x128.size inb_S3x128_S1x128_0_0
abbrev rD1 : Rect S3x128 := Rect.unit (s := S3x128) ![1, 0] S1x128.size inb_S3x128_S1x128_1_0
abbrev rD2 : Rect S3x128 := Rect.unit (s := S3x128) ![2, 0] S1x128.size inb_S3x128_S1x128_2_0

/-- The output block after the body, from the five input blocks: its one store, of the whole block. -/
def out1_5 (x0 : Vec F S5000x128 .f32) (x1 : Vec F S3x5000x128 .f32) (x2 : Vec F S3x128x128 .f32) (x3 : Vec F S3x128x128 .f32) (x4 : Vec F S3x128 .f32) : Vec F S5000x128 .f32 :=
  View.canon [⟨rA, k1_pay1 (k1_pay2 (View.ld x0 rA)) (k1_pay3 (View.ld x4 rD1)) (k1_pay4 (View.ld x0 rA) (View.ld x1 rB0) (View.ld x2 rC0) (View.ld x3 rC0) (View.ld x4 rD0) (View.ld x1 rB1) (View.ld x2 rC1) (View.ld x3 rC1)) (View.ld x1 rB2) (View.ld x2 rC2) (View.ld x3 rC2) (View.ld x4 rD2)⟩]

/-- The one store covers the block. -/
theorem cover1_5 (p0 : Vec F S5000x128 .f32) (y : S5000x128.Idx) :
    ∃ pc ∈ ([⟨rA, p0⟩] : List (View.Piece (Elt F) S5000x128 .f32)), y ∈ pc.1.set :=
  View.cover_of_tiled [⟨rA, p0⟩] S5000x128.size (by rfl) y

set_option maxHeartbeats 4000000 in
/-- The body on whole staging buffers, the inputs' at contents `x0 … x4` and the output's at anything, returns with the
    inputs' as they were and the output's at `out1_5` of them. -/
theorem sound_kernel1 (c : Dev nD) (E : Set ℕ) (i : grid1.Coords)
    (arg0 : Memref sig .tc .vmem S5000x128 .f32) (harg0 : arg0.IsWhole) (arg1 : Memref sig .tc .vmem S3x5000x128 .f32) (harg1 : arg1.IsWhole)
    (arg2 : Memref sig .tc .vmem S3x128x128 .f32) (harg2 : arg2.IsWhole) (arg3 : Memref sig .tc .vmem S3x128x128 .f32) (harg3 : arg3.IsWhole)
    (arg4 : Memref sig .tc .vmem S3x128 .f32) (harg4 : arg4.IsWhole) (arg5 : Memref sig .tc .vmem S5000x128 .f32) (harg5 : arg5.IsWhole)
    (x0 : Vec F S5000x128 .f32) (x1 : Vec F S3x5000x128 .f32) (x2 : Vec F S3x128x128 .f32) (x3 : Vec F S3x128x128 .f32) (x4 : Vec F S3x128 .f32) (K : PUnit → sProp 𝕄) :
    iprop(owns (c : Thread nD τ) arg0 fullShare x0 ∗ owns (c : Thread nD τ) arg1 fullShare x1 ∗ owns (c : Thread nD τ) arg2 fullShare x2
        ∗ owns (c : Thread nD τ) arg3 fullShare x3 ∗ owns (c : Thread nD τ) arg4 fullShare x4 ∗ (∃ d, owns (c : Thread nD τ) arg5 fullShare d)
        ∗ (iprop(owns (c : Thread nD τ) arg0 fullShare x0 ∗ owns (c : Thread nD τ) arg1 fullShare x1 ∗ owns (c : Thread nD τ) arg2 fullShare x2
            ∗ owns (c : Thread nD τ) arg3 fullShare x3 ∗ owns (c : Thread nD τ) arg4 fullShare x4 ∗ owns (c : Thread nD τ) arg5 fullShare (out1_5 x0 x1 x2 x3 x4)) -∗ K ⟨⟩))
      ⊢ wp frame (wpE (defs₀ (F := F)) Variants.none c none) E (cc1__sage_kernel i arg0 harg0 arg1 harg1 arg2 harg2 arg3 harg3 arg4 harg4 arg5 harg5) K := by
  simp only [cc1__sage_kernel_eq_skeleton]; unfold cc1__sage_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  try dsimp only
  exact View.read_writes_eq_canon _ _ _ (cover1_5 _)

/-! ## The pipeline's proof data -/

/-- The arrays as the region finds them; after the body at point `t` each input's buffer at its block and the output's
    at `out1_5` of the input blocks; the scoped rest and the generator register untouched; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' buffers hold their blocks, so the body's triple applies; the invariant and the
    core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Stage1

end
-- ==== Proof.KernelWhole.lean ====
/-
  The whole program's run: host operations, the first layer's pipelined kernel, host operations, the second layer's
  pipelined kernel, and the closing host operations (the classifier's product and bias).

  The buffer contents at each boundary are a fold from the launch memory: a stretch of host operations acts by
  `StableHlo.after`; a kernel region leaves its arrays at what its write-backs make of them and every other buffer as
  it found it. No host operation and no region writes an argument array, so the fold at an argument walks back to the
  launch memory; the result buffer ends at the fold's value there. From these the run: every weakly fair execution
  terminates, the result at the fold's value, the arguments as launched.
-/
import proofs.«133929_j46901042872931_1_alg».proof.Proof.KernelStage0
import proofs.«133929_j46901042872931_1_alg».proof.Proof.KernelStage1

set_option maxRecDepth 16384

noncomputable section

namespace Cert.Kernel.Whole

open Cert.Kernel Cert.Kernel.Gen Cert.Kernel.Stage0 Cert.Kernel.Stage1
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- at launch -/
abbrev W0 : Dev nD → Valuation τ sig (Elt F) := fun c b => (s₀ m ρ).mem ((c : Dev nD), b)
/-- after the first stretch of host operations: the first region's entry -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- at the first region's exit -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- after the second stretch of host operations: the second region's entry -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- at the second region's exit -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- after the closing host operations: the final contents -/
abbrev W5 : Dev nD → Valuation τ sig (Elt F) := fun c => StableHlo.after hostOps2 (W4 m ρ c)

/-! ## The arguments end as launched -/

theorem W1_main_arg0 (c : Dev nD) : W1 m ρ c (Proc.devRef .tc main_arg0) = m ((c : Thread nD τ).loc main_arg0) :=
  (StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))).trans rfl
theorem W2_main_arg0 (c : Dev nD) : W2 m ρ c (Proc.devRef .tc main_arg0) = m ((c : Thread nD τ).loc main_arg0) :=
  ((W2_arr m ρ c 0).trans (((dat0 (V1 m ρ) c).arrAt_in 0 rfl _).trans (A_eq0 (V1 m ρ) c 0))).trans (W1_main_arg0 m ρ c)
theorem W3_main_arg0 (c : Dev nD) : W3 m ρ c (Proc.devRef .tc main_arg0) = m ((c : Thread nD τ).loc main_arg0) :=
  (StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))).trans (W2_main_arg0 m ρ c)
theorem W4_main_arg0 (c : Dev nD) : W4 m ρ c (Proc.devRef .tc main_arg0) = m ((c : Thread nD τ).loc main_arg0) :=
  (W4_of_ne m ρ c main_arg0 (by decide)).trans (W3_main_arg0 m ρ c)
theorem W5_main_arg0 (c : Dev nD) : W5 m ρ c (Proc.devRef .tc main_arg0) = m ((c : Thread nD τ).loc main_arg0) :=
  (StableHlo.after_of_forall_not_mem (b := Proc.devRef .tc main_arg0) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))).trans (W4_main_arg0 m ρ c)

theorem W1_main_arg1 (c : Dev nD) : W1 m ρ c (Proc.devRef .tc main_arg1) = m ((c : Thread nD τ).loc main_arg1) :=
  (StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))).trans rfl
theorem W2_main_arg1 (c : Dev nD) : W2 m ρ c (Proc.devRef .tc main_arg1) = m ((c : Thread nD τ).loc main_arg1) :=
  (W2_of_ne m ρ c main_arg1 (by decide)).trans (W1_main_arg1 m ρ c)
theorem W3_main_arg1 (c : Dev nD) : W3 m ρ c (Proc.devRef .tc main_arg1) = m ((c : Thread nD τ).loc main_arg1) :=
  (StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))).trans (W2_main_arg1 m ρ c)
theorem W4_main_arg1 (c : Dev nD) : W4 m ρ c (Proc.devRef .tc main_arg1) = m ((c : Thread nD τ).loc main_arg1) :=
  (W4_of_ne m ρ c main_arg1 (by decide)).trans (W3_main_arg1 m ρ c)
theorem W5_main_arg1 (c : Dev nD) : W5 m ρ c (Proc.devRef .tc main_arg1) = m ((c : Thread nD τ).loc main_arg1) :=
  (StableHlo.after_of_forall_not_mem (b := Proc.devRef .tc main_arg1) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))).trans (W4_main_arg1 m ρ c)

theorem W1_main_arg2 (c : Dev nD) : W1 m ρ c (Proc.devRef .tc main_arg2) = m ((c : Thread nD τ).loc main_arg2) :=
  (StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))).trans rfl
theorem W2_main_arg2 (c : Dev nD) : W2 m ρ c (Proc.devRef .tc main_arg2) = m ((c : Thread nD τ).loc main_arg2) :=
  (W2_of_ne m ρ c main_arg2 (by decide)).trans (W1_main_arg2 m ρ c)
theorem W3_main_arg2 (c : Dev nD) : W3 m ρ c (Proc.devRef .tc main_arg2) = m ((c : Thread nD τ).loc main_arg2) :=
  (StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))).trans (W2_main_arg2 m ρ c)
theorem W4_main_arg2 (c : Dev nD) : W4 m ρ c (Proc.devRef .tc main_arg2) = m ((c : Thread nD τ).loc main_arg2) :=
  (W4_of_ne m ρ c main_arg2 (by decide)).trans (W3_main_arg2 m ρ c)
theorem W5_main_arg2 (c : Dev nD) : W5 m ρ c (Proc.devRef .tc main_arg2) = m ((c : Thread nD τ).loc main_arg2) :=
  (StableHlo.after_of_forall_not_mem (b := Proc.devRef .tc main_arg2) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))).trans (W4_main_arg2 m ρ c)

theorem W1_main_arg3 (c : Dev nD) : W1 m ρ c (Proc.devRef .tc main_arg3) = m ((c : Thread nD τ).loc main_arg3) :=
  (StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))).trans rfl
theorem W2_main_arg3 (c : Dev nD) : W2 m ρ c (Proc.devRef .tc main_arg3) = m ((c : Thread nD τ).loc main_arg3) :=
  (W2_of_ne m ρ c main_arg3 (by decide)).trans (W1_main_arg3 m ρ c)
theorem W3_main_arg3 (c : Dev nD) : W3 m ρ c (Proc.devRef .tc main_arg3) = m ((c : Thread nD τ).loc main_arg3) :=
  (StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))).trans (W2_main_arg3 m ρ c)
theorem W4_main_arg3 (c : Dev nD) : W4 m ρ c (Proc.devRef .tc main_arg3) = m ((c : Thread nD τ).loc main_arg3) :=
  (W4_of_ne m ρ c main_arg3 (by decide)).trans (W3_main_arg3 m ρ c)
theorem W5_main_arg3 (c : Dev nD) : W5 m ρ c (Proc.devRef .tc main_arg3) = m ((c : Thread nD τ).loc main_arg3) :=
  (StableHlo.after_of_forall_not_mem (b := Proc.devRef .tc main_arg3) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))).trans (W4_main_arg3 m ρ c)

theorem W1_main_arg4 (c : Dev nD) : W1 m ρ c (Proc.devRef .tc main_arg4) = m ((c : Thread nD τ).loc main_arg4) :=
  (StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))).trans rfl
theorem W2_main_arg4 (c : Dev nD) : W2 m ρ c (Proc.devRef .tc main_arg4) = m ((c : Thread nD τ).loc main_arg4) :=
  (W2_of_ne m ρ c main_arg4 (by decide)).trans (W1_main_arg4 m ρ c)
theorem W3_main_arg4 (c : Dev nD) : W3 m ρ c (Proc.devRef .tc main_arg4) = m ((c : Thread nD τ).loc main_arg4) :=
  (StableHlo.after_of_forall_not_mem (b := Proc.devRef .tc main_arg4) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))).trans (W2_main_arg4 m ρ c)
theorem W4_main_arg4 (c : Dev nD) : W4 m ρ c (Proc.devRef .tc main_arg4) = m ((c : Thread nD τ).loc main_arg4) :=
  (W4_of_ne m ρ c main_arg4 (by decide)).trans (W3_main_arg4 m ρ c)
theorem W5_main_arg4 (c : Dev nD) : W5 m ρ c (Proc.devRef .tc main_arg4) = m ((c : Thread nD τ).loc main_arg4) :=
  (StableHlo.after_of_forall_not_mem (b := Proc.devRef .tc main_arg4) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))).trans (W4_main_arg4 m ρ c)

theorem W1_main_arg5 (c : Dev nD) : W1 m ρ c (Proc.devRef .tc main_arg5) = m ((c : Thread nD τ).loc main_arg5) :=
  (StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))).trans rfl
theorem W2_main_arg5 (c : Dev nD) : W2 m ρ c (Proc.devRef .tc main_arg5) = m ((c : Thread nD τ).loc main_arg5) :=
  (W2_of_ne m ρ c main_arg5 (by decide)).trans (W1_main_arg5 m ρ c)
theorem W3_main_arg5 (c : Dev nD) : W3 m ρ c (Proc.devRef .tc main_arg5) = m ((c : Thread nD τ).loc main_arg5) :=
  (StableHlo.after_of_forall_not_mem (b := Proc.devRef .tc main_arg5) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))).trans (W2_main_arg5 m ρ c)
theorem W4_main_arg5 (c : Dev nD) : W4 m ρ c (Proc.devRef .tc main_arg5) = m ((c : Thread nD τ).loc main_arg5) :=
  (W4_of_ne m ρ c main_arg5 (by decide)).trans (W3_main_arg5 m ρ c)
theorem W5_main_arg5 (c : Dev nD) : W5 m ρ c (Proc.devRef .tc main_arg5) = m ((c : Thread nD τ).loc main_arg5) :=
  (StableHlo.after_of_forall_not_mem (b := Proc.devRef .tc main_arg5) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))).trans (W4_main_arg5 m ρ c)

theorem W1_main_arg6 (c : Dev nD) : W1 m ρ c (Proc.devRef .tc main_arg6) = m ((c : Thread nD τ).loc main_arg6) :=
  (StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))).trans rfl
theorem W2_main_arg6 (c : Dev nD) : W2 m ρ c (Proc.devRef .tc main_arg6) = m ((c : Thread nD τ).loc main_arg6) :=
  (W2_of_ne m ρ c main_arg6 (by decide)).trans (W1_main_arg6 m ρ c)
theorem W3_main_arg6 (c : Dev nD) : W3 m ρ c (Proc.devRef .tc main_arg6) = m ((c : Thread nD τ).loc main_arg6) :=
  (StableHlo.after_of_forall_not_mem (b := Proc.devRef .tc main_arg6) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))).trans (W2_main_arg6 m ρ c)
theorem W4_main_arg6 (c : Dev nD) : W4 m ρ c (Proc.devRef .tc main_arg6) = m ((c : Thread nD τ).loc main_arg6) :=
  (W4_of_ne m ρ c main_arg6 (by decide)).trans (W3_main_arg6 m ρ c)
theorem W5_main_arg6 (c : Dev nD) : W5 m ρ c (Proc.devRef .tc main_arg6) = m ((c : Thread nD τ).loc main_arg6) :=
  (StableHlo.after_of_forall_not_mem (b := Proc.devRef .tc main_arg6) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))).trans (W4_main_arg6 m ρ c)

/-! ## The proof data family and the thread state -/

abbrev adm : (p : Fin 2) → (pcfgs (F := F) p).Adm := fun p => (cfgs p).toPCfg_adm
/-- every pipeline's proof data, each at its region's entry contents -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- what rides beside the buffers: the generator register at some state, and the core owing nothing -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- the last thread state without the debts: every unscoped buffer at the final contents, the generator register at some state -/
abbrev Tₙ (c : Dev nD) : sProp 𝕄 := iprop(StableHlo.held (c : Thread nD τ) (Pipeline.ucRefs τ sig) (W5 m ρ c) ∗ ∃ r, prngReg c r)

/-! ## The regions as segments -/

set_option backward.isDefEq.respectTransparency.types false in
/-- Region 0 over the thread state: entered from every unscoped buffer at `W1`, left at `W2`. Its arrays are split
    out of the unscoped buffers and put back at what the pipeline leaves; the generator register goes into the
    pipeline's invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W3`, left at `W4`. Its arrays are split
    out of the unscoped buffers and put back at what the pipeline leaves; the generator register goes into the
    pipeline's invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]

set_option maxHeartbeats 4000000 in
theorem main_run (c : Dev nD) : main (F := F) c = Pipeline.Seg.run (segs m ρ) := (main_chain c).trans (by chain_rfl)

set_option backward.isDefEq.respectTransparency.types false in
set_option maxHeartbeats 4000000 in
/-- THE RUN: from any memory with zero counters, every weakly fair execution of the program terminates, nothing
    faulting; the result buffer ends at the fold's value and every argument array as launched. -/
theorem run : θ_run defs (onTc (τ := τ) (main (F := F))) ⟨m, fun _ => 0, ρ⟩ (fun r => ∀ c : Dev nD,
      r.2.mem ((c.tc : Thread nD τ).loc main_v175) = W5 m ρ c (Proc.devRef .tc main_v175)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      show iprop(StableHlo.held (c : Thread nD τ) (Pipeline.ucRefs τ sig) (W5 m ρ c) ∗ R c)
        ⊢ iprop(Tₙ m ρ c ∗ ∃ W, owes (c : Thread nD τ) (0 : CellTallies nD τ sig Unit) W)
      iintro ⟨Hh, Hp, HO⟩
      isplitr [HO]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v175 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c)⟩)

end Cert.Kernel.Whole

end
-- ==== Proof.KernelIdealStage0.lean ====
/-
  Region 0 of the program: the dense stage of one layer as a pipelined kernel over twenty row blocks.

  At a grid point the body is handed five input blocks — 5000 rows of the node features, the same 5000 rows of each of
  the three stacked neighbour means, the three neighbour weight matrices, the three root weight matrices and the three
  bias rows — and stores one 5000-row block of the layer's output. Stated at ANY contents `V` of the buffers when the
  region is entered: what the output block holds after the body (the one store's payload over the loaded pieces), the
  body's triple, the pipeline's proof data, and the body obligation at every point.
-/
import proofs.«133929_j46901042872931_1_alg».proof.Proof.Gen.KernelIdeal.Launch
import proofs.«133929_j46901042872931_1_alg».proof.Proof.Gen.KernelIdeal.Skeleton
import proofs.«133929_j46901042872931_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Stage0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! Each input window's staging buffer holds its block at every point, fetched there or not: a window fetched only at
    the first point has the same block index at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The rectangles the body reads and writes through -/

/-- the whole 5000-row block -/
abbrev rA : Rect S5000x128 := Rect.unit (s := S5000x128) ![0, 0] S5000x128.size inb_S5000x128_S5000x128_0_0
/-- relation `r`'s slab of the stacked neighbour means -/
abbrev rB0 : Rect S3x5000x128 := Rect.unit (s := S3x5000x128) ![0, 0, 0] S1x5000x128.size inb_S3x5000x128_S1x5000x128_0_0_0
abbrev rB1 : Rect S3x5000x128 := Rect.unit (s := S3x5000x128) ![1, 0, 0] S1x5000x128.size inb_S3x5000x128_S1x5000x128_1_0_0
abbrev rB2 : Rect S3x5000x128 := Rect.unit (s := S3x5000x128) ![2, 0, 0] S1x5000x128.size inb_S3x5000x128_S1x5000x128_2_0_0
/-- relation `r`'s weight matrix -/
abbrev rC0 : Rect S3x128x128 := Rect.unit (s := S3x128x128) ![0, 0, 0] S1x128x128.size inb_S3x128x128_S1x128x128_0_0_0
abbrev rC1 : Rect S3x128x128 := Rect.unit (s := S3x128x128) ![1, 0, 0] S1x128x128.size inb_S3x128x128_S1x128x128_1_0_0
abbrev rC2 : Rect S3x128x128 := Rect.unit (s := S3x128x128) ![2, 0, 0] S1x128x128.size inb_S3x128x128_S1x128x128_2_0_0
/-- relation `r`'s bias row -/
abbrev rD0 : Rect S3x128 := Rect.unit (s := S3x128) ![0, 0] S1x128.size inb_S3x128_S1x128_0_0
abbrev rD1 : Rect S3x128 := Rect.unit (s := S3x128) ![1, 0] S1x128.size inb_S3x128_S1x128_1_0
abbrev rD2 : Rect S3x128 := Rect.unit (s := S3x128) ![2, 0] S1x128.size inb_S3x128_S1x128_2_0

/-- The output block after the body, from the five input blocks: its one store, of the whole block. -/
def out0_5 (x0 : Vec F S5000x128 .f32) (x1 : Vec F S3x5000x128 .f32) (x2 : Vec F S3x128x128 .f32) (x3 : Vec F S3x128x128 .f32) (x4 : Vec F S3x128 .f32) : Vec F S5000x128 .f32 :=
  View.canon [⟨rA, k0_pay1 (View.ld x0 rA) (k0_pay2 (View.ld x0 rA) (View.ld x1 rB0) (View.ld x2 rC0) (View.ld x3 rC0) (View.ld x4 rD0) (View.ld x1 rB1) (View.ld x2 rC1) (View.ld x3 rC1)) (k0_pay3 (View.ld x4 rD1)) (View.ld x1 rB2) (View.ld x2 rC2) (View.ld x3 rC2) (View.ld x4 rD2)⟩]

/-- The one store covers the block. -/
theorem cover0_5 (p0 : Vec F S5000x128 .f32) (y : S5000x128.Idx) :
    ∃ pc ∈ ([⟨rA, p0⟩] : List (View.Piece (Elt F) S5000x128 .f32)), y ∈ pc.1.set :=
  View.cover_of_tiled [⟨rA, p0⟩] S5000x128.size (by rfl) y

set_option maxHeartbeats 4000000 in
/-- The body on whole staging buffers, the inputs' at contents `x0 … x4` and the output's at anything, returns with the
    inputs' as they were and the output's at `out0_5` of them. -/
theorem sound_kernel0 (c : Dev nD) (E : Set ℕ) (i : grid0.Coords)
    (arg0 : Memref sig .tc .vmem S5000x128 .f32) (harg0 : arg0.IsWhole) (arg1 : Memref sig .tc .vmem S3x5000x128 .f32) (harg1 : arg1.IsWhole)
    (arg2 : Memref sig .tc .vmem S3x128x128 .f32) (harg2 : arg2.IsWhole) (arg3 : Memref sig .tc .vmem S3x128x128 .f32) (harg3 : arg3.IsWhole)
    (arg4 : Memref sig .tc .vmem S3x128 .f32) (harg4 : arg4.IsWhole) (arg5 : Memref sig .tc .vmem S5000x128 .f32) (harg5 : arg5.IsWhole)
    (x0 : Vec F S5000x128 .f32) (x1 : Vec F S3x5000x128 .f32) (x2 : Vec F S3x128x128 .f32) (x3 : Vec F S3x128x128 .f32) (x4 : Vec F S3x128 .f32) (K : PUnit → sProp 𝕄) :
    iprop(owns (c : Thread nD τ) arg0 fullShare x0 ∗ owns (c : Thread nD τ) arg1 fullShare x1 ∗ owns (c : Thread nD τ) arg2 fullShare x2
        ∗ owns (c : Thread nD τ) arg3 fullShare x3 ∗ owns (c : Thread nD τ) arg4 fullShare x4 ∗ (∃ d, owns (c : Thread nD τ) arg5 fullShare d)
        ∗ (iprop(owns (c : Thread nD τ) arg0 fullShare x0 ∗ owns (c : Thread nD τ) arg1 fullShare x1 ∗ owns (c : Thread nD τ) arg2 fullShare x2
            ∗ owns (c : Thread nD τ) arg3 fullShare x3 ∗ owns (c : Thread nD τ) arg4 fullShare x4 ∗ owns (c : Thread nD τ) arg5 fullShare (out0_5 x0 x1 x2 x3 x4)) -∗ K ⟨⟩))
      ⊢ wp frame (wpE (defs₀ (F := F)) Variants.none c none) E (cc0__sage_kernel i arg0 harg0 arg1 harg1 arg2 harg2 arg3 harg3 arg4 harg4 arg5 harg5) K := by
  simp only [cc0__sage_kernel_eq_skeleton]; unfold cc0__sage_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  try dsimp only
  exact View.read_writes_eq_canon _ _ _ (cover0_5 _)

/-! ## The pipeline's proof data -/

/-- The arrays as the region finds them; after the body at point `t` each input's buffer at its block and the output's
    at `out0_5` of the input blocks; the scoped rest and the generator register untouched; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = out0_5 (iblk0 V c 0 t) (iblk0 V c 1 t) (iblk0 V c 2 t) (iblk0 V c 3 t) (iblk0 V c 4 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' buffers hold their blocks, so the body's triple applies; the invariant and the
    core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Stage0

end
-- ==== Proof.KernelIdealStage1.lean ====
/-
  Region 1 of the program: the dense stage of one layer as a pipelined kernel over twenty row blocks.

  At a grid point the body is handed five input blocks — 5000 rows of the node features, the same 5000 rows of each of
  the three stacked neighbour means, the three neighbour weight matrices, the three root weight matrices and the three
  bias rows — and stores one 5000-row block of the layer's output. Stated at ANY contents `V` of the buffers when the
  region is entered: what the output block holds after the body (the one store's payload over the loaded pieces), the
  body's triple, the pipeline's proof data, and the body obligation at every point.
-/
import proofs.«133929_j46901042872931_1_alg».proof.Proof.Gen.KernelIdeal.Launch
import proofs.«133929_j46901042872931_1_alg».proof.Proof.Gen.KernelIdeal.Skeleton
import proofs.«133929_j46901042872931_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Stage1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the region is entered
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! Each input window's staging buffer holds its block at every point, fetched there or not: a window fetched only at
    the first point has the same block index at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The rectangles the body reads and writes through -/

/-- the whole 5000-row block -/
abbrev rA : Rect S5000x128 := Rect.unit (s := S5000x128) ![0, 0] S5000x128.size inb_S5000x128_S5000x128_0_0
/-- relation `r`'s slab of the stacked neighbour means -/
abbrev rB0 : Rect S3x5000x128 := Rect.unit (s := S3x5000x128) ![0, 0, 0] S1x5000x128.size inb_S3x5000x128_S1x5000x128_0_0_0
abbrev rB1 : Rect S3x5000x128 := Rect.unit (s := S3x5000x128) ![1, 0, 0] S1x5000x128.size inb_S3x5000x128_S1x5000x128_1_0_0
abbrev rB2 : Rect S3x5000x128 := Rect.unit (s := S3x5000x128) ![2, 0, 0] S1x5000x128.size inb_S3x5000x128_S1x5000x128_2_0_0
/-- relation `r`'s weight matrix -/
abbrev rC0 : Rect S3x128x128 := Rect.unit (s := S3x128x128) ![0, 0, 0] S1x128x128.size inb_S3x128x128_S1x128x128_0_0_0
abbrev rC1 : Rect S3x128x128 := Rect.unit (s := S3x128x128) ![1, 0, 0] S1x128x128.size inb_S3x128x128_S1x128x128_1_0_0
abbrev rC2 : Rect S3x128x128 := Rect.unit (s := S3x128x128) ![2, 0, 0] S1x128x128.size inb_S3x128x128_S1x128x128_2_0_0
/-- relation `r`'s bias row -/
abbrev rD0 : Rect S3x128 := Rect.unit (s := S3x128) ![0, 0] S1x128.size inb_S3x128_S1x128_0_0
abbrev rD1 : Rect S3x128 := Rect.unit (s := S3x128) ![1, 0] S1x128.size inb_S3x128_S1x128_1_0
abbrev rD2 : Rect S3x128 := Rect.unit (s := S3x128) ![2, 0] S1x128.size inb_S3x128_S1x128_2_0

/-- The output block after the body, from the five input blocks: its one store, of the whole block. -/
def out1_5 (x0 : Vec F S5000x128 .f32) (x1 : Vec F S3x5000x128 .f32) (x2 : Vec F S3x128x128 .f32) (x3 : Vec F S3x128x128 .f32) (x4 : Vec F S3x128 .f32) : Vec F S5000x128 .f32 :=
  View.canon [⟨rA, k1_pay1 (k1_pay2 (View.ld x0 rA)) (k1_pay3 (View.ld x4 rD1)) (k1_pay4 (View.ld x0 rA) (View.ld x1 rB0) (View.ld x2 rC0) (View.ld x3 rC0) (View.ld x4 rD0) (View.ld x1 rB1) (View.ld x2 rC1) (View.ld x3 rC1)) (View.ld x1 rB2) (View.ld x2 rC2) (View.ld x3 rC2) (View.ld x4 rD2)⟩]

/-- The one store covers the block. -/
theorem cover1_5 (p0 : Vec F S5000x128 .f32) (y : S5000x128.Idx) :
    ∃ pc ∈ ([⟨rA, p0⟩] : List (View.Piece (Elt F) S5000x128 .f32)), y ∈ pc.1.set :=
  View.cover_of_tiled [⟨rA, p0⟩] S5000x128.size (by rfl) y

set_option maxHeartbeats 4000000 in
/-- The body on whole staging buffers, the inputs' at contents `x0 … x4` and the output's at anything, returns with the
    inputs' as they were and the output's at `out1_5` of them. -/
theorem sound_kernel1 (c : Dev nD) (E : Set ℕ) (i : grid1.Coords)
    (arg0 : Memref sig .tc .vmem S5000x128 .f32) (harg0 : arg0.IsWhole) (arg1 : Memref sig .tc .vmem S3x5000x128 .f32) (harg1 : arg1.IsWhole)
    (arg2 : Memref sig .tc .vmem S3x128x128 .f32) (harg2 : arg2.IsWhole) (arg3 : Memref sig .tc .vmem S3x128x128 .f32) (harg3 : arg3.IsWhole)
    (arg4 : Memref sig .tc .vmem S3x128 .f32) (harg4 : arg4.IsWhole) (arg5 : Memref sig .tc .vmem S5000x128 .f32) (harg5 : arg5.IsWhole)
    (x0 : Vec F S5000x128 .f32) (x1 : Vec F S3x5000x128 .f32) (x2 : Vec F S3x128x128 .f32) (x3 : Vec F S3x128x128 .f32) (x4 : Vec F S3x128 .f32) (K : PUnit → sProp 𝕄) :
    iprop(owns (c : Thread nD τ) arg0 fullShare x0 ∗ owns (c : Thread nD τ) arg1 fullShare x1 ∗ owns (c : Thread nD τ) arg2 fullShare x2
        ∗ owns (c : Thread nD τ) arg3 fullShare x3 ∗ owns (c : Thread nD τ) arg4 fullShare x4 ∗ (∃ d, owns (c : Thread nD τ) arg5 fullShare d)
        ∗ (iprop(owns (c : Thread nD τ) arg0 fullShare x0 ∗ owns (c : Thread nD τ) arg1 fullShare x1 ∗ owns (c : Thread nD τ) arg2 fullShare x2
            ∗ owns (c : Thread nD τ) arg3 fullShare x3 ∗ owns (c : Thread nD τ) arg4 fullShare x4 ∗ owns (c : Thread nD τ) arg5 fullShare (out1_5 x0 x1 x2 x3 x4)) -∗ K ⟨⟩))
      ⊢ wp frame (wpE (defs₀ (F := F)) Variants.none c none) E (cc1__sage_kernel i arg0 harg0 arg1 harg1 arg2 harg2 arg3 harg3 arg4 harg4 arg5 harg5) K := by
  simp only [cc1__sage_kernel_eq_skeleton]; unfold cc1__sage_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  try dsimp only
  exact View.read_writes_eq_canon _ _ _ (cover1_5 _)

/-! ## The pipeline's proof data -/

/-- The arrays as the region finds them; after the body at point `t` each input's buffer at its block and the output's
    at `out1_5` of the input blocks; the scoped rest and the generator register untouched; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' buffers hold their blocks, so the body's triple applies; the invariant and the
    core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Stage1

end
-- ==== Proof.KernelIdealWhole.lean ====
/-
  The whole program's run: host operations, the first layer's pipelined kernel, host operations, the second layer's
  pipelined kernel, and the closing host operations (the classifier's product and bias).

  The buffer contents at each boundary are a fold from the launch memory: a stretch of host operations acts by
  `StableHlo.after`; a kernel region leaves its arrays at what its write-backs make of them and every other buffer as
  it found it. No host operation and no region writes an argument array, so the fold at an argument walks back to the
  launch memory; the result buffer ends at the fold's value there. From these the run: every weakly fair execution
  terminates, the result at the fold's value, the arguments as launched.
-/
import proofs.«133929_j46901042872931_1_alg».proof.Proof.KernelIdealStage0
import proofs.«133929_j46901042872931_1_alg».proof.Proof.KernelIdealStage1

set_option maxRecDepth 16384

noncomputable section

namespace Cert.KernelIdeal.Whole

open Cert.KernelIdeal Cert.KernelIdeal.Gen Cert.KernelIdeal.Stage0 Cert.KernelIdeal.Stage1
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- at launch -/
abbrev W0 : Dev nD → Valuation τ sig (Elt F) := fun c b => (s₀ m ρ).mem ((c : Dev nD), b)
/-- after the first stretch of host operations: the first region's entry -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- at the first region's exit -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- after the second stretch of host operations: the second region's entry -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- at the second region's exit -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- after the closing host operations: the final contents -/
abbrev W5 : Dev nD → Valuation τ sig (Elt F) := fun c => StableHlo.after hostOps2 (W4 m ρ c)

/-! ## The arguments end as launched -/

theorem W1_main_arg0 (c : Dev nD) : W1 m ρ c (Proc.devRef .tc main_arg0) = m ((c : Thread nD τ).loc main_arg0) :=
  (StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))).trans rfl
theorem W2_main_arg0 (c : Dev nD) : W2 m ρ c (Proc.devRef .tc main_arg0) = m ((c : Thread nD τ).loc main_arg0) :=
  ((W2_arr m ρ c 0).trans (((dat0 (V1 m ρ) c).arrAt_in 0 rfl _).trans (A_eq0 (V1 m ρ) c 0))).trans (W1_main_arg0 m ρ c)
theorem W3_main_arg0 (c : Dev nD) : W3 m ρ c (Proc.devRef .tc main_arg0) = m ((c : Thread nD τ).loc main_arg0) :=
  (StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))).trans (W2_main_arg0 m ρ c)
theorem W4_main_arg0 (c : Dev nD) : W4 m ρ c (Proc.devRef .tc main_arg0) = m ((c : Thread nD τ).loc main_arg0) :=
  (W4_of_ne m ρ c main_arg0 (by decide)).trans (W3_main_arg0 m ρ c)
theorem W5_main_arg0 (c : Dev nD) : W5 m ρ c (Proc.devRef .tc main_arg0) = m ((c : Thread nD τ).loc main_arg0) :=
  (StableHlo.after_of_forall_not_mem (b := Proc.devRef .tc main_arg0) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))).trans (W4_main_arg0 m ρ c)

theorem W1_main_arg1 (c : Dev nD) : W1 m ρ c (Proc.devRef .tc main_arg1) = m ((c : Thread nD τ).loc main_arg1) :=
  (StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))).trans rfl
theorem W2_main_arg1 (c : Dev nD) : W2 m ρ c (Proc.devRef .tc main_arg1) = m ((c : Thread nD τ).loc main_arg1) :=
  (W2_of_ne m ρ c main_arg1 (by decide)).trans (W1_main_arg1 m ρ c)
theorem W3_main_arg1 (c : Dev nD) : W3 m ρ c (Proc.devRef .tc main_arg1) = m ((c : Thread nD τ).loc main_arg1) :=
  (StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))).trans (W2_main_arg1 m ρ c)
theorem W4_main_arg1 (c : Dev nD) : W4 m ρ c (Proc.devRef .tc main_arg1) = m ((c : Thread nD τ).loc main_arg1) :=
  (W4_of_ne m ρ c main_arg1 (by decide)).trans (W3_main_arg1 m ρ c)
theorem W5_main_arg1 (c : Dev nD) : W5 m ρ c (Proc.devRef .tc main_arg1) = m ((c : Thread nD τ).loc main_arg1) :=
  (StableHlo.after_of_forall_not_mem (b := Proc.devRef .tc main_arg1) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))).trans (W4_main_arg1 m ρ c)

theorem W1_main_arg2 (c : Dev nD) : W1 m ρ c (Proc.devRef .tc main_arg2) = m ((c : Thread nD τ).loc main_arg2) :=
  (StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))).trans rfl
theorem W2_main_arg2 (c : Dev nD) : W2 m ρ c (Proc.devRef .tc main_arg2) = m ((c : Thread nD τ).loc main_arg2) :=
  (W2_of_ne m ρ c main_arg2 (by decide)).trans (W1_main_arg2 m ρ c)
theorem W3_main_arg2 (c : Dev nD) : W3 m ρ c (Proc.devRef .tc main_arg2) = m ((c : Thread nD τ).loc main_arg2) :=
  (StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))).trans (W2_main_arg2 m ρ c)
theorem W4_main_arg2 (c : Dev nD) : W4 m ρ c (Proc.devRef .tc main_arg2) = m ((c : Thread nD τ).loc main_arg2) :=
  (W4_of_ne m ρ c main_arg2 (by decide)).trans (W3_main_arg2 m ρ c)
theorem W5_main_arg2 (c : Dev nD) : W5 m ρ c (Proc.devRef .tc main_arg2) = m ((c : Thread nD τ).loc main_arg2) :=
  (StableHlo.after_of_forall_not_mem (b := Proc.devRef .tc main_arg2) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))).trans (W4_main_arg2 m ρ c)

theorem W1_main_arg3 (c : Dev nD) : W1 m ρ c (Proc.devRef .tc main_arg3) = m ((c : Thread nD τ).loc main_arg3) :=
  (StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))).trans rfl
theorem W2_main_arg3 (c : Dev nD) : W2 m ρ c (Proc.devRef .tc main_arg3) = m ((c : Thread nD τ).loc main_arg3) :=
  (W2_of_ne m ρ c main_arg3 (by decide)).trans (W1_main_arg3 m ρ c)
theorem W3_main_arg3 (c : Dev nD) : W3 m ρ c (Proc.devRef .tc main_arg3) = m ((c : Thread nD τ).loc main_arg3) :=
  (StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))).trans (W2_main_arg3 m ρ c)
theorem W4_main_arg3 (c : Dev nD) : W4 m ρ c (Proc.devRef .tc main_arg3) = m ((c : Thread nD τ).loc main_arg3) :=
  (W4_of_ne m ρ c main_arg3 (by decide)).trans (W3_main_arg3 m ρ c)
theorem W5_main_arg3 (c : Dev nD) : W5 m ρ c (Proc.devRef .tc main_arg3) = m ((c : Thread nD τ).loc main_arg3) :=
  (StableHlo.after_of_forall_not_mem (b := Proc.devRef .tc main_arg3) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))).trans (W4_main_arg3 m ρ c)

theorem W1_main_arg4 (c : Dev nD) : W1 m ρ c (Proc.devRef .tc main_arg4) = m ((c : Thread nD τ).loc main_arg4) :=
  (StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))).trans rfl
theorem W2_main_arg4 (c : Dev nD) : W2 m ρ c (Proc.devRef .tc main_arg4) = m ((c : Thread nD τ).loc main_arg4) :=
  (W2_of_ne m ρ c main_arg4 (by decide)).trans (W1_main_arg4 m ρ c)
theorem W3_main_arg4 (c : Dev nD) : W3 m ρ c (Proc.devRef .tc main_arg4) = m ((c : Thread nD τ).loc main_arg4) :=
  (StableHlo.after_of_forall_not_mem (b := Proc.devRef .tc main_arg4) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))).trans (W2_main_arg4 m ρ c)
theorem W4_main_arg4 (c : Dev nD) : W4 m ρ c (Proc.devRef .tc main_arg4) = m ((c : Thread nD τ).loc main_arg4) :=
  (W4_of_ne m ρ c main_arg4 (by decide)).trans (W3_main_arg4 m ρ c)
theorem W5_main_arg4 (c : Dev nD) : W5 m ρ c (Proc.devRef .tc main_arg4) = m ((c : Thread nD τ).loc main_arg4) :=
  (StableHlo.after_of_forall_not_mem (b := Proc.devRef .tc main_arg4) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))).trans (W4_main_arg4 m ρ c)

theorem W1_main_arg5 (c : Dev nD) : W1 m ρ c (Proc.devRef .tc main_arg5) = m ((c : Thread nD τ).loc main_arg5) :=
  (StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))).trans rfl
theorem W2_main_arg5 (c : Dev nD) : W2 m ρ c (Proc.devRef .tc main_arg5) = m ((c : Thread nD τ).loc main_arg5) :=
  (W2_of_ne m ρ c main_arg5 (by decide)).trans (W1_main_arg5 m ρ c)
theorem W3_main_arg5 (c : Dev nD) : W3 m ρ c (Proc.devRef .tc main_arg5) = m ((c : Thread nD τ).loc main_arg5) :=
  (StableHlo.after_of_forall_not_mem (b := Proc.devRef .tc main_arg5) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))).trans (W2_main_arg5 m ρ c)
theorem W4_main_arg5 (c : Dev nD) : W4 m ρ c (Proc.devRef .tc main_arg5) = m ((c : Thread nD τ).loc main_arg5) :=
  (W4_of_ne m ρ c main_arg5 (by decide)).trans (W3_main_arg5 m ρ c)
theorem W5_main_arg5 (c : Dev nD) : W5 m ρ c (Proc.devRef .tc main_arg5) = m ((c : Thread nD τ).loc main_arg5) :=
  (StableHlo.after_of_forall_not_mem (b := Proc.devRef .tc main_arg5) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))).trans (W4_main_arg5 m ρ c)

theorem W1_main_arg6 (c : Dev nD) : W1 m ρ c (Proc.devRef .tc main_arg6) = m ((c : Thread nD τ).loc main_arg6) :=
  (StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))).trans rfl
theorem W2_main_arg6 (c : Dev nD) : W2 m ρ c (Proc.devRef .tc main_arg6) = m ((c : Thread nD τ).loc main_arg6) :=
  (W2_of_ne m ρ c main_arg6 (by decide)).trans (W1_main_arg6 m ρ c)
theorem W3_main_arg6 (c : Dev nD) : W3 m ρ c (Proc.devRef .tc main_arg6) = m ((c : Thread nD τ).loc main_arg6) :=
  (StableHlo.after_of_forall_not_mem (b := Proc.devRef .tc main_arg6) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))).trans (W2_main_arg6 m ρ c)
theorem W4_main_arg6 (c : Dev nD) : W4 m ρ c (Proc.devRef .tc main_arg6) = m ((c : Thread nD τ).loc main_arg6) :=
  (W4_of_ne m ρ c main_arg6 (by decide)).trans (W3_main_arg6 m ρ c)
theorem W5_main_arg6 (c : Dev nD) : W5 m ρ c (Proc.devRef .tc main_arg6) = m ((c : Thread nD τ).loc main_arg6) :=
  (StableHlo.after_of_forall_not_mem (b := Proc.devRef .tc main_arg6) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))).trans (W4_main_arg6 m ρ c)

/-! ## The proof data family and the thread state -/

abbrev adm : (p : Fin 2) → (pcfgs (F := F) p).Adm := fun p => (cfgs p).toPCfg_adm
/-- every pipeline's proof data, each at its region's entry contents -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- what rides beside the buffers: the generator register at some state, and the core owing nothing -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- the last thread state without the debts: every unscoped buffer at the final contents, the generator register at some state -/
abbrev Tₙ (c : Dev nD) : sProp 𝕄 := iprop(StableHlo.held (c : Thread nD τ) (Pipeline.ucRefs τ sig) (W5 m ρ c) ∗ ∃ r, prngReg c r)

/-! ## The regions as segments -/

set_option backward.isDefEq.respectTransparency.types false in
/-- Region 0 over the thread state: entered from every unscoped buffer at `W1`, left at `W2`. Its arrays are split
    out of the unscoped buffers and put back at what the pipeline leaves; the generator register goes into the
    pipeline's invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W3`, left at `W4`. Its arrays are split
    out of the unscoped buffers and put back at what the pipeline leaves; the generator register goes into the
    pipeline's invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]

set_option maxHeartbeats 4000000 in
theorem main_run (c : Dev nD) : main (F := F) c = Pipeline.Seg.run (segs m ρ) := (main_chain c).trans (by chain_rfl)

set_option backward.isDefEq.respectTransparency.types false in
set_option maxHeartbeats 4000000 in
/-- THE RUN: from any memory with zero counters, every weakly fair execution of the program terminates, nothing
    faulting; the result buffer ends at the fold's value and every argument array as launched. -/
theorem run : θ_run defs (onTc (τ := τ) (main (F := F))) ⟨m, fun _ => 0, ρ⟩ (fun r => ∀ c : Dev nD,
      r.2.mem ((c.tc : Thread nD τ).loc main_v175) = W5 m ρ c (Proc.devRef .tc main_v175)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      show iprop(StableHlo.held (c : Thread nD τ) (Pipeline.ucRefs τ sig) (W5 m ρ c) ∗ R c)
        ⊢ iprop(Tₙ m ρ c ∗ ∃ W, owes (c : Thread nD τ) (0 : CellTallies nD τ sig Unit) W)
      iintro ⟨Hh, Hp, HO⟩
      isplitr [HO]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v175 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c)⟩)

end Cert.KernelIdeal.Whole

end
-- ==== Proof.Spec.lean ====
/-
  One layer's dense stage, entry by entry, on the extended reals.

  A layer takes the node features `h` (one row of 128 entries per node), the three relations' neighbour means
  `a0 a1 a2` (same shape), and per layer `l` and relation `r` a neighbour weight matrix `Wn l r`, a root weight matrix
  `Wr l r` and a bias row `b l r`. Entry `(p, q)` of the layer's output starts from zero and, relation after relation,
  has added to it the entry of `a_r · Wn l r`, then the entry of `h · Wr l r`, then `b l r q` — in exactly that order,
  so that no law of the extended reals beyond the definition is needed to compare two programs that both add in this
  order —, and is finally clamped below at zero when the layer is followed by a rectifier.
-/
import Idealize.ShloMosaic.Lib.ValueIdx
import Idealize.ShloMosaic.PureOps.Ideal

noncomputable section

namespace Cert.Spec

open Idealize.ShloMosaic Idealize.ShloMosaic.ValueIdx

/-- nodes × features -/
abbrev SN : Shape := ⟨2, ![100000, 128]⟩
/-- layers × relations × 128 × 128 -/
abbrev SW : Shape := ⟨4, ![2, 3, 128, 128]⟩
/-- layers × relations × 128 -/
abbrev SB : Shape := ⟨3, ![2, 3, 128]⟩

/-- the float zero word at the ideal values -/
def z : EReal := Ideal.ofBits .f32 0x00000000#32

/-- One relation's contribution to an entry: to the running value `acc` are added the entry of the neighbour product
    (`a` a row of the neighbour means, `wn` a column of the neighbour weights), the entry of the root product (`h` a row
    of the features, `wr` a column of the root weights) and the bias entry, in that order. -/
def rel (acc : EReal) (a wn h wr : Fin 128 → EReal) (b : EReal) : EReal :=
  ((acc + ∑ k : Fin 128, a k * wn k) + ∑ k : Fin 128, h k * wr k) + b

/-- Entry `(p, q)` of layer `l` before the rectifier: zero, then per relation the neighbour product's entry, the root
    product's entry and the bias entry, added in that order. -/
def lin (h a0 a1 a2 : SN.Idx → EReal) (Wn Wr : SW.Idx → EReal) (b : SB.Idx → EReal) (l : Fin 2)
    (p : Fin 100000) (q : Fin 128) : EReal :=
  (((((((((z + ∑ k : Fin 128, a0 (ix2 p k) * Wn (ix4 l (0 : Fin 3) k q)) + ∑ k : Fin 128, h (ix2 p k) * Wr (ix4 l (0 : Fin 3) k q)) + b (ix3 l (0 : Fin 3) q))
    + ∑ k : Fin 128, a1 (ix2 p k) * Wn (ix4 l (1 : Fin 3) k q)) + ∑ k : Fin 128, h (ix2 p k) * Wr (ix4 l (1 : Fin 3) k q)) + b (ix3 l (1 : Fin 3) q))
    + ∑ k : Fin 128, a2 (ix2 p k) * Wn (ix4 l (2 : Fin 3) k q)) + ∑ k : Fin 128, h (ix2 p k) * Wr (ix4 l (2 : Fin 3) k q)) + b (ix3 l (2 : Fin 3) q))

/-- `lin` is three relations' contributions on top of zero. -/
theorem lin_eq_rel (h a0 a1 a2 : SN.Idx → EReal) (Wn Wr : SW.Idx → EReal) (b : SB.Idx → EReal) (l : Fin 2)
    (p : Fin 100000) (q : Fin 128) :
    lin h a0 a1 a2 Wn Wr b l p q =
      rel (rel (rel z (fun k => a0 (ix2 p k)) (fun k => Wn (ix4 l (0 : Fin 3) k q)) (fun k => h (ix2 p k)) (fun k => Wr (ix4 l (0 : Fin 3) k q)) (b (ix3 l (0 : Fin 3) q)))
        (fun k => a1 (ix2 p k)) (fun k => Wn (ix4 l (1 : Fin 3) k q)) (fun k => h (ix2 p k)) (fun k => Wr (ix4 l (1 : Fin 3) k q)) (b (ix3 l (1 : Fin 3) q)))
        (fun k => a2 (ix2 p k)) (fun k => Wn (ix4 l (2 : Fin 3) k q)) (fun k => h (ix2 p k)) (fun k => Wr (ix4 l (2 : Fin 3) k q)) (b (ix3 l (2 : Fin 3) q)) := rfl

/-- The layer's output array: `lin` at every entry, clamped below at zero when `relu`. -/
def dense (relu : Bool) (h a0 a1 a2 : SN.Idx → EReal) (Wn Wr : SW.Idx → EReal) (b : SB.Idx → EReal) (l : Fin 2) :
    SN.Idx → EReal :=
  fun i => if relu then max (lin h a0 a1 a2 Wn Wr b l (i 0) (i 1)) z else lin h a0 a1 a2 Wn Wr b l (i 0) (i 1)

theorem dense_relu (h a0 a1 a2 : SN.Idx → EReal) (Wn Wr : SW.Idx → EReal) (b : SB.Idx → EReal) (l : Fin 2)
    (p : Fin 100000) (q : Fin 128) :
    dense true h a0 a1 a2 Wn Wr b l (ix2 p q) = max (lin h a0 a1 a2 Wn Wr b l p q) z := rfl

theorem dense_plain (h a0 a1 a2 : SN.Idx → EReal) (Wn Wr : SW.Idx → EReal) (b : SB.Idx → EReal) (l : Fin 2)
    (p : Fin 100000) (q : Fin 128) :
    dense false h a0 a1 a2 Wn Wr b l (ix2 p q) = lin h a0 a1 a2 Wn Wr b l p q := rfl

end Cert.Spec

end
-- ==== Proof.LibMatProduct.lean ====
/-
  A matrix product into a zero accumulator, read at an entry.

  For operands `[m, k]` and `[k, n]` contracted over the left operand's columns and the right operand's rows, entry
  `(r, c)` of the product is the sum over the contracted coordinate `h` of `lhs (r, h) · rhs (h, c)`: the contraction's
  one-axis index set is re-indexed by its coordinate.
-/
import Idealize.ShloMosaic.Lib.ValueIdx
import Idealize.ShloMosaic.PureOps.Ideal.Laws

noncomputable section

namespace Cert.LibMatProduct

open Idealize.ShloMosaic Idealize.ShloMosaic.ValueIdx

/-- The float words of `1`, `510` at the ideal values. -/
theorem one_word : Ideal.ofBits .f32 0x3F800000#32 = (1 : EReal) := by
  simp [Ideal.ofBits, Ideal.ieee, -EReal.coe_mul]; norm_num

theorem w510 : Ideal.ofBits .f32 0x43FF0000#32 = ((510 : ℝ) : EReal) := by
  simp [Ideal.ofBits, Ideal.ieee, -EReal.coe_mul]; norm_num

/-- Entry `(r, c)` of `lhs · rhs` into a zero accumulator is `∑ h, lhs (r, h) · rhs (h, c)`. -/
theorem matmul_zero_apply {m k n : ℕ} {φ₁ φ₂ : FTy}
    (d : DotDims ⟨2, ![m, k]⟩ ⟨2, ![k, n]⟩ ⟨2, ![m, n]⟩) (prec : Option ContractPrecision)
    (hlc : d.lhsContracting = [1]) (hrc : d.rhsContracting = [0])
    (hln : d.lhsNonContracting = [0]) (hrn : d.rhsNonContracting = [1])
    (hlb : d.lhsBatch = []) (hrb : d.rhsBatch = [])
    (lhs : FVec Ideal ⟨2, ![m, k]⟩ φ₁) (rhs : FVec Ideal ⟨2, ![k, n]⟩ φ₂) (r : Fin m) (c : Fin n) :
    FloatOps.matmul d prec lhs rhs (constant ⟨2, ![m, n]⟩ .f32 0x00000000#32) (ix2 r c)
      = ∑ h : Fin k, lhs (ix2 r h) * rhs (ix2 h c) := by
  rw [Ideal.matmul_constant_zero_apply]
  have hrk : d.contr.rank = 1 := by rw [d.rank_contr, hlc]; rfl
  have hs : d.contr.size ⟨0, by omega⟩ = k := by
    rw [d.size_contr 0 (by rw [hlc]; exact Nat.one_pos)]
    simp [hlc]
  rw [← Equiv.sum_comp (contrEquiv1 d k hrk hs).symm]
  refine Finset.sum_congr rfl fun h _ => ?_
  have hval : (((contrEquiv1 d k hrk hs).symm h) ⟨0, by omega⟩ : ℕ) = h.val := contrEquiv1_symm_val d k hrk hs h
  congr 1
  · refine congrArg lhs (funext fun a => Fin.ext ?_)
    match a with
    | ⟨0, _⟩ =>
      show (d.lhsIdx (ix2 r c) _ 0).val = r.val
      unfold DotDims.lhsIdx
      rw [dif_neg (by rw [hlb]; exact List.not_mem_nil), dif_pos (by rw [hln]; exact List.mem_singleton.mpr rfl)]
      simp only [Fin.val_cast]
      have key : ∀ (p : Nat) (hp : p < (⟨2, ![m, n]⟩ : Shape).rank), p = 0 → ((ix2 r c : (⟨2, ![m, n]⟩ : Shape).Idx) ⟨p, hp⟩).val = r.val :=
        fun p hp e => by subst e; rfl
      exact key _ _ (by simp [hlb, hln])
    | ⟨1, _⟩ =>
      show (d.lhsIdx (ix2 r c) _ 1).val = h.val
      rw [d.lhsIdx_val_of_single hlc]
      exact hval
  · refine congrArg rhs (funext fun a => Fin.ext ?_)
    match a with
    | ⟨0, _⟩ =>
      show (d.rhsIdx (ix2 r c) _ 0).val = h.val
      rw [d.rhsIdx_val_of_single hrc]
      exact hval
    | ⟨1, _⟩ =>
      show (d.rhsIdx (ix2 r c) _ 1).val = c.val
      unfold DotDims.rhsIdx
      rw [dif_neg (by rw [hrb]; exact List.not_mem_nil), dif_pos (by rw [hrn]; exact List.mem_singleton.mpr rfl)]
      simp only [Fin.val_cast]
      have key : ∀ (p : Nat) (hp : p < (⟨2, ![m, n]⟩ : Shape).rank), p = 1 → ((ix2 r c : (⟨2, ![m, n]⟩ : Shape).Idx) ⟨p, hp⟩).val = c.val :=
        fun p hp e => by subst e; rfl
      exact key _ _ (by simp [hlb, hln, hrn])

end Cert.LibMatProduct

end
-- ==== Proof.KernelIdealBlock0.lean ====
/-
  The output block of layer 0's kernel at an entry.

  From the five input blocks — `x0`: 5000 rows of the features; `x1`: the same rows of the three stacked neighbour
  means; `x2`, `x3`: the three neighbour and the three root weight matrices; `x4`: the three bias rows — entry `(p, q)` of
  the stored block is zero with the three relations' contributions added in order (`Cert.Spec.rel`): relation `r` adds
  `∑ k, x1 (r, p, k) · x2 (r, k, q)`, then `∑ k, x0 (p, k) · x3 (r, k, q)`, then `x4 (r, q)`; the first layer then clamps below at zero.
  A matrix product into a zero accumulator is the plain sum over the contracted coordinate; a slab `[1, a, b]` of a
  `[3, a, b]` block viewed as `[a, b]` reads the block at that relation; a bias row spread down the rows reads its entry.
-/
import proofs.«133929_j46901042872931_1_alg».proof.Proof.KernelIdealStage0
import proofs.«133929_j46901042872931_1_alg».proof.Proof.Spec
import proofs.«133929_j46901042872931_1_alg».proof.Proof.LibMatProduct
import Idealize.ShloMosaic.Lib.ValueIdx
import Idealize.ShloMosaic.Lib.ValueLayout
import Idealize.ShloMosaic.Lib.Pipeline.Value

noncomputable section

namespace Cert.KernelIdeal.Block0

open Cert.KernelIdeal Cert.KernelIdeal.Gen Cert.KernelIdeal.Stage0
open Idealize.ShloMosaic Idealize.ShloMosaic.ValueIdx Cert.Spec

theorem hz2 : (![0, 0] : Fin 2 → Nat) = fun _ => 0 := funext fun a => by fin_cases a <;> rfl

/-- The zero word spread over the block reads `z`. -/
theorem zero_at (j : S5000x128.Idx) :
    (broadcast S5000x128 (Scalar.ofBits (F := Ideal) .f32 0x00000000#32) : FVec Ideal S5000x128 .f32) j = z := rfl

/-- Relation 0's slab of the stacked block, viewed `[5000, 128]`, at `(p, k)`. -/
theorem slab0_at (x1 : Vec Ideal S3x5000x128 .f32) (h : S1x5000x128.ShapeCasts S5000x128) (p : Fin 5000) (k : Fin 128) :
    shapeCast S5000x128 (View.ld x1 rB0 : Vec Ideal S1x5000x128 .f32) h (ix2 p k) = x1 (ix3 (0 : Fin 3) p k) := by
  refine (shapeCast_1ab_ab_apply (View.ld x1 rB0) h p k).trans ?_
  show x1 (rB0.idx _) = _
  refine congrArg x1 (funext fun a => Fin.ext ?_)
  match a with
  | ⟨0, _⟩ => rfl
  | ⟨1, _⟩ => show 0 + 1 * p.val = p.val; omega
  | ⟨2, _⟩ => show 0 + 1 * k.val = k.val; omega

/-- Relation 0's weight matrix, viewed `[128, 128]`, at `(k, q)`. -/
theorem mat0_at (x2 : Vec Ideal S3x128x128 .f32) (h : S1x128x128.ShapeCasts S128x128) (k q : Fin 128) :
    shapeCast S128x128 (View.ld x2 rC0 : Vec Ideal S1x128x128 .f32) h (ix2 k q) = x2 (ix3 (0 : Fin 3) k q) := by
  refine (shapeCast_1ab_ab_apply (View.ld x2 rC0) h k q).trans ?_
  show x2 (rC0.idx _) = _
  refine congrArg x2 (funext fun a => Fin.ext ?_)
  match a with
  | ⟨0, _⟩ => rfl
  | ⟨1, _⟩ => show 0 + 1 * k.val = k.val; omega
  | ⟨2, _⟩ => show 0 + 1 * q.val = q.val; omega

/-- Relation 0's bias row, recast `[1, 128] → [128] → [1, 128]` and spread down the rows, at `(p, q)`. -/
theorem bias0_at (x4 : Vec Ideal S3x128 .f32) (h1 : S1x128.ShapeCasts S128) (h2 : S128.ShapeCasts S1x128) (hb : S1x128.Broadcasts S5000x128) (p : Fin 5000) (q : Fin 128) :
    broadcastTo S5000x128 (shapeCast S1x128 (shapeCast S128 (View.ld x4 rD0 : Vec Ideal S1x128 .f32) h1) h2) hb (ix2 p q) = x4 (ix2 (0 : Fin 3) q) := by
  rw [shapeCast_shapeCast]
  refine (broadcastTo_1b_ab_apply (View.ld x4 rD0) hb p q).trans ?_
  show x4 (rD0.idx _) = _
  refine congrArg x4 (funext fun a => Fin.ext ?_)
  match a with
  | ⟨0, _⟩ => rfl
  | ⟨1, _⟩ => show 0 + 1 * q.val = q.val; omega

/-- Relation 1's slab of the stacked block, viewed `[5000, 128]`, at `(p, k)`. -/
theorem slab1_at (x1 : Vec Ideal S3x5000x128 .f32) (h : S1x5000x128.ShapeCasts S5000x128) (p : Fin 5000) (k : Fin 128) :
    shapeCast S5000x128 (View.ld x1 rB1 : Vec Ideal S1x5000x128 .f32) h (ix2 p k) = x1 (ix3 (1 : Fin 3) p k) := by
  refine (shapeCast_1ab_ab_apply (View.ld x1 rB1) h p k).trans ?_
  show x1 (rB1.idx _) = _
  refine congrArg x1 (funext fun a => Fin.ext ?_)
  match a with
  | ⟨0, _⟩ => rfl
  | ⟨1, _⟩ => show 0 + 1 * p.val = p.val; omega
  | ⟨2, _⟩ => show 0 + 1 * k.val = k.val; omega

/-- Relation 1's weight matrix, viewed `[128, 128]`, at `(k, q)`. -/
theorem mat1_at (x2 : Vec Ideal S3x128x128 .f32) (h : S1x128x128.ShapeCasts S128x128) (k q : Fin 128) :
    shapeCast S128x128 (View.ld x2 rC1 : Vec Ideal S1x128x128 .f32) h (ix2 k q) = x2 (ix3 (1 : Fin 3) k q) := by
  refine (shapeCast_1ab_ab_apply (View.ld x2 rC1) h k q).trans ?_
  show x2 (rC1.idx _) = _
  refine congrArg x2 (funext fun a => Fin.ext ?_)
  match a with
  | ⟨0, _⟩ => rfl
  | ⟨1, _⟩ => show 0 + 1 * k.val = k.val; omega
  | ⟨2, _⟩ => show 0 + 1 * q.val = q.val; omega

/-- Relation 1's bias row, recast `[1, 128] → [128] → [1, 128]` and spread down the rows, at `(p, q)`. -/
theorem bias1_at (x4 : Vec Ideal S3x128 .f32) (h1 : S1x128.ShapeCasts S128) (h2 : S128.ShapeCasts S1x128) (hb : S1x128.Broadcasts S5000x128) (p : Fin 5000) (q : Fin 128) :
    broadcastTo S5000x128 (shapeCast S1x128 (shapeCast S128 (View.ld x4 rD1 : Vec Ideal S1x128 .f32) h1) h2) hb (ix2 p q) = x4 (ix2 (1 : Fin 3) q) := by
  rw [shapeCast_shapeCast]
  refine (broadcastTo_1b_ab_apply (View.ld x4 rD1) hb p q).trans ?_
  show x4 (rD1.idx _) = _
  refine congrArg x4 (funext fun a => Fin.ext ?_)
  match a with
  | ⟨0, _⟩ => rfl
  | ⟨1, _⟩ => show 0 + 1 * q.val = q.val; omega

/-- Relation 2's slab of the stacked block, viewed `[5000, 128]`, at `(p, k)`. -/
theorem slab2_at (x1 : Vec Ideal S3x5000x128 .f32) (h : S1x5000x128.ShapeCasts S5000x128) (p : Fin 5000) (k : Fin 128) :
    shapeCast S5000x128 (View.ld x1 rB2 : Vec Ideal S1x5000x128 .f32) h (ix2 p k) = x1 (ix3 (2 : Fin 3) p k) := by
  refine (shapeCast_1ab_ab_apply (View.ld x1 rB2) h p k).trans ?_
  show x1 (rB2.idx _) = _
  refine congrArg x1 (funext fun a => Fin.ext ?_)
  match a with
  | ⟨0, _⟩ => rfl
  | ⟨1, _⟩ => show 0 + 1 * p.val = p.val; omega
  | ⟨2, _⟩ => show 0 + 1 * k.val = k.val; omega

/-- Relation 2's weight matrix, viewed `[128, 128]`, at `(k, q)`. -/
theorem mat2_at (x2 : Vec Ideal S3x128x128 .f32) (h : S1x128x128.ShapeCasts S128x128) (k q : Fin 128) :
    shapeCast S128x128 (View.ld x2 rC2 : Vec Ideal S1x128x128 .f32) h (ix2 k q) = x2 (ix3 (2 : Fin 3) k q) := by
  refine (shapeCast_1ab_ab_apply (View.ld x2 rC2) h k q).trans ?_
  show x2 (rC2.idx _) = _
  refine congrArg x2 (funext fun a => Fin.ext ?_)
  match a with
  | ⟨0, _⟩ => rfl
  | ⟨1, _⟩ => show 0 + 1 * k.val = k.val; omega
  | ⟨2, _⟩ => show 0 + 1 * q.val = q.val; omega

/-- Relation 2's bias row, recast `[1, 128] → [128] → [1, 128]` and spread down the rows, at `(p, q)`. -/
theorem bias2_at (x4 : Vec Ideal S3x128 .f32) (h1 : S1x128.ShapeCasts S128) (h2 : S128.ShapeCasts S1x128) (hb : S1x128.Broadcasts S5000x128) (p : Fin 5000) (q : Fin 128) :
    broadcastTo S5000x128 (shapeCast S1x128 (shapeCast S128 (View.ld x4 rD2 : Vec Ideal S1x128 .f32) h1) h2) hb (ix2 p q) = x4 (ix2 (2 : Fin 3) q) := by
  rw [shapeCast_shapeCast]
  refine (broadcastTo_1b_ab_apply (View.ld x4 rD2) hb p q).trans ?_
  show x4 (rD2.idx _) = _
  refine congrArg x4 (funext fun a => Fin.ext ?_)
  match a with
  | ⟨0, _⟩ => rfl
  | ⟨1, _⟩ => show 0 + 1 * q.val = q.val; omega

/-- A product of a `[5000, 128]` block by a `[128, 128]` matrix into a zero accumulator, at `(p, q)`. -/
theorem prod_at (X : FVec Ideal S5000x128 .f32) (W : FVec Ideal S128x128 .f32) (p : Fin 5000) (q : Fin 128) :
    matmul dot_S5000x128_S128x128_S5000x128_1_0_0_1_n_n none X W (constant S5000x128 .f32 0x00000000#32) (ix2 p q)
      = ∑ k : Fin 128, X (ix2 p k) * W (ix2 k q) :=
  Cert.LibMatProduct.matmul_zero_apply dot_S5000x128_S128x128_S5000x128_1_0_0_1_n_n none rfl rfl rfl rfl rfl rfl X W p q

/-- The rows, columns and bias entries one relation's contribution reads. -/
abbrev contrib (acc : EReal) (x0 : Vec Ideal S5000x128 .f32) (x1 : Vec Ideal S3x5000x128 .f32) (x2 x3 : Vec Ideal S3x128x128 .f32)
    (x4 : Vec Ideal S3x128 .f32) (r : Fin 3) (p : Fin 5000) (q : Fin 128) : EReal :=
  rel acc (fun k => x1 (ix3 r p k)) (fun k => x2 (ix3 r k q)) (fun k => x0 (ix2 p k)) (fun k => x3 (ix3 r k q)) (x4 (ix2 r q))

/-- ENTRY `(p, q)` OF THE STORED BLOCK. -/
theorem out_at (x0 : Vec Ideal S5000x128 .f32) (x1 : Vec Ideal S3x5000x128 .f32) (x2 x3 : Vec Ideal S3x128x128 .f32)
    (x4 : Vec Ideal S3x128 .f32) (p : Fin 5000) (q : Fin 128) :
    out0_5 x0 x1 x2 x3 x4 (ix2 p q)
      = max (contrib (contrib (contrib z x0 x1 x2 x3 x4 0 p q) x0 x1 x2 x3 x4 1 p q) x0 x1 x2 x3 x4 2 p q) z := by
  unfold out0_5
  rw [View.canon_unit_zero hz2]
  simp only [k0_pay1, k0_pay2, k0_pay3, View.ld_unit_zero (S := S5000x128) hz2]
  simp only [maximumf_apply, addf_apply]
  simp only [prod_at, shapeCast_self]
  simp only [slab0_at x1 shapeCasts_S1x5000x128_S5000x128 p, slab1_at x1 shapeCasts_S1x5000x128_S5000x128 p, slab2_at x1 shapeCasts_S1x5000x128_S5000x128 p,
    fun k => mat0_at x2 shapeCasts_S1x128x128_S128x128 k q, fun k => mat1_at x2 shapeCasts_S1x128x128_S128x128 k q, fun k => mat2_at x2 shapeCasts_S1x128x128_S128x128 k q,
    fun k => mat0_at x3 shapeCasts_S1x128x128_S128x128 k q, fun k => mat1_at x3 shapeCasts_S1x128x128_S128x128 k q, fun k => mat2_at x3 shapeCasts_S1x128x128_S128x128 k q,
    bias0_at x4 shapeCasts_S1x128_S128 shapeCasts_S128_S1x128 broadcasts_S1x128_S5000x128 p q,
    bias1_at x4 shapeCasts_S1x128_S128 shapeCasts_S128_S1x128 broadcasts_S1x128_S5000x128 p q,
    bias2_at x4 shapeCasts_S1x128_S128 shapeCasts_S128_S1x128 broadcasts_S1x128_S5000x128 p q]
  rfl

end Cert.KernelIdeal.Block0

end
-- ==== Proof.SpecStack.lean ====
/-
  A layer's dense stage as the kernel is handed its operands.

  The kernel reads the three relations' neighbour means as ONE stacked array `S : [3, 100000, 128]`, and this layer's
  weights and biases as `Wn, Wr : [3, 128, 128]` and `b : [3, 128]` (the layer's slab of the program's arguments).
  `denseStack` is the layer's output over these; when the stacked array's slab `r` is the neighbour mean `a_r` and the
  per-layer arrays are layer `l`'s slabs of the arguments, it is `Cert.Spec.dense`.
-/
import proofs.«133929_j46901042872931_1_alg».proof.Proof.Spec

noncomputable section

namespace Cert.Spec

open Idealize.ShloMosaic Idealize.ShloMosaic.ValueIdx

/-- relations × nodes × features -/
abbrev SS : Shape := ⟨3, ![3, 100000, 128]⟩
/-- relations × 128 × 128 -/
abbrev SWl : Shape := ⟨3, ![3, 128, 128]⟩
/-- relations × 128 -/
abbrev SBl : Shape := ⟨2, ![3, 128]⟩

/-- Relation `r`'s contribution to entry `(p, q)`, read off the stacked operands. -/
abbrev stackRel (acc : EReal) (h : SN.Idx → EReal) (S : SS.Idx → EReal) (Wn Wr : SWl.Idx → EReal) (b : SBl.Idx → EReal)
    (r : Fin 3) (p : Fin 100000) (q : Fin 128) : EReal :=
  rel acc (fun k => S (ix3 r p k)) (fun k => Wn (ix3 r k q)) (fun k => h (ix2 p k)) (fun k => Wr (ix3 r k q)) (b (ix2 r q))

/-- The layer's output over the stacked operands. -/
def denseStack (relu : Bool) (h : SN.Idx → EReal) (S : SS.Idx → EReal) (Wn Wr : SWl.Idx → EReal) (b : SBl.Idx → EReal) :
    SN.Idx → EReal :=
  fun i => if relu then max (stackRel (stackRel (stackRel z h S Wn Wr b 0 (i 0) (i 1)) h S Wn Wr b 1 (i 0) (i 1)) h S Wn Wr b 2 (i 0) (i 1)) z
    else stackRel (stackRel (stackRel z h S Wn Wr b 0 (i 0) (i 1)) h S Wn Wr b 1 (i 0) (i 1)) h S Wn Wr b 2 (i 0) (i 1)

theorem denseStack_relu (h : SN.Idx → EReal) (S : SS.Idx → EReal) (Wn Wr : SWl.Idx → EReal) (b : SBl.Idx → EReal)
    (p : Fin 100000) (q : Fin 128) :
    denseStack true h S Wn Wr b (ix2 p q)
      = max (stackRel (stackRel (stackRel z h S Wn Wr b 0 p q) h S Wn Wr b 1 p q) h S Wn Wr b 2 p q) z := rfl

theorem denseStack_plain (h : SN.Idx → EReal) (S : SS.Idx → EReal) (Wn Wr : SWl.Idx → EReal) (b : SBl.Idx → EReal)
    (p : Fin 100000) (q : Fin 128) :
    denseStack false h S Wn Wr b (ix2 p q)
      = stackRel (stackRel (stackRel z h S Wn Wr b 0 p q) h S Wn Wr b 1 p q) h S Wn Wr b 2 p q := rfl

/-- Over operands that ARE the slabs — the stacked array's slab `r` the mean `a_r`, the per-layer arrays layer `l`'s slabs of
    the arguments — the layer's output is `dense`. -/
theorem denseStack_eq_dense (relu : Bool) (h a0 a1 a2 : SN.Idx → EReal) (S : SS.Idx → EReal) (WnL WrL : SWl.Idx → EReal)
    (bL : SBl.Idx → EReal) (Wn Wr : SW.Idx → EReal) (b : SB.Idx → EReal) (l : Fin 2)
    (hS0 : ∀ p k, S (ix3 (0 : Fin 3) p k) = a0 (ix2 p k)) (hS1 : ∀ p k, S (ix3 (1 : Fin 3) p k) = a1 (ix2 p k))
    (hS2 : ∀ p k, S (ix3 (2 : Fin 3) p k) = a2 (ix2 p k))
    (hWn : ∀ r k q, WnL (ix3 r k q) = Wn (ix4 l r k q)) (hWr : ∀ r k q, WrL (ix3 r k q) = Wr (ix4 l r k q))
    (hb : ∀ r q, bL (ix2 r q) = b (ix3 l r q)) :
    denseStack relu h S WnL WrL bL = dense relu h a0 a1 a2 Wn Wr b l := by
  funext i
  obtain ⟨p, q, rfl⟩ : ∃ (p : Fin 100000) (q : Fin 128), i = ix2 p q := ⟨i 0, i 1, eq_ix2 i⟩
  cases relu
  · rw [denseStack_plain, dense_plain, lin_eq_rel]
    simp only [stackRel, hS0, hS1, hS2, hWn, hWr, hb]
  · rw [denseStack_relu, dense_relu, lin_eq_rel]
    simp only [stackRel, hS0, hS1, hS2, hWn, hWr, hb]

end Cert.Spec

end
-- ==== Proof.KernelIdealArr0.lean ====
/-
  Layer 0's kernel region: from the blocks to the whole output array.

  Grid point `t` stores rows `5000·t … 5000·t + 4999` of the output; its input blocks are the same rows of the features and
  of the three stacked neighbour means, and the whole weight and bias arrays. So what point `t` writes back is block `t` of
  ONE array function of the region's operand arrays — `Cert.Spec.denseStack` —, the twenty blocks cover the output, and
  after the region the output array is that function.
-/
import proofs.«133929_j46901042872931_1_alg».proof.Proof.KernelIdealBlock0
import proofs.«133929_j46901042872931_1_alg».proof.Proof.SpecStack
import Idealize.ShloMosaic.Lib.Pipeline.Value

noncomputable section

namespace Cert.KernelIdeal.Arr0

open Cert.KernelIdeal Cert.KernelIdeal.Gen Cert.KernelIdeal.Stage0 Cert.KernelIdeal.Block0
open Idealize.ShloMosaic Idealize.ShloMosaic.TcCoe Idealize.ShloMosaic.ValueIdx Idealize.SL.Sem Cert.Spec
open Idealize.ShloMosaic.Pipeline (Dat)

variable (V : (c : Dev nD) → (b : Ref sig .tc) → Buf (Elt Ideal) ((c : Thread nD τ).loc b))

/-- The printed index maps over the grid: the feature and output blocks and the stacked block's middle axis move with the
    point; every other block index is zero. -/
theorem idx_facts : ∀ t : Fin cfg0.N,
    win0_0.index t (0 : Fin 2) = win0_5.index t (0 : Fin 2) ∧ win0_0.index t (1 : Fin 2) = 0
    ∧ win0_1.index t (0 : Fin 3) = 0 ∧ win0_1.index t (1 : Fin 3) = win0_5.index t (0 : Fin 2) ∧ win0_1.index t (2 : Fin 3) = 0
    ∧ win0_2.index t (0 : Fin 3) = 0 ∧ win0_2.index t (1 : Fin 3) = 0 ∧ win0_2.index t (2 : Fin 3) = 0
    ∧ win0_3.index t (0 : Fin 3) = 0 ∧ win0_3.index t (1 : Fin 3) = 0 ∧ win0_3.index t (2 : Fin 3) = 0
    ∧ win0_4.index t (0 : Fin 2) = 0 ∧ win0_4.index t (1 : Fin 2) = 0
    ∧ win0_5.index t (1 : Fin 2) = 0 ∧ win0_5.index t (0 : Fin 2) ≤ 19 :=
  (by decide +kernel : ∀ t : Fin grid0.N, _)

/-- Every block of rows is some point's. -/
theorem idx_onto : ∀ q0 : Fin 20, ∃ t : Fin cfg0.N, win0_5.index t = ![q0.val, 0] :=
  (by decide +kernel : ∀ q0 : Fin 20, ∃ t : Fin grid0.N, win0_5.index t = ![q0.val, 0])

/-- WHAT POINT `t` WRITES BACK is block `t` of `denseStack` of the operand arrays as the region finds them. -/
theorem flushed_eq (c : Dev nD) (t : Fin cfg0.N) :
    (dat0 V c).flushed 5 t = ((cfg0.win 5).blk t).view.read (Elt Ideal) (denseStack true (V c main_arg0) (V c main_v78) (V c main_v80) (V c main_v82) (V c main_v84)) := by
  show (cfg0.win 5).cut (grid0.coords t) ((dat0 V c).after 5 t) = _
  rw [after0_5]
  obtain ⟨e00, e01, e10, e11, e12, e20, e21, e22, e30, e31, e32, e40, e41, e51, e5b⟩ := idx_facts t
  funext j
  obtain ⟨p, q, rfl⟩ : ∃ (p : Fin 5000) (q : Fin 128), j = ix2 p q := ⟨j 0, j 1, eq_ix2 j⟩
  have hP : win0_5.index t (0 : Fin 2) * 5000 + p.val < 100000 := by have := p.isLt; omega
  have hi : ((cfg0.win 5).blk t).view.emb (ix2 p q) = ix2 (⟨win0_5.index t (0 : Fin 2) * 5000 + p.val, hP⟩ : Fin 100000) q := by
    funext a; apply Fin.ext
    match a with
    | ⟨0, _⟩ => show win0_5.index t (0 : Fin 2) * 5000 + 1 * p.val = win0_5.index t (0 : Fin 2) * 5000 + p.val; omega
    | ⟨1, _⟩ => show win0_5.index t (1 : Fin 2) * 128 + 1 * q.val = q.val; omega
  show out0_5 (iblk0 V c 0 t) (iblk0 V c 1 t) (iblk0 V c 2 t) (iblk0 V c 3 t) (iblk0 V c 4 t) (ix2 p q)
    = (denseStack true (V c main_arg0) (V c main_v78) (V c main_v80) (V c main_v82) (V c main_v84)) (((cfg0.win 5).blk t).view.emb (ix2 p q))
  rw [hi, denseStack_relu]
  refine (out_at (iblk0 V c 0 t) (iblk0 V c 1 t) (iblk0 V c 2 t) (iblk0 V c 3 t) (iblk0 V c 4 t) p q).trans ?_
  have h0 : ∀ k : Fin 128, iblk0 V c 0 t (ix2 p k) = V c main_arg0 (ix2 (⟨_, hP⟩ : Fin 100000) k) := fun k => by
    show V c main_arg0 (((cfg0.win 0).blk t).view.emb (ix2 p k)) = _
    refine congrArg _ (funext fun a => Fin.ext ?_)
    match a with
    | ⟨0, _⟩ => show win0_0.index t (0 : Fin 2) * 5000 + 1 * p.val = win0_5.index t (0 : Fin 2) * 5000 + p.val; omega
    | ⟨1, _⟩ => show win0_0.index t (1 : Fin 2) * 128 + 1 * k.val = k.val; omega
  have h1 : ∀ (r : Fin 3) (k : Fin 128), iblk0 V c 1 t (ix3 r p k) = V c main_v78 (ix3 r (⟨_, hP⟩ : Fin 100000) k) := fun r k => by
    show V c main_v78 (((cfg0.win 1).blk t).view.emb (ix3 r p k)) = _
    refine congrArg _ (funext fun a => Fin.ext ?_)
    match a with
    | ⟨0, _⟩ => show win0_1.index t (0 : Fin 3) * 3 + 1 * r.val = r.val; omega
    | ⟨1, _⟩ => show win0_1.index t (1 : Fin 3) * 5000 + 1 * p.val = win0_5.index t (0 : Fin 2) * 5000 + p.val; omega
    | ⟨2, _⟩ => show win0_1.index t (2 : Fin 3) * 128 + 1 * k.val = k.val; omega
  have h2 : ∀ (r : Fin 3) (k : Fin 128), iblk0 V c 2 t (ix3 r k q) = V c main_v80 (ix3 r k q) := fun r k => by
    show V c main_v80 (((cfg0.win 2).blk t).view.emb (ix3 r k q)) = _
    refine congrArg _ (funext fun a => Fin.ext ?_)
    match a with
    | ⟨0, _⟩ => show win0_2.index t (0 : Fin 3) * 3 + 1 * r.val = r.val; omega
    | ⟨1, _⟩ => show win0_2.index t (1 : Fin 3) * 128 + 1 * k.val = k.val; omega
    | ⟨2, _⟩ => show win0_2.index t (2 : Fin 3) * 128 + 1 * q.val = q.val; omega
  have h3 : ∀ (r : Fin 3) (k : Fin 128), iblk0 V c 3 t (ix3 r k q) = V c main_v82 (ix3 r k q) := fun r k => by
    show V c main_v82 (((cfg0.win 3).blk t).view.emb (ix3 r k q)) = _
    refine congrArg _ (funext fun a => Fin.ext ?_)
    match a with
    | ⟨0, _⟩ => show win0_3.index t (0 : Fin 3) * 3 + 1 * r.val = r.val; omega
    | ⟨1, _⟩ => show win0_3.index t (1 : Fin 3) * 128 + 1 * k.val = k.val; omega
    | ⟨2, _⟩ => show win0_3.index t (2 : Fin 3) * 128 + 1 * q.val = q.val; omega
  have h4 : ∀ r : Fin 3, iblk0 V c 4 t (ix2 r q) = V c main_v84 (ix2 r q) := fun r => by
    show V c main_v84 (((cfg0.win 4).blk t).view.emb (ix2 r q)) = _
    refine congrArg _ (funext fun a => Fin.ext ?_)
    match a with
    | ⟨0, _⟩ => show win0_4.index t (0 : Fin 2) * 3 + 1 * r.val = r.val; omega
    | ⟨1, _⟩ => show win0_4.index t (1 : Fin 2) * 128 + 1 * q.val = q.val; omega
  simp only [contrib, stackRel, h0, h1, h2, h3, h4]

/-- An index of the output array is in point `t`'s block iff each coordinate is in the block's range on its axis. -/
theorem mem_blk (t : Fin cfg0.N) (i : S100000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v85).slice (win0_5.rect t)).set ↔ _
  rw [View.set_slice_whole, Rect.mem_set_unit]
  exact Iff.rfl

/-- The twenty blocks cover the output array: row `r` is in the block of point `r / 5000`. -/
theorem cover (i : S100000x128.Idx) : ∃ t : Fin cfg0.N, (cfg0.win 5).flush t = true ∧ i ∈ ((cfg0.win 5).blk t).view.set := by
  have hi0 : (i 0).val < 100000 := (i 0).isLt
  have hi1 : (i 1).val < 128 := (i 1).isLt
  obtain ⟨t, ht⟩ := idx_onto ⟨(i 0).val / 5000, by omega⟩
  have q0 : win0_5.index t (0 : Fin 2) = (i 0).val / 5000 := congrFun ht 0
  have q1 : win0_5.index t (1 : Fin 2) = 0 := congrFun ht 1
  refine ⟨t, flush0_5 t, ?_⟩
  rw [mem_blk]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 128 ≤ (i 1).val ∧ (i 1).val < win0_5.index t (1 : Fin 2) * 128 + 128; omega

/-- THE OUTPUT ARRAY AFTER THE REGION is `denseStack` of the operand arrays as the region finds them. -/
theorem final (c : Dev nD) : (dat0 V c).arrAt 5 cfg0.N = (denseStack true (V c main_arg0) (V c main_v78) (V c main_v80) (V c main_v82) (V c main_v84)) :=
  (dat0 V c).arrAt_eq_of_cover 5 _ (fun t _ => flushed_eq V c t) (cover)

end Cert.KernelIdeal.Arr0

end
-- ==== Proof.KernelIdealBlock1.lean ====
/-
  The output block of layer 1's kernel at an entry.

  From the five input blocks — `x0`: 5000 rows of the features; `x1`: the same rows of the three stacked neighbour
  means; `x2`, `x3`: the three neighbour and the three root weight matrices; `x4`: the three bias rows — entry `(p, q)` of
  the stored block is zero with the three relations' contributions added in order (`Cert.Spec.rel`): relation `r` adds
  `∑ k, x1 (r, p, k) · x2 (r, k, q)`, then `∑ k, x0 (p, k) · x3 (r, k, q)`, then `x4 (r, q)`.
  A matrix product into a zero accumulator is the plain sum over the contracted coordinate; a slab `[1, a, b]` of a
  `[3, a, b]` block viewed as `[a, b]` reads the block at that relation; a bias row spread down the rows reads its entry.
-/
import proofs.«133929_j46901042872931_1_alg».proof.Proof.KernelIdealStage1
import proofs.«133929_j46901042872931_1_alg».proof.Proof.Spec
import proofs.«133929_j46901042872931_1_alg».proof.Proof.LibMatProduct
import Idealize.ShloMosaic.Lib.ValueIdx
import Idealize.ShloMosaic.Lib.ValueLayout
import Idealize.ShloMosaic.Lib.Pipeline.Value

noncomputable section

namespace Cert.KernelIdeal.Block1

open Cert.KernelIdeal Cert.KernelIdeal.Gen Cert.KernelIdeal.Stage1
open Idealize.ShloMosaic Idealize.ShloMosaic.ValueIdx Cert.Spec

theorem hz2 : (![0, 0] : Fin 2 → Nat) = fun _ => 0 := funext fun a => by fin_cases a <;> rfl

/-- The zero word spread over the block reads `z`. -/
theorem zero_at (j : S5000x128.Idx) :
    (broadcast S5000x128 (Scalar.ofBits (F := Ideal) .f32 0x00000000#32) : FVec Ideal S5000x128 .f32) j = z := rfl

/-- Relation 0's slab of the stacked block, viewed `[5000, 128]`, at `(p, k)`. -/
theorem slab0_at (x1 : Vec Ideal S3x5000x128 .f32) (h : S1x5000x128.ShapeCasts S5000x128) (p : Fin 5000) (k : Fin 128) :
    shapeCast S5000x128 (View.ld x1 rB0 : Vec Ideal S1x5000x128 .f32) h (ix2 p k) = x1 (ix3 (0 : Fin 3) p k) := by
  refine (shapeCast_1ab_ab_apply (View.ld x1 rB0) h p k).trans ?_
  show x1 (rB0.idx _) = _
  refine congrArg x1 (funext fun a => Fin.ext ?_)
  match a with
  | ⟨0, _⟩ => rfl
  | ⟨1, _⟩ => show 0 + 1 * p.val = p.val; omega
  | ⟨2, _⟩ => show 0 + 1 * k.val = k.val; omega

/-- Relation 0's weight matrix, viewed `[128, 128]`, at `(k, q)`. -/
theorem mat0_at (x2 : Vec Ideal S3x128x128 .f32) (h : S1x128x128.ShapeCasts S128x128) (k q : Fin 128) :
    shapeCast S128x128 (View.ld x2 rC0 : Vec Ideal S1x128x128 .f32) h (ix2 k q) = x2 (ix3 (0 : Fin 3) k q) := by
  refine (shapeCast_1ab_ab_apply (View.ld x2 rC0) h k q).trans ?_
  show x2 (rC0.idx _) = _
  refine congrArg x2 (funext fun a => Fin.ext ?_)
  match a with
  | ⟨0, _⟩ => rfl
  | ⟨1, _⟩ => show 0 + 1 * k.val = k.val; omega
  | ⟨2, _⟩ => show 0 + 1 * q.val = q.val; omega

/-- Relation 0's bias row, recast `[1, 128] → [128] → [1, 128]` and spread down the rows, at `(p, q)`. -/
theorem bias0_at (x4 : Vec Ideal S3x128 .f32) (h1 : S1x128.ShapeCasts S128) (h2 : S128.ShapeCasts S1x128) (hb : S1x128.Broadcasts S5000x128) (p : Fin 5000) (q : Fin 128) :
    broadcastTo S5000x128 (shapeCast S1x128 (shapeCast S128 (View.ld x4 rD0 : Vec Ideal S1x128 .f32) h1) h2) hb (ix2 p q) = x4 (ix2 (0 : Fin 3) q) := by
  rw [shapeCast_shapeCast]
  refine (broadcastTo_1b_ab_apply (View.ld x4 rD0) hb p q).trans ?_
  show x4 (rD0.idx _) = _
  refine congrArg x4 (funext fun a => Fin.ext ?_)
  match a with
  | ⟨0, _⟩ => rfl
  | ⟨1, _⟩ => show 0 + 1 * q.val = q.val; omega

/-- Relation 1's slab of the stacked block, viewed `[5000, 128]`, at `(p, k)`. -/
theorem slab1_at (x1 : Vec Ideal S3x5000x128 .f32) (h : S1x5000x128.ShapeCasts S5000x128) (p : Fin 5000) (k : Fin 128) :
    shapeCast S5000x128 (View.ld x1 rB1 : Vec Ideal S1x5000x128 .f32) h (ix2 p k) = x1 (ix3 (1 : Fin 3) p k) := by
  refine (shapeCast_1ab_ab_apply (View.ld x1 rB1) h p k).trans ?_
  show x1 (rB1.idx _) = _
  refine congrArg x1 (funext fun a => Fin.ext ?_)
  match a with
  | ⟨0, _⟩ => rfl
  | ⟨1, _⟩ => show 0 + 1 * p.val = p.val; omega
  | ⟨2, _⟩ => show 0 + 1 * k.val = k.val; omega

/-- Relation 1's weight matrix, viewed `[128, 128]`, at `(k, q)`. -/
theorem mat1_at (x2 : Vec Ideal S3x128x128 .f32) (h : S1x128x128.ShapeCasts S128x128) (k q : Fin 128) :
    shapeCast S128x128 (View.ld x2 rC1 : Vec Ideal S1x128x128 .f32) h (ix2 k q) = x2 (ix3 (1 : Fin 3) k q) := by
  refine (shapeCast_1ab_ab_apply (View.ld x2 rC1) h k q).trans ?_
  show x2 (rC1.idx _) = _
  refine congrArg x2 (funext fun a => Fin.ext ?_)
  match a with
  | ⟨0, _⟩ => rfl
  | ⟨1, _⟩ => show 0 + 1 * k.val = k.val; omega
  | ⟨2, _⟩ => show 0 + 1 * q.val = q.val; omega

/-- Relation 1's bias row, recast `[1, 128] → [128] → [1, 128]` and spread down the rows, at `(p, q)`. -/
theorem bias1_at (x4 : Vec Ideal S3x128 .f32) (h1 : S1x128.ShapeCasts S128) (h2 : S128.ShapeCasts S1x128) (hb : S1x128.Broadcasts S5000x128) (p : Fin 5000) (q : Fin 128) :
    broadcastTo S5000x128 (shapeCast S1x128 (shapeCast S128 (View.ld x4 rD1 : Vec Ideal S1x128 .f32) h1) h2) hb (ix2 p q) = x4 (ix2 (1 : Fin 3) q) := by
  rw [shapeCast_shapeCast]
  refine (broadcastTo_1b_ab_apply (View.ld x4 rD1) hb p q).trans ?_
  show x4 (rD1.idx _) = _
  refine congrArg x4 (funext fun a => Fin.ext ?_)
  match a with
  | ⟨0, _⟩ => rfl
  | ⟨1, _⟩ => show 0 + 1 * q.val = q.val; omega

/-- Relation 2's slab of the stacked block, viewed `[5000, 128]`, at `(p, k)`. -/
theorem slab2_at (x1 : Vec Ideal S3x5000x128 .f32) (h : S1x5000x128.ShapeCasts S5000x128) (p : Fin 5000) (k : Fin 128) :
    shapeCast S5000x128 (View.ld x1 rB2 : Vec Ideal S1x5000x128 .f32) h (ix2 p k) = x1 (ix3 (2 : Fin 3) p k) := by
  refine (shapeCast_1ab_ab_apply (View.ld x1 rB2) h p k).trans ?_
  show x1 (rB2.idx _) = _
  refine congrArg x1 (funext fun a => Fin.ext ?_)
  match a with
  | ⟨0, _⟩ => rfl
  | ⟨1, _⟩ => show 0 + 1 * p.val = p.val; omega
  | ⟨2, _⟩ => show 0 + 1 * k.val = k.val; omega

/-- Relation 2's weight matrix, viewed `[128, 128]`, at `(k, q)`. -/
theorem mat2_at (x2 : Vec Ideal S3x128x128 .f32) (h : S1x128x128.ShapeCasts S128x128) (k q : Fin 128) :
    shapeCast S128x128 (View.ld x2 rC2 : Vec Ideal S1x128x128 .f32) h (ix2 k q) = x2 (ix3 (2 : Fin 3) k q) := by
  refine (shapeCast_1ab_ab_apply (View.ld x2 rC2) h k q).trans ?_
  show x2 (rC2.idx _) = _
  refine congrArg x2 (funext fun a => Fin.ext ?_)
  match a with
  | ⟨0, _⟩ => rfl
  | ⟨1, _⟩ => show 0 + 1 * k.val = k.val; omega
  | ⟨2, _⟩ => show 0 + 1 * q.val = q.val; omega

/-- Relation 2's bias row, recast `[1, 128] → [128] → [1, 128]` and spread down the rows, at `(p, q)`. -/
theorem bias2_at (x4 : Vec Ideal S3x128 .f32) (h1 : S1x128.ShapeCasts S128) (h2 : S128.ShapeCasts S1x128) (hb : S1x128.Broadcasts S5000x128) (p : Fin 5000) (q : Fin 128) :
    broadcastTo S5000x128 (shapeCast S1x128 (shapeCast S128 (View.ld x4 rD2 : Vec Ideal S1x128 .f32) h1) h2) hb (ix2 p q) = x4 (ix2 (2 : Fin 3) q) := by
  rw [shapeCast_shapeCast]
  refine (broadcastTo_1b_ab_apply (View.ld x4 rD2) hb p q).trans ?_
  show x4 (rD2.idx _) = _
  refine congrArg x4 (funext fun a => Fin.ext ?_)
  match a with
  | ⟨0, _⟩ => rfl
  | ⟨1, _⟩ => show 0 + 1 * q.val = q.val; omega

/-- A product of a `[5000, 128]` block by a `[128, 128]` matrix into a zero accumulator, at `(p, q)`. -/
theorem prod_at (X : FVec Ideal S5000x128 .f32) (W : FVec Ideal S128x128 .f32) (p : Fin 5000) (q : Fin 128) :
    matmul dot_S5000x128_S128x128_S5000x128_1_0_0_1_n_n none X W (constant S5000x128 .f32 0x00000000#32) (ix2 p q)
      = ∑ k : Fin 128, X (ix2 p k) * W (ix2 k q) :=
  Cert.LibMatProduct.matmul_zero_apply dot_S5000x128_S128x128_S5000x128_1_0_0_1_n_n none rfl rfl rfl rfl rfl rfl X W p q

/-- The rows, columns and bias entries one relation's contribution reads. -/
abbrev contrib (acc : EReal) (x0 : Vec Ideal S5000x128 .f32) (x1 : Vec Ideal S3x5000x128 .f32) (x2 x3 : Vec Ideal S3x128x128 .f32)
    (x4 : Vec Ideal S3x128 .f32) (r : Fin 3) (p : Fin 5000) (q : Fin 128) : EReal :=
  rel acc (fun k => x1 (ix3 r p k)) (fun k => x2 (ix3 r k q)) (fun k => x0 (ix2 p k)) (fun k => x3 (ix3 r k q)) (x4 (ix2 r q))

/-- ENTRY `(p, q)` OF THE STORED BLOCK. -/
theorem out_at (x0 : Vec Ideal S5000x128 .f32) (x1 : Vec Ideal S3x5000x128 .f32) (x2 x3 : Vec Ideal S3x128x128 .f32)
    (x4 : Vec Ideal S3x128 .f32) (p : Fin 5000) (q : Fin 128) :
    out1_5 x0 x1 x2 x3 x4 (ix2 p q)
      = contrib (contrib (contrib z x0 x1 x2 x3 x4 0 p q) x0 x1 x2 x3 x4 1 p q) x0 x1 x2 x3 x4 2 p q := by
  unfold out1_5
  rw [View.canon_unit_zero hz2]
  simp only [k1_pay1, k1_pay2, k1_pay3, k1_pay4, View.ld_unit_zero (S := S5000x128) hz2]
  simp only [maximumf_apply, addf_apply]
  simp only [prod_at, shapeCast_self]
  simp only [slab0_at x1 shapeCasts_S1x5000x128_S5000x128 p, slab1_at x1 shapeCasts_S1x5000x128_S5000x128 p, slab2_at x1 shapeCasts_S1x5000x128_S5000x128 p,
    fun k => mat0_at x2 shapeCasts_S1x128x128_S128x128 k q, fun k => mat1_at x2 shapeCasts_S1x128x128_S128x128 k q, fun k => mat2_at x2 shapeCasts_S1x128x128_S128x128 k q,
    fun k => mat0_at x3 shapeCasts_S1x128x128_S128x128 k q, fun k => mat1_at x3 shapeCasts_S1x128x128_S128x128 k q, fun k => mat2_at x3 shapeCasts_S1x128x128_S128x128 k q,
    bias0_at x4 shapeCasts_S1x128_S128 shapeCasts_S128_S1x128 broadcasts_S1x128_S5000x128 p q,
    bias1_at x4 shapeCasts_S1x128_S128 shapeCasts_S128_S1x128 broadcasts_S1x128_S5000x128 p q,
    bias2_at x4 shapeCasts_S1x128_S128 shapeCasts_S128_S1x128 broadcasts_S1x128_S5000x128 p q]
  rfl

end Cert.KernelIdeal.Block1

end
-- ==== Proof.KernelIdealArr1.lean ====
/-
  Layer 1's kernel region: from the blocks to the whole output array.

  Grid point `t` stores rows `5000·t … 5000·t + 4999` of the output; its input blocks are the same rows of the features and
  of the three stacked neighbour means, and the whole weight and bias arrays. So what point `t` writes back is block `t` of
  ONE array function of the region's operand arrays — `Cert.Spec.denseStack` —, the twenty blocks cover the output, and
  after the region the output array is that function.
-/
import proofs.«133929_j46901042872931_1_alg».proof.Proof.KernelIdealBlock1
import proofs.«133929_j46901042872931_1_alg».proof.Proof.SpecStack
import Idealize.ShloMosaic.Lib.Pipeline.Value

noncomputable section

namespace Cert.KernelIdeal.Arr1

open Cert.KernelIdeal Cert.KernelIdeal.Gen Cert.KernelIdeal.Stage1 Cert.KernelIdeal.Block1
open Idealize.ShloMosaic Idealize.ShloMosaic.TcCoe Idealize.ShloMosaic.ValueIdx Idealize.SL.Sem Cert.Spec
open Idealize.ShloMosaic.Pipeline (Dat)

variable (V : (c : Dev nD) → (b : Ref sig .tc) → Buf (Elt Ideal) ((c : Thread nD τ).loc b))

/-- The printed index maps over the grid: the feature and output blocks and the stacked block's middle axis move with the
    point; every other block index is zero. -/
theorem idx_facts : ∀ t : Fin cfg1.N,
    win1_0.index t (0 : Fin 2) = win1_5.index t (0 : Fin 2) ∧ win1_0.index t (1 : Fin 2) = 0
    ∧ win1_1.index t (0 : Fin 3) = 0 ∧ win1_1.index t (1 : Fin 3) = win1_5.index t (0 : Fin 2) ∧ win1_1.index t (2 : Fin 3) = 0
    ∧ win1_2.index t (0 : Fin 3) = 0 ∧ win1_2.index t (1 : Fin 3) = 0 ∧ win1_2.index t (2 : Fin 3) = 0
    ∧ win1_3.index t (0 : Fin 3) = 0 ∧ win1_3.index t (1 : Fin 3) = 0 ∧ win1_3.index t (2 : Fin 3) = 0
    ∧ win1_4.index t (0 : Fin 2) = 0 ∧ win1_4.index t (1 : Fin 2) = 0
    ∧ win1_5.index t (1 : Fin 2) = 0 ∧ win1_5.index t (0 : Fin 2) ≤ 19 :=
  (by decide +kernel : ∀ t : Fin grid1.N, _)

/-- Every block of rows is some point's. -/
theorem idx_onto : ∀ q0 : Fin 20, ∃ t : Fin cfg1.N, win1_5.index t = ![q0.val, 0] :=
  (by decide +kernel : ∀ q0 : Fin 20, ∃ t : Fin grid1.N, win1_5.index t = ![q0.val, 0])

/-- WHAT POINT `t` WRITES BACK is block `t` of `denseStack` of the operand arrays as the region finds them. -/
theorem flushed_eq (c : Dev nD) (t : Fin cfg1.N) :
    (dat1 V c).flushed 5 t = ((cfg1.win 5).blk t).view.read (Elt Ideal) (denseStack false (V c main_v85) (V c main_v164) (V c main_v166) (V c main_v168) (V c main_v170)) := by
  show (cfg1.win 5).cut (grid1.coords t) ((dat1 V c).after 5 t) = _
  rw [after1_5]
  obtain ⟨e00, e01, e10, e11, e12, e20, e21, e22, e30, e31, e32, e40, e41, e51, e5b⟩ := idx_facts t
  funext j
  obtain ⟨p, q, rfl⟩ : ∃ (p : Fin 5000) (q : Fin 128), j = ix2 p q := ⟨j 0, j 1, eq_ix2 j⟩
  have hP : win1_5.index t (0 : Fin 2) * 5000 + p.val < 100000 := by have := p.isLt; omega
  have hi : ((cfg1.win 5).blk t).view.emb (ix2 p q) = ix2 (⟨win1_5.index t (0 : Fin 2) * 5000 + p.val, hP⟩ : Fin 100000) q := by
    funext a; apply Fin.ext
    match a with
    | ⟨0, _⟩ => show win1_5.index t (0 : Fin 2) * 5000 + 1 * p.val = win1_5.index t (0 : Fin 2) * 5000 + p.val; omega
    | ⟨1, _⟩ => show win1_5.index t (1 : Fin 2) * 128 + 1 * q.val = q.val; omega
  show out1_5 (iblk1 V c 0 t) (iblk1 V c 1 t) (iblk1 V c 2 t) (iblk1 V c 3 t) (iblk1 V c 4 t) (ix2 p q)
    = (denseStack false (V c main_v85) (V c main_v164) (V c main_v166) (V c main_v168) (V c main_v170)) (((cfg1.win 5).blk t).view.emb (ix2 p q))
  rw [hi, denseStack_plain]
  refine (out_at (iblk1 V c 0 t) (iblk1 V c 1 t) (iblk1 V c 2 t) (iblk1 V c 3 t) (iblk1 V c 4 t) p q).trans ?_
  have h0 : ∀ k : Fin 128, iblk1 V c 0 t (ix2 p k) = V c main_v85 (ix2 (⟨_, hP⟩ : Fin 100000) k) := fun k => by
    show V c main_v85 (((cfg1.win 0).blk t).view.emb (ix2 p k)) = _
    refine congrArg _ (funext fun a => Fin.ext ?_)
    match a with
    | ⟨0, _⟩ => show win1_0.index t (0 : Fin 2) * 5000 + 1 * p.val = win1_5.index t (0 : Fin 2) * 5000 + p.val; omega
    | ⟨1, _⟩ => show win1_0.index t (1 : Fin 2) * 128 + 1 * k.val = k.val; omega
  have h1 : ∀ (r : Fin 3) (k : Fin 128), iblk1 V c 1 t (ix3 r p k) = V c main_v164 (ix3 r (⟨_, hP⟩ : Fin 100000) k) := fun r k => by
    show V c main_v164 (((cfg1.win 1).blk t).view.emb (ix3 r p k)) = _
    refine congrArg _ (funext fun a => Fin.ext ?_)
    match a with
    | ⟨0, _⟩ => show win1_1.index t (0 : Fin 3) * 3 + 1 * r.val = r.val; omega
    | ⟨1, _⟩ => show win1_1.index t (1 : Fin 3) * 5000 + 1 * p.val = win1_5.index t (0 : Fin 2) * 5000 + p.val; omega
    | ⟨2, _⟩ => show win1_1.index t (2 : Fin 3) * 128 + 1 * k.val = k.val; omega
  have h2 : ∀ (r : Fin 3) (k : Fin 128), iblk1 V c 2 t (ix3 r k q) = V c main_v166 (ix3 r k q) := fun r k => by
    show V c main_v166 (((cfg1.win 2).blk t).view.emb (ix3 r k q)) = _
    refine congrArg _ (funext fun a => Fin.ext ?_)
    match a with
    | ⟨0, _⟩ => show win1_2.index t (0 : Fin 3) * 3 + 1 * r.val = r.val; omega
    | ⟨1, _⟩ => show win1_2.index t (1 : Fin 3) * 128 + 1 * k.val = k.val; omega
    | ⟨2, _⟩ => show win1_2.index t (2 : Fin 3) * 128 + 1 * q.val = q.val; omega
  have h3 : ∀ (r : Fin 3) (k : Fin 128), iblk1 V c 3 t (ix3 r k q) = V c main_v168 (ix3 r k q) := fun r k => by
    show V c main_v168 (((cfg1.win 3).blk t).view.emb (ix3 r k q)) = _
    refine congrArg _ (funext fun a => Fin.ext ?_)
    match a with
    | ⟨0, _⟩ => show win1_3.index t (0 : Fin 3) * 3 + 1 * r.val = r.val; omega
    | ⟨1, _⟩ => show win1_3.index t (1 : Fin 3) * 128 + 1 * k.val = k.val; omega
    | ⟨2, _⟩ => show win1_3.index t (2 : Fin 3) * 128 + 1 * q.val = q.val; omega
  have h4 : ∀ r : Fin 3, iblk1 V c 4 t (ix2 r q) = V c main_v170 (ix2 r q) := fun r => by
    show V c main_v170 (((cfg1.win 4).blk t).view.emb (ix2 r q)) = _
    refine congrArg _ (funext fun a => Fin.ext ?_)
    match a with
    | ⟨0, _⟩ => show win1_4.index t (0 : Fin 2) * 3 + 1 * r.val = r.val; omega
    | ⟨1, _⟩ => show win1_4.index t (1 : Fin 2) * 128 + 1 * q.val = q.val; omega
  simp only [contrib, stackRel, h0, h1, h2, h3, h4]

/-- An index of the output array is in point `t`'s block iff each coordinate is in the block's range on its axis. -/
theorem mem_blk (t : Fin cfg1.N) (i : S100000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v171).slice (win1_5.rect t)).set ↔ _
  rw [View.set_slice_whole, Rect.mem_set_unit]
  exact Iff.rfl

/-- The twenty blocks cover the output array: row `r` is in the block of point `r / 5000`. -/
theorem cover (i : S100000x128.Idx) : ∃ t : Fin cfg1.N, (cfg1.win 5).flush t = true ∧ i ∈ ((cfg1.win 5).blk t).view.set := by
  have hi0 : (i 0).val < 100000 := (i 0).isLt
  have hi1 : (i 1).val < 128 := (i 1).isLt
  obtain ⟨t, ht⟩ := idx_onto ⟨(i 0).val / 5000, by omega⟩
  have q0 : win1_5.index t (0 : Fin 2) = (i 0).val / 5000 := congrFun ht 0
  have q1 : win1_5.index t (1 : Fin 2) = 0 := congrFun ht 1
  refine ⟨t, flush1_5 t, ?_⟩
  rw [mem_blk]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 128 ≤ (i 1).val ∧ (i 1).val < win1_5.index t (1 : Fin 2) * 128 + 128; omega

/-- THE OUTPUT ARRAY AFTER THE REGION is `denseStack` of the operand arrays as the region finds them. -/
theorem final (c : Dev nD) : (dat1 V c).arrAt 5 cfg1.N = (denseStack false (V c main_v85) (V c main_v164) (V c main_v166) (V c main_v168) (V c main_v170)) :=
  (dat1 V c).arrAt_eq_of_cover 5 _ (fun t _ => flushed_eq V c t) (cover)

end Cert.KernelIdeal.Arr1

end
-- ==== Proof.LibNaryThree.lean ====
/-
  A host operation over a literal family of three operands, read at its result.

  A three-piece `stablehlo.concatenate` prints as `StableHlo.nary ![x, a, b] y f`. Its result at its own reference is
  `f` of the three operands' contents, each AT ITS OWN REFERENCE (`Fin.cons` over the literal positions 0, 1, 2) rather
  than under a binder over the family's index — so that a pass which rewrites each operation's result goes on into the
  operands. Stated with the result reference un-indexed, for use in a `simp only` pass beside the library's
  `nullary_result'`, `unary_result'`, … (Lib/StableHlo/Run.lean has this form for four operands).
-/
import Idealize.ShloMosaic.Lib.StableHlo.Run

noncomputable section

namespace Cert.LibNaryThree

open Idealize.ShloMosaic Idealize.ShloMosaic.StableHlo Idealize.SL.Sem

/-- The result of a three-operand host operation, with each operand's contents at its own reference. -/
theorem nary3_result' {τ : Topo} {sig : RefSig} {Val : EltTy → Type} {x a b y : Ref sig .tc}
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) := by
  rw [nary_result]; congr 1; funext k; fin_cases k <;> rfl

end Cert.LibNaryThree

end
-- ==== Proof.KernelIdealHost.lean ====
/-
  The host operations around the two kernel regions, read at an index.

  Before each region the host stacks the three relations' neighbour means into one `[3, 100000, 128]` array (each mean
  given a leading unit axis, the three concatenated along it) and cuts this layer's slab out of each weight and bias
  argument (a slice of the leading axis, then the unit axis dropped). So slab `r` of the stacked array is relation `r`'s
  mean, and the per-layer weight and bias arrays are layer `l`'s slabs of the arguments. After the second region the
  host multiplies by the classifier matrix and adds the classifier bias.
  Everything is stated over an ARBITRARY valuation `W` of the buffers before the stretch of operations.
-/
import proofs.«133929_j46901042872931_1_alg».proof.Proof.Gen.KernelIdeal.Launch
import proofs.«133929_j46901042872931_1_alg».proof.Proof.LibNaryThree
import Idealize.ShloMosaic.Lib.StableHlo.Run
import Idealize.ShloMosaic.Lib.ValueIdx
import Idealize.ShloMosaic.Lib.ValueLayout
import Idealize.ShloMosaic.Lib.Pipeline.Value

noncomputable section

namespace Cert.KernelIdeal.HostRead

open Cert.KernelIdeal Cert.KernelIdeal.Gen
open Idealize.ShloMosaic Idealize.ShloMosaic.TcCoe Idealize.ShloMosaic.ValueIdx Idealize.SL.Sem

/-- The third of three. -/
theorem pick2 {α : Type} (a b c : α) : (![a, b, c] : Fin 3 → α) 2 = c := rfl

/-- A `[100000, 128]` array given a leading unit axis, at `(0, p, k)`. -/
theorem spread_at (u : FVec Ideal S100000x128 .f32) (hb) (p : Fin 100000) (k : Fin 128) :
    broadcastInDim S1x100000x128 ![1, 2] hb u (ix3 (0 : Fin 1) p k) = u (ix2 p k) :=
  broadcastInDim_apply _ hb u _ (ix2 p k) fun a => by
    match a with
    | ⟨0, _⟩ => rfl
    | ⟨1, _⟩ => rfl

/-- Three `[1, 100000, 128]` pieces concatenated along the leading axis, at `(0, p, k)`: piece 0. -/
theorem concat3_0 (u0 u1 u2 : FVec Ideal S1x100000x128 .f32) (h) (p : Fin 100000) (k : Fin 128) :
    concatenate S3x100000x128 0 [⟨S1x100000x128, u0⟩, ⟨S1x100000x128, u1⟩, ⟨S1x100000x128, u2⟩] h (ix3 (0 : Fin 3) p k)
      = u0 (ix3 (0 : Fin 1) p k) :=
  concatenate_apply_piece (0 : Fin 3) _ h (ix3 (0 : Fin 3) p k) 0 (by show (0 : Nat) < 3; omega) S1x100000x128 u0 rfl rfl 0 (by rfl)
    (ix3 (0 : Fin 1) p k) (fun b hb => by
      match b with
      | ⟨0, _⟩ => exact absurd rfl hb
      | ⟨1, _⟩ => rfl
      | ⟨2, _⟩ => rfl) (by rfl)

/-- Three `[1, 100000, 128]` pieces concatenated along the leading axis, at `(1, p, k)`: piece 1. -/
theorem concat3_1 (u0 u1 u2 : FVec Ideal S1x100000x128 .f32) (h) (p : Fin 100000) (k : Fin 128) :
    concatenate S3x100000x128 0 [⟨S1x100000x128, u0⟩, ⟨S1x100000x128, u1⟩, ⟨S1x100000x128, u2⟩] h (ix3 (1 : Fin 3) p k)
      = u1 (ix3 (0 : Fin 1) p k) :=
  concatenate_apply_piece (0 : Fin 3) _ h (ix3 (1 : Fin 3) p k) 1 (by show (1 : Nat) < 3; omega) S1x100000x128 u1 rfl rfl 1 (by rfl)
    (ix3 (0 : Fin 1) p k) (fun b hb => by
      match b with
      | ⟨0, _⟩ => exact absurd rfl hb
      | ⟨1, _⟩ => rfl
      | ⟨2, _⟩ => rfl) (by rfl)

/-- Three `[1, 100000, 128]` pieces concatenated along the leading axis, at `(2, p, k)`: piece 2. -/
theorem concat3_2 (u0 u1 u2 : FVec Ideal S1x100000x128 .f32) (h) (p : Fin 100000) (k : Fin 128) :
    concatenate S3x100000x128 0 [⟨S1x100000x128, u0⟩, ⟨S1x100000x128, u1⟩, ⟨S1x100000x128, u2⟩] h (ix3 (2 : Fin 3) p k)
      = u2 (ix3 (0 : Fin 1) p k) :=
  concatenate_apply_piece (0 : Fin 3) _ h (ix3 (2 : Fin 3) p k) 2 (by show (2 : Nat) < 3; omega) S1x100000x128 u2 rfl rfl 2 (by rfl)
    (ix3 (0 : Fin 1) p k) (fun b hb => by
      match b with
      | ⟨0, _⟩ => exact absurd rfl hb
      | ⟨1, _⟩ => rfl
      | ⟨2, _⟩ => rfl) (by rfl)

/-- Layer 0's slab of a weight argument, its unit axis dropped, at `(r, k, q)`. -/
theorem wslab0_at (X : FVec Ideal S2x3x128x128 .f32) (hs) (hc) (r : Fin 3) (k q : Fin 128) :
    shapeCast S3x128x128 (extractStridedSlice S1x3x128x128 ![0, 0, 0, 0] X hs) hc (ix3 r k q) = X (ix4 (0 : Fin 2) r k q) := by
  refine (shapeCast_1abc_abc_apply (extractStridedSlice S1x3x128x128 ![0, 0, 0, 0] X hs) hc r k q).trans ?_
  refine extractStridedSlice_apply _ X hs _ (ix4 (0 : Fin 2) r k q) fun a => ?_
  match a with
  | ⟨0, _⟩ => rfl
  | ⟨1, _⟩ => show r.val = 0 + r.val; omega
  | ⟨2, _⟩ => show k.val = 0 + k.val; omega
  | ⟨3, _⟩ => show q.val = 0 + q.val; omega

/-- Layer 0's slab of the bias argument, its unit axis dropped, at `(r, q)`. -/
theorem bslab0_at (X : FVec Ideal S2x3x128 .f32) (hs) (hc) (r : Fin 3) (q : Fin 128) :
    shapeCast S3x128 (extractStridedSlice S1x3x128 ![0, 0, 0] X hs) hc (ix2 r q) = X (ix3 (0 : Fin 2) r q) := by
  refine (shapeCast_1ab_ab_apply (extractStridedSlice S1x3x128 ![0, 0, 0] X hs) hc r q).trans ?_
  refine extractStridedSlice_apply _ X hs _ (ix3 (0 : Fin 2) r q) fun a => ?_
  match a with
  | ⟨0, _⟩ => rfl
  | ⟨1, _⟩ => show r.val = 0 + r.val; omega
  | ⟨2, _⟩ => show q.val = 0 + q.val; omega

/-- Layer 1's slab of a weight argument, its unit axis dropped, at `(r, k, q)`. -/
theorem wslab1_at (X : FVec Ideal S2x3x128x128 .f32) (hs) (hc) (r : Fin 3) (k q : Fin 128) :
    shapeCast S3x128x128 (extractStridedSlice S1x3x128x128 ![1, 0, 0, 0] X hs) hc (ix3 r k q) = X (ix4 (1 : Fin 2) r k q) := by
  refine (shapeCast_1abc_abc_apply (extractStridedSlice S1x3x128x128 ![1, 0, 0, 0] X hs) hc r k q).trans ?_
  refine extractStridedSlice_apply _ X hs _ (ix4 (1 : Fin 2) r k q) fun a => ?_
  match a with
  | ⟨0, _⟩ => rfl
  | ⟨1, _⟩ => show r.val = 0 + r.val; omega
  | ⟨2, _⟩ => show k.val = 0 + k.val; omega
  | ⟨3, _⟩ => show q.val = 0 + q.val; omega

/-- Layer 1's slab of the bias argument, its unit axis dropped, at `(r, q)`. -/
theorem bslab1_at (X : FVec Ideal S2x3x128 .f32) (hs) (hc) (r : Fin 3) (q : Fin 128) :
    shapeCast S3x128 (extractStridedSlice S1x3x128 ![1, 0, 0] X hs) hc (ix2 r q) = X (ix3 (1 : Fin 2) r q) := by
  refine (shapeCast_1ab_ab_apply (extractStridedSlice S1x3x128 ![1, 0, 0] X hs) hc r q).trans ?_
  refine extractStridedSlice_apply _ X hs _ (ix3 (1 : Fin 2) r q) fun a => ?_
  match a with
  | ⟨0, _⟩ => rfl
  | ⟨1, _⟩ => show r.val = 0 + r.val; omega
  | ⟨2, _⟩ => show q.val = 0 + q.val; omega

/-! ## Before the first region -/

set_option maxRecDepth 100000 in
set_option maxHeartbeats 8000000 in
/-- Slab 0 of the stacked neighbour means written by A is relation 0's mean. -/
theorem stackA_0 (W : Valuation τ sig (Elt Ideal)) (p : Fin 100000) (k : Fin 128) :
    (StableHlo.after hostOps0 W (Proc.devRef .tc main_v78) : FVec Ideal S3x100000x128 .f32) (ix3 (0 : Fin 3) p k)
      = (StableHlo.after hostOps0 W (Proc.devRef .tc main_v24) : FVec Ideal S100000x128 .f32) (ix2 p k) := by
  simp (disch := decide) only [StableHlo.after_cons, StableHlo.after_nil,
      StableHlo.nullary_result', StableHlo.unary_result', StableHlo.binary_result', StableHlo.ternary_result', StableHlo.quaternary_result', StableHlo.reshape_result', StableHlo.nary_result', Matrix.cons_val_zero, Matrix.cons_val_one, pick2, Matrix.head_cons, Matrix.tail_cons,
      StableHlo.nullary_result_ne', StableHlo.unary_result_ne', StableHlo.binary_result_ne', StableHlo.ternary_result_ne', StableHlo.quaternary_result_ne', StableHlo.reshape_result_ne',
      StableHlo.nary_result_ne']
  refine (concat3_0 _ _ _ _ p k).trans ?_
  exact spread_at _ _ p k

set_option maxRecDepth 100000 in
set_option maxHeartbeats 8000000 in
/-- Slab 1 of the stacked neighbour means written by A is relation 1's mean. -/
theorem stackA_1 (W : Valuation τ sig (Elt Ideal)) (p : Fin 100000) (k : Fin 128) :
    (StableHlo.after hostOps0 W (Proc.devRef .tc main_v78) : FVec Ideal S3x100000x128 .f32) (ix3 (1 : Fin 3) p k)
      = (StableHlo.after hostOps0 W (Proc.devRef .tc main_v49) : FVec Ideal S100000x128 .f32) (ix2 p k) := by
  simp (disch := decide) only [StableHlo.after_cons, StableHlo.after_nil,
      StableHlo.nullary_result', StableHlo.unary_result', StableHlo.binary_result', StableHlo.ternary_result', StableHlo.quaternary_result', StableHlo.reshape_result', StableHlo.nary_result', Matrix.cons_val_zero, Matrix.cons_val_one, pick2, Matrix.head_cons, Matrix.tail_cons,
      StableHlo.nullary_result_ne', StableHlo.unary_result_ne', StableHlo.binary_result_ne', StableHlo.ternary_result_ne', StableHlo.quaternary_result_ne', StableHlo.reshape_result_ne',
      StableHlo.nary_result_ne']
  refine (concat3_1 _ _ _ _ p k).trans ?_
  exact spread_at _ _ p k

set_option maxRecDepth 100000 in
set_option maxHeartbeats 8000000 in
/-- Slab 2 of the stacked neighbour means written by A is relation 2's mean. -/
theorem stackA_2 (W : Valuation τ sig (Elt Ideal)) (p : Fin 100000) (k : Fin 128) :
    (StableHlo.after hostOps0 W (Proc.devRef .tc main_v78) : FVec Ideal S3x100000x128 .f32) (ix3 (2 : Fin 3) p k)
      = (StableHlo.after hostOps0 W (Proc.devRef .tc main_v74) : FVec Ideal S100000x128 .f32) (ix2 p k) := by
  simp (disch := decide) only [StableHlo.after_cons, StableHlo.after_nil,
      StableHlo.nullary_result', StableHlo.unary_result', StableHlo.binary_result', StableHlo.ternary_result', StableHlo.quaternary_result', StableHlo.reshape_result', StableHlo.nary_result', Matrix.cons_val_zero, Matrix.cons_val_one, pick2, Matrix.head_cons, Matrix.tail_cons,
      StableHlo.nullary_result_ne', StableHlo.unary_result_ne', StableHlo.binary_result_ne', StableHlo.ternary_result_ne', StableHlo.quaternary_result_ne', StableHlo.reshape_result_ne',
      StableHlo.nary_result_ne']
  refine (concat3_2 _ _ _ _ p k).trans ?_
  exact spread_at _ _ p k

set_option maxHeartbeats 8000000 in
theorem wnA (W : Valuation τ sig (Elt Ideal)) (r : Fin 3) (k q : Fin 128) :
    (StableHlo.after hostOps0 W (Proc.devRef .tc main_v80) : FVec Ideal S3x128x128 .f32) (ix3 r k q)
      = (W (Proc.devRef .tc main_arg2) : FVec Ideal S2x3x128x128 .f32) (ix4 (0 : Fin 2) r k q) := by
  simp (disch := decide) only [StableHlo.after_cons, StableHlo.after_nil,
      StableHlo.nullary_result', StableHlo.unary_result', StableHlo.binary_result', StableHlo.ternary_result', StableHlo.quaternary_result', StableHlo.reshape_result', Cert.LibNaryThree.nary3_result',
      StableHlo.nullary_result_ne', StableHlo.unary_result_ne', StableHlo.binary_result_ne', StableHlo.ternary_result_ne', StableHlo.quaternary_result_ne', StableHlo.reshape_result_ne',
      StableHlo.nary_result_ne']
  exact wslab0_at _ _ _ r k q

set_option maxHeartbeats 8000000 in
theorem wrA (W : Valuation τ sig (Elt Ideal)) (r : Fin 3) (k q : Fin 128) :
    (StableHlo.after hostOps0 W (Proc.devRef .tc main_v82) : FVec Ideal S3x128x128 .f32) (ix3 r k q)
      = (W (Proc.devRef .tc main_arg3) : FVec Ideal S2x3x128x128 .f32) (ix4 (0 : Fin 2) r k q) := by
  simp (disch := decide) only [StableHlo.after_cons, StableHlo.after_nil,
      StableHlo.nullary_result', StableHlo.unary_result', StableHlo.binary_result', StableHlo.ternary_result', StableHlo.quaternary_result', StableHlo.reshape_result', Cert.LibNaryThree.nary3_result',
      StableHlo.nullary_result_ne', StableHlo.unary_result_ne', StableHlo.binary_result_ne', StableHlo.ternary_result_ne', StableHlo.quaternary_result_ne', StableHlo.reshape_result_ne',
      StableHlo.nary_result_ne']
  exact wslab0_at _ _ _ r k q

set_option maxHeartbeats 8000000 in
theorem biasA (W : Valuation τ sig (Elt Ideal)) (r : Fin 3) (q : Fin 128) :
    (StableHlo.after hostOps0 W (Proc.devRef .tc main_v84) : FVec Ideal S3x128 .f32) (ix2 r q)
      = (W (Proc.devRef .tc main_arg4) : FVec Ideal S2x3x128 .f32) (ix3 (0 : Fin 2) r q) := by
  simp (disch := decide) only [StableHlo.after_cons, StableHlo.after_nil,
      StableHlo.nullary_result', StableHlo.unary_result', StableHlo.binary_result', StableHlo.ternary_result', StableHlo.quaternary_result', StableHlo.reshape_result', Cert.LibNaryThree.nary3_result',
      StableHlo.nullary_result_ne', StableHlo.unary_result_ne', StableHlo.binary_result_ne', StableHlo.ternary_result_ne', StableHlo.quaternary_result_ne', StableHlo.reshape_result_ne',
      StableHlo.nary_result_ne']
  exact bslab0_at _ _ _ r q

/-! ## Between the regions -/

set_option maxRecDepth 100000 in
set_option maxHeartbeats 8000000 in
/-- Slab 0 of the stacked neighbour means written by B is relation 0's mean. -/
theorem stackB_0 (W : Valuation τ sig (Elt Ideal)) (p : Fin 100000) (k : Fin 128) :
    (StableHlo.after hostOps1 W (Proc.devRef .tc main_v164) : FVec Ideal S3x100000x128 .f32) (ix3 (0 : Fin 3) p k)
      = (StableHlo.after hostOps1 W (Proc.devRef .tc main_v110) : FVec Ideal S100000x128 .f32) (ix2 p k) := by
  simp (disch := decide) only [StableHlo.after_cons, StableHlo.after_nil,
      StableHlo.nullary_result', StableHlo.unary_result', StableHlo.binary_result', StableHlo.ternary_result', StableHlo.quaternary_result', StableHlo.reshape_result', StableHlo.nary_result', Matrix.cons_val_zero, Matrix.cons_val_one, pick2, Matrix.head_cons, Matrix.tail_cons,
      StableHlo.nullary_result_ne', StableHlo.unary_result_ne', StableHlo.binary_result_ne', StableHlo.ternary_result_ne', StableHlo.quaternary_result_ne', StableHlo.reshape_result_ne',
      StableHlo.nary_result_ne']
  refine (concat3_0 _ _ _ _ p k).trans ?_
  exact spread_at _ _ p k

set_option maxRecDepth 100000 in
set_option maxHeartbeats 8000000 in
/-- Slab 1 of the stacked neighbour means written by B is relation 1's mean. -/
theorem stackB_1 (W : Valuation τ sig (Elt Ideal)) (p : Fin 100000) (k : Fin 128) :
    (StableHlo.after hostOps1 W (Proc.devRef .tc main_v164) : FVec Ideal S3x100000x128 .f32) (ix3 (1 : Fin 3) p k)
      = (StableHlo.after hostOps1 W (Proc.devRef .tc main_v135) : FVec Ideal S100000x128 .f32) (ix2 p k) := by
  simp (disch := decide) only [StableHlo.after_cons, StableHlo.after_nil,
      StableHlo.nullary_result', StableHlo.unary_result', StableHlo.binary_result', StableHlo.ternary_result', StableHlo.quaternary_result', StableHlo.reshape_result', StableHlo.nary_result', Matrix.cons_val_zero, Matrix.cons_val_one, pick2, Matrix.head_cons, Matrix.tail_cons,
      StableHlo.nullary_result_ne', StableHlo.unary_result_ne', StableHlo.binary_result_ne', StableHlo.ternary_result_ne', StableHlo.quaternary_result_ne', StableHlo.reshape_result_ne',
      StableHlo.nary_result_ne']
  refine (concat3_1 _ _ _ _ p k).trans ?_
  exact spread_at _ _ p k

set_option maxRecDepth 100000 in
set_option maxHeartbeats 8000000 in
/-- Slab 2 of the stacked neighbour means written by B is relation 2's mean. -/
theorem stackB_2 (W : Valuation τ sig (Elt Ideal)) (p : Fin 100000) (k : Fin 128) :
    (StableHlo.after hostOps1 W (Proc.devRef .tc main_v164) : FVec Ideal S3x100000x128 .f32) (ix3 (2 : Fin 3) p k)
      = (StableHlo.after hostOps1 W (Proc.devRef .tc main_v160) : FVec Ideal S100000x128 .f32) (ix2 p k) := by
  simp (disch := decide) only [StableHlo.after_cons, StableHlo.after_nil,
      StableHlo.nullary_result', StableHlo.unary_result', StableHlo.binary_result', StableHlo.ternary_result', StableHlo.quaternary_result', StableHlo.reshape_result', StableHlo.nary_result', Matrix.cons_val_zero, Matrix.cons_val_one, pick2, Matrix.head_cons, Matrix.tail_cons,
      StableHlo.nullary_result_ne', StableHlo.unary_result_ne', StableHlo.binary_result_ne', StableHlo.ternary_result_ne', StableHlo.quaternary_result_ne', StableHlo.reshape_result_ne',
      StableHlo.nary_result_ne']
  refine (concat3_2 _ _ _ _ p k).trans ?_
  exact spread_at _ _ p k

set_option maxHeartbeats 8000000 in
theorem wnB (W : Valuation τ sig (Elt Ideal)) (r : Fin 3) (k q : Fin 128) :
    (StableHlo.after hostOps1 W (Proc.devRef .tc main_v166) : FVec Ideal S3x128x128 .f32) (ix3 r k q)
      = (W (Proc.devRef .tc main_arg2) : FVec Ideal S2x3x128x128 .f32) (ix4 (1 : Fin 2) r k q) := by
  simp (disch := decide) only [StableHlo.after_cons, StableHlo.after_nil,
      StableHlo.nullary_result', StableHlo.unary_result', StableHlo.binary_result', StableHlo.ternary_result', StableHlo.quaternary_result', StableHlo.reshape_result', Cert.LibNaryThree.nary3_result',
      StableHlo.nullary_result_ne', StableHlo.unary_result_ne', StableHlo.binary_result_ne', StableHlo.ternary_result_ne', StableHlo.quaternary_result_ne', StableHlo.reshape_result_ne',
      StableHlo.nary_result_ne']
  exact wslab1_at _ _ _ r k q

set_option maxHeartbeats 8000000 in
theorem wrB (W : Valuation τ sig (Elt Ideal)) (r : Fin 3) (k q : Fin 128) :
    (StableHlo.after hostOps1 W (Proc.devRef .tc main_v168) : FVec Ideal S3x128x128 .f32) (ix3 r k q)
      = (W (Proc.devRef .tc main_arg3) : FVec Ideal S2x3x128x128 .f32) (ix4 (1 : Fin 2) r k q) := by
  simp (disch := decide) only [StableHlo.after_cons, StableHlo.after_nil,
      StableHlo.nullary_result', StableHlo.unary_result', StableHlo.binary_result', StableHlo.ternary_result', StableHlo.quaternary_result', StableHlo.reshape_result', Cert.LibNaryThree.nary3_result',
      StableHlo.nullary_result_ne', StableHlo.unary_result_ne', StableHlo.binary_result_ne', StableHlo.ternary_result_ne', StableHlo.quaternary_result_ne', StableHlo.reshape_result_ne',
      StableHlo.nary_result_ne']
  exact wslab1_at _ _ _ r k q

set_option maxHeartbeats 8000000 in
theorem biasB (W : Valuation τ sig (Elt Ideal)) (r : Fin 3) (q : Fin 128) :
    (StableHlo.after hostOps1 W (Proc.devRef .tc main_v170) : FVec Ideal S3x128 .f32) (ix2 r q)
      = (W (Proc.devRef .tc main_arg4) : FVec Ideal S2x3x128 .f32) (ix3 (1 : Fin 2) r q) := by
  simp (disch := decide) only [StableHlo.after_cons, StableHlo.after_nil,
      StableHlo.nullary_result', StableHlo.unary_result', StableHlo.binary_result', StableHlo.ternary_result', StableHlo.quaternary_result', StableHlo.reshape_result', Cert.LibNaryThree.nary3_result',
      StableHlo.nullary_result_ne', StableHlo.unary_result_ne', StableHlo.binary_result_ne', StableHlo.ternary_result_ne', StableHlo.quaternary_result_ne', StableHlo.reshape_result_ne',
      StableHlo.nary_result_ne']
  exact bslab1_at _ _ _ r q

set_option maxHeartbeats 8000000 in
/-- The operations between the regions leave the first region's output alone. -/
theorem keepsB (W : Valuation τ sig (Elt Ideal)) : StableHlo.after hostOps1 W (Proc.devRef .tc main_v85) = W (Proc.devRef .tc main_v85) := by
  simp (disch := decide) only [StableHlo.after_cons, StableHlo.after_nil,
      StableHlo.nullary_result', StableHlo.unary_result', StableHlo.binary_result', StableHlo.ternary_result', StableHlo.quaternary_result', StableHlo.reshape_result', Cert.LibNaryThree.nary3_result',
      StableHlo.nullary_result_ne', StableHlo.unary_result_ne', StableHlo.binary_result_ne', StableHlo.ternary_result_ne', StableHlo.quaternary_result_ne', StableHlo.reshape_result_ne',
      StableHlo.nary_result_ne']

/-! ## After the second region -/

set_option maxHeartbeats 8000000 in
/-- The classifier on the second region's output. -/
theorem closing (W : Valuation τ sig (Elt Ideal)) :
    (StableHlo.after hostOps2 W (Proc.devRef .tc main_v175) : FVec Ideal S100000x2 .f32)
      = addf (Host.dotGeneral (F := Ideal) (φ₁ := .f32) (φ₂ := .f32) dot_S100000x128_S128x2_S100000x2_1_0_0_1_n_n none
            (W (Proc.devRef .tc main_v171) : FVec Ideal S100000x128 .f32) (W (Proc.devRef .tc main_arg5) : FVec Ideal S128x2 .f32))
          (broadcastInDim S100000x2 ![0, 1] bcast_S1x2_S100000x2_0_1
            (broadcastInDim S1x2 ![1] bcast_S2_S1x2_1 (W (Proc.devRef .tc main_arg6) : FVec Ideal S2 .f32))) := by
  simp (disch := decide) only [StableHlo.after_cons, StableHlo.after_nil,
      StableHlo.nullary_result', StableHlo.unary_result', StableHlo.binary_result', StableHlo.ternary_result', StableHlo.quaternary_result', StableHlo.reshape_result', Cert.LibNaryThree.nary3_result',
      StableHlo.nullary_result_ne', StableHlo.unary_result_ne', StableHlo.binary_result_ne', StableHlo.ternary_result_ne', StableHlo.quaternary_result_ne', StableHlo.reshape_result_ne',
      StableHlo.nary_result_ne']

end Cert.KernelIdeal.HostRead

end
-- ==== Proof.LibHostProduct.lean ====
/-
  The host's matrix product, read at an entry.

  For operands `[m, k]` and `[k, n]` contracted over the left operand's columns and the right operand's rows, entry
  `(r, c)` of the host's `dot_general` at the ideal values is the sum over the contracted coordinate `h` of
  `lhs (r, h) · rhs (h, c)`: the host's product has no accumulator, a kernel's product into a zero accumulator adds
  zero, so the two are the same sum over the contraction's index set, and that set is re-indexed by its coordinate.
-/
import Idealize.ShloMosaic.Lib.ValueIdx
import Idealize.ShloMosaic.PureOps.Ideal.Laws
import proofs.«133929_j46901042872931_1_alg».proof.Proof.LibMatProduct

noncomputable section

namespace Cert.LibHostProduct

open Idealize.ShloMosaic Idealize.ShloMosaic.ValueIdx

/-- The host's product and a kernel's product into a zero accumulator agree at every entry, whatever the shapes. -/
theorem hostDot_eq_matmul_zero {sl sr so : Shape} {φ₁ φ₂ : FTy} (d : DotDims sl sr so) (prec : Option ContractPrecision)
    (lhs : FVec Ideal sl φ₁) (rhs : FVec Ideal sr φ₂) (j : so.Idx) :
    Host.dotGeneral d prec lhs rhs j = FloatOps.matmul d prec lhs rhs (constant so .f32 0x00000000#32) j :=
  (Ideal.dotGeneral_apply d prec .single lhs rhs j).trans (Ideal.matmul_constant_zero_apply d prec lhs rhs j).symm

/-- Entry `(r, c)` of the host's `lhs · rhs` is `∑ h, lhs (r, h) · rhs (h, c)`. -/
theorem hostDot_apply {m k n : ℕ} {φ₁ φ₂ : FTy}
    (d : DotDims ⟨2, ![m, k]⟩ ⟨2, ![k, n]⟩ ⟨2, ![m, n]⟩) (prec : Option ContractPrecision)
    (hlc : d.lhsContracting = [1]) (hrc : d.rhsContracting = [0])
    (hln : d.lhsNonContracting = [0]) (hrn : d.rhsNonContracting = [1])
    (hlb : d.lhsBatch = []) (hrb : d.rhsBatch = [])
    (lhs : FVec Ideal ⟨2, ![m, k]⟩ φ₁) (rhs : FVec Ideal ⟨2, ![k, n]⟩ φ₂) (r : Fin m) (c : Fin n) :
    Host.dotGeneral d prec lhs rhs (ix2 r c) = ∑ h : Fin k, lhs (ix2 r h) * rhs (ix2 h c) :=
  (hostDot_eq_matmul_zero d prec lhs rhs (ix2 r c)).trans
    (Cert.LibMatProduct.matmul_zero_apply d prec hlc hrc hln hrn hlb hrb lhs rhs r c)

end Cert.LibHostProduct

end
-- ==== Proof.RefDense.lean ====
/-
  The reference's two dense stages, as terms and entry by entry.

  `refLayer0` and `refLayer1` are the dense part of the reference's first and second layer written as one composed
  term each, over the node features `h`, the three relations' neighbour means `a0 a1 a2`, the stacked neighbour
  weights `x2`, the stacked root weights `x3` and the stacked biases `x4`: starting from the zero array, for each relation
  `r = 0, 1, 2` are added the product of `a_r` with the `128 × 128` block `(l, r)` of `x2`, the product of `h` with the
  block `(l, r)` of `x3`, and row `(l, r)` of `x4` repeated down the rows, in that order; layer 0 (`l = 0`) ends with
  the maximum with the zero array, layer 1 (`l = 1`) does not.

  `refLayer0_eq` and `refLayer1_eq` say each is the specification's `dense` for its layer. Entry `(p, q)` of a product
  is the sum over the contracted coordinate `k` of `a (p, k) · W (k, q)`; entry `(k, q)` of a block cut out of the
  stacked weights and read as a matrix is entry `(l, r, k, q)` of the stack; entry `(p, q)` of a repeated bias row is
  entry `(l, r, q)` of the stacked biases; the zero array's entry is the zero word's value. With these the two sides are
  the same sum, term by term and in the same order, so no law of the extended reals is used.
-/
import proofs.«133929_j46901042872931_1_alg».proof.ReferenceIdeal
import proofs.«133929_j46901042872931_1_alg».proof.Proof.Spec
import proofs.«133929_j46901042872931_1_alg».proof.Proof.LibHostProduct
import Idealize.ShloMosaic.Lib.ValueIdx
import Idealize.ShloMosaic.Lib.ValueLayout
import Idealize.ShloMosaic.Lib.Pipeline.Value
import Idealize.ShloMosaic.PureOps.Ideal.Laws

noncomputable section

namespace Cert.RefDense

open Cert.ReferenceIdeal Idealize.ShloMosaic Idealize.ShloMosaic.ValueIdx

variable [Facts₀]
open Facts₀

/-- Layer 0's dense part: zero, then per relation the neighbour product, the root product and the bias row added in
    that order, then the rectifier. -/
def refLayer0 (h a0 a1 a2 : FVec Ideal S100000x128 .f32) (x2 x3 : FVec Ideal S2x3x128x128 .f32) (x4 : FVec Ideal S2x3x128 .f32) :
    FVec Ideal S100000x128 .f32 :=
  maximumf (addf (addf (addf (addf (addf (addf (addf (addf (addf (broadcastInDim S100000x128 ![] bcast_S_S100000x128 (constant (F := Ideal) S_ .f32 0x00000000#32))
      (Host.dotGeneral dot_S100000x128_S128x128_S100000x128_1_0_0_1_n_n none a0 (shapeCast S128x128 (extractStridedSlice S1x1x128x128 ![0, 0, 0, 0] x2 slices_S2x3x128x128_S1x1x128x128_0_0_0_0) shapeCasts_S1x1x128x128_S128x128)))
      (Host.dotGeneral dot_S100000x128_S128x128_S100000x128_1_0_0_1_n_n none h (shapeCast S128x128 (extractStridedSlice S1x1x128x128 ![0, 0, 0, 0] x3 slices_S2x3x128x128_S1x1x128x128_0_0_0_0) shapeCasts_S1x1x128x128_S128x128)))
      (broadcastInDim S100000x128 ![0, 1] bcast_S1x128_S100000x128_0_1 (broadcastInDim S1x128 ![1] bcast_S128_S1x128_1 (shapeCast S128 (extractStridedSlice S1x1x128 ![0, 0, 0] x4 slices_S2x3x128_S1x1x128_0_0_0) shapeCasts_S1x1x128_S128))))
      (Host.dotGeneral dot_S100000x128_S128x128_S100000x128_1_0_0_1_n_n none a1 (shapeCast S128x128 (extractStridedSlice S1x1x128x128 ![0, 1, 0, 0] x2 slices_S2x3x128x128_S1x1x128x128_0_1_0_0) shapeCasts_S1x1x128x128_S128x128)))
      (Host.dotGeneral dot_S100000x128_S128x128_S100000x128_1_0_0_1_n_n none h (shapeCast S128x128 (extractStridedSlice S1x1x128x128 ![0, 1, 0, 0] x3 slices_S2x3x128x128_S1x1x128x128_0_1_0_0) shapeCasts_S1x1x128x128_S128x128)))
      (broadcastInDim S100000x128 ![0, 1] bcast_S1x128_S100000x128_0_1 (broadcastInDim S1x128 ![1] bcast_S128_S1x128_1 (shapeCast S128 (extractStridedSlice S1x1x128 ![0, 1, 0] x4 slices_S2x3x128_S1x1x128_0_1_0) shapeCasts_S1x1x128_S128))))
      (Host.dotGeneral dot_S100000x128_S128x128_S100000x128_1_0_0_1_n_n none a2 (shapeCast S128x128 (extractStridedSlice S1x1x128x128 ![0, 2, 0, 0] x2 slices_S2x3x128x128_S1x1x128x128_0_2_0_0) shapeCasts_S1x1x128x128_S128x128)))
      (Host.dotGeneral dot_S100000x128_S128x128_S100000x128_1_0_0_1_n_n none h (shapeCast S128x128 (extractStridedSlice S1x1x128x128 ![0, 2, 0, 0] x3 slices_S2x3x128x128_S1x1x128x128_0_2_0_0) shapeCasts_S1x1x128x128_S128x128)))
      (broadcastInDim S100000x128 ![0, 1] bcast_S1x128_S100000x128_0_1 (broadcastInDim S1x128 ![1] bcast_S128_S1x128_1 (shapeCast S128 (extractStridedSlice S1x1x128 ![0, 2, 0] x4 slices_S2x3x128_S1x1x128_0_2_0) shapeCasts_S1x1x128_S128))))
    (broadcastInDim S100000x128 ![] bcast_S_S100000x128 (constant (F := Ideal) S_ .f32 0x00000000#32))

/-- Layer 1's dense part: the same sum with layer 1's blocks, no rectifier. -/
def refLayer1 (h a0 a1 a2 : FVec Ideal S100000x128 .f32) (x2 x3 : FVec Ideal S2x3x128x128 .f32) (x4 : FVec Ideal S2x3x128 .f32) :
    FVec Ideal S100000x128 .f32 :=
  addf (addf (addf (addf (addf (addf (addf (addf (addf (broadcastInDim S100000x128 ![] bcast_S_S100000x128 (constant (F := Ideal) S_ .f32 0x00000000#32))
      (Host.dotGeneral dot_S100000x128_S128x128_S100000x128_1_0_0_1_n_n none a0 (shapeCast S128x128 (extractStridedSlice S1x1x128x128 ![1, 0, 0, 0] x2 slices_S2x3x128x128_S1x1x128x128_1_0_0_0) shapeCasts_S1x1x128x128_S128x128)))
      (Host.dotGeneral dot_S100000x128_S128x128_S100000x128_1_0_0_1_n_n none h (shapeCast S128x128 (extractStridedSlice S1x1x128x128 ![1, 0, 0, 0] x3 slices_S2x3x128x128_S1x1x128x128_1_0_0_0) shapeCasts_S1x1x128x128_S128x128)))
      (broadcastInDim S100000x128 ![0, 1] bcast_S1x128_S100000x128_0_1 (broadcastInDim S1x128 ![1] bcast_S128_S1x128_1 (shapeCast S128 (extractStridedSlice S1x1x128 ![1, 0, 0] x4 slices_S2x3x128_S1x1x128_1_0_0) shapeCasts_S1x1x128_S128))))
      (Host.dotGeneral dot_S100000x128_S128x128_S100000x128_1_0_0_1_n_n none a1 (shapeCast S128x128 (extractStridedSlice S1x1x128x128 ![1, 1, 0, 0] x2 slices_S2x3x128x128_S1x1x128x128_1_1_0_0) shapeCasts_S1x1x128x128_S128x128)))
      (Host.dotGeneral dot_S100000x128_S128x128_S100000x128_1_0_0_1_n_n none h (shapeCast S128x128 (extractStridedSlice S1x1x128x128 ![1, 1, 0, 0] x3 slices_S2x3x128x128_S1x1x128x128_1_1_0_0) shapeCasts_S1x1x128x128_S128x128)))
      (broadcastInDim S100000x128 ![0, 1] bcast_S1x128_S100000x128_0_1 (broadcastInDim S1x128 ![1] bcast_S128_S1x128_1 (shapeCast S128 (extractStridedSlice S1x1x128 ![1, 1, 0] x4 slices_S2x3x128_S1x1x128_1_1_0) shapeCasts_S1x1x128_S128))))
      (Host.dotGeneral dot_S100000x128_S128x128_S100000x128_1_0_0_1_n_n none a2 (shapeCast S128x128 (extractStridedSlice S1x1x128x128 ![1, 2, 0, 0] x2 slices_S2x3x128x128_S1x1x128x128_1_2_0_0) shapeCasts_S1x1x128x128_S128x128)))
      (Host.dotGeneral dot_S100000x128_S128x128_S100000x128_1_0_0_1_n_n none h (shapeCast S128x128 (extractStridedSlice S1x1x128x128 ![1, 2, 0, 0] x3 slices_S2x3x128x128_S1x1x128x128_1_2_0_0) shapeCasts_S1x1x128x128_S128x128)))
      (broadcastInDim S100000x128 ![0, 1] bcast_S1x128_S100000x128_0_1 (broadcastInDim S1x128 ![1] bcast_S128_S1x128_1 (shapeCast S128 (extractStridedSlice S1x1x128 ![1, 2, 0] x4 slices_S2x3x128_S1x1x128_1_2_0) shapeCasts_S1x1x128_S128)))

/-- The zero array read at an entry is the zero word's value. -/
theorem zeros_apply (i : S100000x128.Idx) :
    broadcastInDim S100000x128 ![] bcast_S_S100000x128 (constant (F := Ideal) S_ .f32 0x00000000#32) i
      = Ideal.ofBits .f32 0x00000000#32 :=
  broadcastInDim_apply _ bcast_S_S100000x128 _ i (fun a => a.elim0) (fun a => a.elim0)

/-- Entry `(p, q)` of the host's product of a node array with a `128 × 128` matrix is the sum over the contracted
    coordinate. -/
theorem hdot_apply (a : FVec Ideal S100000x128 .f32) (W : FVec Ideal S128x128 .f32) (p : Fin 100000) (q : Fin 128) :
    Host.dotGeneral dot_S100000x128_S128x128_S100000x128_1_0_0_1_n_n none a W (ix2 p q) = ∑ k : Fin 128, a (ix2 p k) * W (ix2 k q) :=
  Cert.LibHostProduct.hostDot_apply dot_S100000x128_S128x128_S100000x128_1_0_0_1_n_n none rfl rfl rfl rfl rfl rfl a W p q

/-- Entry `(k, q)` of the weight block of layer 0, relation 0, cut out of the stacked weights and read as a matrix. -/
theorem wread_0_0 (W : FVec Ideal S2x3x128x128 .f32) (k q : Fin 128) :
    shapeCast S128x128 (extractStridedSlice S1x1x128x128 ![0, 0, 0, 0] W slices_S2x3x128x128_S1x1x128x128_0_0_0_0) shapeCasts_S1x1x128x128_S128x128 (ix2 k q)
      = W (ix4 (0 : Fin 2) (0 : Fin 3) k q) := by
  refine (shapeCast_apply _ shapeCasts_S1x1x128x128_S128x128 (ix2 k q) (ix4 (0 : Fin 1) (0 : Fin 1) k q) ?_).trans ?_
  · rw [Shape.rowMajor_val_four, Shape.rowMajor_val_two]
    show ((0 * 1 + 0) * 128 + k.val) * 128 + q.val = k.val * 128 + q.val
    omega
  · exact extractStridedSlice_apply _ W slices_S2x3x128x128_S1x1x128x128_0_0_0_0 (ix4 (0 : Fin 1) (0 : Fin 1) k q)
      (ix4 (0 : Fin 2) (0 : Fin 3) k q) (fun a => match a with
        | ⟨0, _⟩ => rfl
        | ⟨1, _⟩ => rfl
        | ⟨2, _⟩ => by show k.val = 0 + k.val; omega
        | ⟨3, _⟩ => by show q.val = 0 + q.val; omega)

/-- Entry `(p, q)` of the bias row of layer 0, relation 0, cut out of the stacked biases and repeated down the rows. -/
theorem bread_0_0 (x4 : FVec Ideal S2x3x128 .f32) (p : Fin 100000) (q : Fin 128) :
    broadcastInDim S100000x128 ![0, 1] bcast_S1x128_S100000x128_0_1 (broadcastInDim S1x128 ![1] bcast_S128_S1x128_1 (shapeCast S128 (extractStridedSlice S1x1x128 ![0, 0, 0] x4 slices_S2x3x128_S1x1x128_0_0_0) shapeCasts_S1x1x128_S128)) (ix2 p q)
      = x4 (ix3 (0 : Fin 2) (0 : Fin 3) q) := by
  refine (broadcastInDim_apply _ bcast_S1x128_S100000x128_0_1 _ (ix2 p q) (ix2 (0 : Fin 1) q) (fun a => match a with
    | ⟨0, _⟩ => by show 0 = if (1 : Nat) = 1 then 0 else p.val; rw [if_pos rfl]
    | ⟨1, _⟩ => by show q.val = if (128 : Nat) = 1 then 0 else q.val; rw [if_neg (by decide)])).trans ?_
  refine (broadcastInDim_apply _ bcast_S128_S1x128_1 _ (ix2 (0 : Fin 1) q) (ix1 q) (fun a => match a with
    | ⟨0, _⟩ => by show q.val = if (128 : Nat) = 1 then 0 else q.val; rw [if_neg (by decide)])).trans ?_
  refine (shapeCast_apply _ shapeCasts_S1x1x128_S128 (ix1 q) (ix3 (0 : Fin 1) (0 : Fin 1) q) ?_).trans ?_
  · rw [Shape.rowMajor_val_three, Shape.rowMajor_val_one]
    show (0 * 1 + 0) * 128 + q.val = q.val
    omega
  · exact extractStridedSlice_apply _ x4 slices_S2x3x128_S1x1x128_0_0_0 (ix3 (0 : Fin 1) (0 : Fin 1) q)
      (ix3 (0 : Fin 2) (0 : Fin 3) q) (fun a => match a with
        | ⟨0, _⟩ => rfl
        | ⟨1, _⟩ => rfl
        | ⟨2, _⟩ => by show q.val = 0 + q.val; omega)

/-- Entry `(k, q)` of the weight block of layer 0, relation 1, cut out of the stacked weights and read as a matrix. -/
theorem wread_0_1 (W : FVec Ideal S2x3x128x128 .f32) (k q : Fin 128) :
    shapeCast S128x128 (extractStridedSlice S1x1x128x128 ![0, 1, 0, 0] W slices_S2x3x128x128_S1x1x128x128_0_1_0_0) shapeCasts_S1x1x128x128_S128x128 (ix2 k q)
      = W (ix4 (0 : Fin 2) (1 : Fin 3) k q) := by
  refine (shapeCast_apply _ shapeCasts_S1x1x128x128_S128x128 (ix2 k q) (ix4 (0 : Fin 1) (0 : Fin 1) k q) ?_).trans ?_
  · rw [Shape.rowMajor_val_four, Shape.rowMajor_val_two]
    show ((0 * 1 + 0) * 128 + k.val) * 128 + q.val = k.val * 128 + q.val
    omega
  · exact extractStridedSlice_apply _ W slices_S2x3x128x128_S1x1x128x128_0_1_0_0 (ix4 (0 : Fin 1) (0 : Fin 1) k q)
      (ix4 (0 : Fin 2) (1 : Fin 3) k q) (fun a => match a with
        | ⟨0, _⟩ => rfl
        | ⟨1, _⟩ => rfl
        | ⟨2, _⟩ => by show k.val = 0 + k.val; omega
        | ⟨3, _⟩ => by show q.val = 0 + q.val; omega)

/-- Entry `(p, q)` of the bias row of layer 0, relation 1, cut out of the stacked biases and repeated down the rows. -/
theorem bread_0_1 (x4 : FVec Ideal S2x3x128 .f32) (p : Fin 100000) (q : Fin 128) :
    broadcastInDim S100000x128 ![0, 1] bcast_S1x128_S100000x128_0_1 (broadcastInDim S1x128 ![1] bcast_S128_S1x128_1 (shapeCast S128 (extractStridedSlice S1x1x128 ![0, 1, 0] x4 slices_S2x3x128_S1x1x128_0_1_0) shapeCasts_S1x1x128_S128)) (ix2 p q)
      = x4 (ix3 (0 : Fin 2) (1 : Fin 3) q) := by
  refine (broadcastInDim_apply _ bcast_S1x128_S100000x128_0_1 _ (ix2 p q) (ix2 (0 : Fin 1) q) (fun a => match a with
    | ⟨0, _⟩ => by show 0 = if (1 : Nat) = 1 then 0 else p.val; rw [if_pos rfl]
    | ⟨1, _⟩ => by show q.val = if (128 : Nat) = 1 then 0 else q.val; rw [if_neg (by decide)])).trans ?_
  refine (broadcastInDim_apply _ bcast_S128_S1x128_1 _ (ix2 (0 : Fin 1) q) (ix1 q) (fun a => match a with
    | ⟨0, _⟩ => by show q.val = if (128 : Nat) = 1 then 0 else q.val; rw [if_neg (by decide)])).trans ?_
  refine (shapeCast_apply _ shapeCasts_S1x1x128_S128 (ix1 q) (ix3 (0 : Fin 1) (0 : Fin 1) q) ?_).trans ?_
  · rw [Shape.rowMajor_val_three, Shape.rowMajor_val_one]
    show (0 * 1 + 0) * 128 + q.val = q.val
    omega
  · exact extractStridedSlice_apply _ x4 slices_S2x3x128_S1x1x128_0_1_0 (ix3 (0 : Fin 1) (0 : Fin 1) q)
      (ix3 (0 : Fin 2) (1 : Fin 3) q) (fun a => match a with
        | ⟨0, _⟩ => rfl
        | ⟨1, _⟩ => rfl
        | ⟨2, _⟩ => by show q.val = 0 + q.val; omega)

/-- Entry `(k, q)` of the weight block of layer 0, relation 2, cut out of the stacked weights and read as a matrix. -/
theorem wread_0_2 (W : FVec Ideal S2x3x128x128 .f32) (k q : Fin 128) :
    shapeCast S128x128 (extractStridedSlice S1x1x128x128 ![0, 2, 0, 0] W slices_S2x3x128x128_S1x1x128x128_0_2_0_0) shapeCasts_S1x1x128x128_S128x128 (ix2 k q)
      = W (ix4 (0 : Fin 2) (2 : Fin 3) k q) := by
  refine (shapeCast_apply _ shapeCasts_S1x1x128x128_S128x128 (ix2 k q) (ix4 (0 : Fin 1) (0 : Fin 1) k q) ?_).trans ?_
  · rw [Shape.rowMajor_val_four, Shape.rowMajor_val_two]
    show ((0 * 1 + 0) * 128 + k.val) * 128 + q.val = k.val * 128 + q.val
    omega
  · exact extractStridedSlice_apply _ W slices_S2x3x128x128_S1x1x128x128_0_2_0_0 (ix4 (0 : Fin 1) (0 : Fin 1) k q)
      (ix4 (0 : Fin 2) (2 : Fin 3) k q) (fun a => match a with
        | ⟨0, _⟩ => rfl
        | ⟨1, _⟩ => rfl
        | ⟨2, _⟩ => by show k.val = 0 + k.val; omega
        | ⟨3, _⟩ => by show q.val = 0 + q.val; omega)

/-- Entry `(p, q)` of the bias row of layer 0, relation 2, cut out of the stacked biases and repeated down the rows. -/
theorem bread_0_2 (x4 : FVec Ideal S2x3x128 .f32) (p : Fin 100000) (q : Fin 128) :
    broadcastInDim S100000x128 ![0, 1] bcast_S1x128_S100000x128_0_1 (broadcastInDim S1x128 ![1] bcast_S128_S1x128_1 (shapeCast S128 (extractStridedSlice S1x1x128 ![0, 2, 0] x4 slices_S2x3x128_S1x1x128_0_2_0) shapeCasts_S1x1x128_S128)) (ix2 p q)
      = x4 (ix3 (0 : Fin 2) (2 : Fin 3) q) := by
  refine (broadcastInDim_apply _ bcast_S1x128_S100000x128_0_1 _ (ix2 p q) (ix2 (0 : Fin 1) q) (fun a => match a with
    | ⟨0, _⟩ => by show 0 = if (1 : Nat) = 1 then 0 else p.val; rw [if_pos rfl]
    | ⟨1, _⟩ => by show q.val = if (128 : Nat) = 1 then 0 else q.val; rw [if_neg (by decide)])).trans ?_
  refine (broadcastInDim_apply _ bcast_S128_S1x128_1 _ (ix2 (0 : Fin 1) q) (ix1 q) (fun a => match a with
    | ⟨0, _⟩ => by show q.val = if (128 : Nat) = 1 then 0 else q.val; rw [if_neg (by decide)])).trans ?_
  refine (shapeCast_apply _ shapeCasts_S1x1x128_S128 (ix1 q) (ix3 (0 : Fin 1) (0 : Fin 1) q) ?_).trans ?_
  · rw [Shape.rowMajor_val_three, Shape.rowMajor_val_one]
    show (0 * 1 + 0) * 128 + q.val = q.val
    omega
  · exact extractStridedSlice_apply _ x4 slices_S2x3x128_S1x1x128_0_2_0 (ix3 (0 : Fin 1) (0 : Fin 1) q)
      (ix3 (0 : Fin 2) (2 : Fin 3) q) (fun a => match a with
        | ⟨0, _⟩ => rfl
        | ⟨1, _⟩ => rfl
        | ⟨2, _⟩ => by show q.val = 0 + q.val; omega)

/-- Entry `(k, q)` of the weight block of layer 1, relation 0, cut out of the stacked weights and read as a matrix. -/
theorem wread_1_0 (W : FVec Ideal S2x3x128x128 .f32) (k q : Fin 128) :
    shapeCast S128x128 (extractStridedSlice S1x1x128x128 ![1, 0, 0, 0] W slices_S2x3x128x128_S1x1x128x128_1_0_0_0) shapeCasts_S1x1x128x128_S128x128 (ix2 k q)
      = W (ix4 (1 : Fin 2) (0 : Fin 3) k q) := by
  refine (shapeCast_apply _ shapeCasts_S1x1x128x128_S128x128 (ix2 k q) (ix4 (0 : Fin 1) (0 : Fin 1) k q) ?_).trans ?_
  · rw [Shape.rowMajor_val_four, Shape.rowMajor_val_two]
    show ((0 * 1 + 0) * 128 + k.val) * 128 + q.val = k.val * 128 + q.val
    omega
  · exact extractStridedSlice_apply _ W slices_S2x3x128x128_S1x1x128x128_1_0_0_0 (ix4 (0 : Fin 1) (0 : Fin 1) k q)
      (ix4 (1 : Fin 2) (0 : Fin 3) k q) (fun a => match a with
        | ⟨0, _⟩ => rfl
        | ⟨1, _⟩ => rfl
        | ⟨2, _⟩ => by show k.val = 0 + k.val; omega
        | ⟨3, _⟩ => by show q.val = 0 + q.val; omega)

/-- Entry `(p, q)` of the bias row of layer 1, relation 0, cut out of the stacked biases and repeated down the rows. -/
theorem bread_1_0 (x4 : FVec Ideal S2x3x128 .f32) (p : Fin 100000) (q : Fin 128) :
    broadcastInDim S100000x128 ![0, 1] bcast_S1x128_S100000x128_0_1 (broadcastInDim S1x128 ![1] bcast_S128_S1x128_1 (shapeCast S128 (extractStridedSlice S1x1x128 ![1, 0, 0] x4 slices_S2x3x128_S1x1x128_1_0_0) shapeCasts_S1x1x128_S128)) (ix2 p q)
      = x4 (ix3 (1 : Fin 2) (0 : Fin 3) q) := by
  refine (broadcastInDim_apply _ bcast_S1x128_S100000x128_0_1 _ (ix2 p q) (ix2 (0 : Fin 1) q) (fun a => match a with
    | ⟨0, _⟩ => by show 0 = if (1 : Nat) = 1 then 0 else p.val; rw [if_pos rfl]
    | ⟨1, _⟩ => by show q.val = if (128 : Nat) = 1 then 0 else q.val; rw [if_neg (by decide)])).trans ?_
  refine (broadcastInDim_apply _ bcast_S128_S1x128_1 _ (ix2 (0 : Fin 1) q) (ix1 q) (fun a => match a with
    | ⟨0, _⟩ => by show q.val = if (128 : Nat) = 1 then 0 else q.val; rw [if_neg (by decide)])).trans ?_
  refine (shapeCast_apply _ shapeCasts_S1x1x128_S128 (ix1 q) (ix3 (0 : Fin 1) (0 : Fin 1) q) ?_).trans ?_
  · rw [Shape.rowMajor_val_three, Shape.rowMajor_val_one]
    show (0 * 1 + 0) * 128 + q.val = q.val
    omega
  · exact extractStridedSlice_apply _ x4 slices_S2x3x128_S1x1x128_1_0_0 (ix3 (0 : Fin 1) (0 : Fin 1) q)
      (ix3 (1 : Fin 2) (0 : Fin 3) q) (fun a => match a with
        | ⟨0, _⟩ => rfl
        | ⟨1, _⟩ => rfl
        | ⟨2, _⟩ => by show q.val = 0 + q.val; omega)

/-- Entry `(k, q)` of the weight block of layer 1, relation 1, cut out of the stacked weights and read as a matrix. -/
theorem wread_1_1 (W : FVec Ideal S2x3x128x128 .f32) (k q : Fin 128) :
    shapeCast S128x128 (extractStridedSlice S1x1x128x128 ![1, 1, 0, 0] W slices_S2x3x128x128_S1x1x128x128_1_1_0_0) shapeCasts_S1x1x128x128_S128x128 (ix2 k q)
      = W (ix4 (1 : Fin 2) (1 : Fin 3) k q) := by
  refine (shapeCast_apply _ shapeCasts_S1x1x128x128_S128x128 (ix2 k q) (ix4 (0 : Fin 1) (0 : Fin 1) k q) ?_).trans ?_
  · rw [Shape.rowMajor_val_four, Shape.rowMajor_val_two]
    show ((0 * 1 + 0) * 128 + k.val) * 128 + q.val = k.val * 128 + q.val
    omega
  · exact extractStridedSlice_apply _ W slices_S2x3x128x128_S1x1x128x128_1_1_0_0 (ix4 (0 : Fin 1) (0 : Fin 1) k q)
      (ix4 (1 : Fin 2) (1 : Fin 3) k q) (fun a => match a with
        | ⟨0, _⟩ => rfl
        | ⟨1, _⟩ => rfl
        | ⟨2, _⟩ => by show k.val = 0 + k.val; omega
        | ⟨3, _⟩ => by show q.val = 0 + q.val; omega)

/-- Entry `(p, q)` of the bias row of layer 1, relation 1, cut out of the stacked biases and repeated down the rows. -/
theorem bread_1_1 (x4 : FVec Ideal S2x3x128 .f32) (p : Fin 100000) (q : Fin 128) :
    broadcastInDim S100000x128 ![0, 1] bcast_S1x128_S100000x128_0_1 (broadcastInDim S1x128 ![1] bcast_S128_S1x128_1 (shapeCast S128 (extractStridedSlice S1x1x128 ![1, 1, 0] x4 slices_S2x3x128_S1x1x128_1_1_0) shapeCasts_S1x1x128_S128)) (ix2 p q)
      = x4 (ix3 (1 : Fin 2) (1 : Fin 3) q) := by
  refine (broadcastInDim_apply _ bcast_S1x128_S100000x128_0_1 _ (ix2 p q) (ix2 (0 : Fin 1) q) (fun a => match a with
    | ⟨0, _⟩ => by show 0 = if (1 : Nat) = 1 then 0 else p.val; rw [if_pos rfl]
    | ⟨1, _⟩ => by show q.val = if (128 : Nat) = 1 then 0 else q.val; rw [if_neg (by decide)])).trans ?_
  refine (broadcastInDim_apply _ bcast_S128_S1x128_1 _ (ix2 (0 : Fin 1) q) (ix1 q) (fun a => match a with
    | ⟨0, _⟩ => by show q.val = if (128 : Nat) = 1 then 0 else q.val; rw [if_neg (by decide)])).trans ?_
  refine (shapeCast_apply _ shapeCasts_S1x1x128_S128 (ix1 q) (ix3 (0 : Fin 1) (0 : Fin 1) q) ?_).trans ?_
  · rw [Shape.rowMajor_val_three, Shape.rowMajor_val_one]
    show (0 * 1 + 0) * 128 + q.val = q.val
    omega
  · exact extractStridedSlice_apply _ x4 slices_S2x3x128_S1x1x128_1_1_0 (ix3 (0 : Fin 1) (0 : Fin 1) q)
      (ix3 (1 : Fin 2) (1 : Fin 3) q) (fun a => match a with
        | ⟨0, _⟩ => rfl
        | ⟨1, _⟩ => rfl
        | ⟨2, _⟩ => by show q.val = 0 + q.val; omega)

/-- Entry `(k, q)` of the weight block of layer 1, relation 2, cut out of the stacked weights and read as a matrix. -/
theorem wread_1_2 (W : FVec Ideal S2x3x128x128 .f32) (k q : Fin 128) :
    shapeCast S128x128 (extractStridedSlice S1x1x128x128 ![1, 2, 0, 0] W slices_S2x3x128x128_S1x1x128x128_1_2_0_0) shapeCasts_S1x1x128x128_S128x128 (ix2 k q)
      = W (ix4 (1 : Fin 2) (2 : Fin 3) k q) := by
  refine (shapeCast_apply _ shapeCasts_S1x1x128x128_S128x128 (ix2 k q) (ix4 (0 : Fin 1) (0 : Fin 1) k q) ?_).trans ?_
  · rw [Shape.rowMajor_val_four, Shape.rowMajor_val_two]
    show ((0 * 1 + 0) * 128 + k.val) * 128 + q.val = k.val * 128 + q.val
    omega
  · exact extractStridedSlice_apply _ W slices_S2x3x128x128_S1x1x128x128_1_2_0_0 (ix4 (0 : Fin 1) (0 : Fin 1) k q)
      (ix4 (1 : Fin 2) (2 : Fin 3) k q) (fun a => match a with
        | ⟨0, _⟩ => rfl
        | ⟨1, _⟩ => rfl
        | ⟨2, _⟩ => by show k.val = 0 + k.val; omega
        | ⟨3, _⟩ => by show q.val = 0 + q.val; omega)

/-- Entry `(p, q)` of the bias row of layer 1, relation 2, cut out of the stacked biases and repeated down the rows. -/
theorem bread_1_2 (x4 : FVec Ideal S2x3x128 .f32) (p : Fin 100000) (q : Fin 128) :
    broadcastInDim S100000x128 ![0, 1] bcast_S1x128_S100000x128_0_1 (broadcastInDim S1x128 ![1] bcast_S128_S1x128_1 (shapeCast S128 (extractStridedSlice S1x1x128 ![1, 2, 0] x4 slices_S2x3x128_S1x1x128_1_2_0) shapeCasts_S1x1x128_S128)) (ix2 p q)
      = x4 (ix3 (1 : Fin 2) (2 : Fin 3) q) := by
  refine (broadcastInDim_apply _ bcast_S1x128_S100000x128_0_1 _ (ix2 p q) (ix2 (0 : Fin 1) q) (fun a => match a with
    | ⟨0, _⟩ => by show 0 = if (1 : Nat) = 1 then 0 else p.val; rw [if_pos rfl]
    | ⟨1, _⟩ => by show q.val = if (128 : Nat) = 1 then 0 else q.val; rw [if_neg (by decide)])).trans ?_
  refine (broadcastInDim_apply _ bcast_S128_S1x128_1 _ (ix2 (0 : Fin 1) q) (ix1 q) (fun a => match a with
    | ⟨0, _⟩ => by show q.val = if (128 : Nat) = 1 then 0 else q.val; rw [if_neg (by decide)])).trans ?_
  refine (shapeCast_apply _ shapeCasts_S1x1x128_S128 (ix1 q) (ix3 (0 : Fin 1) (0 : Fin 1) q) ?_).trans ?_
  · rw [Shape.rowMajor_val_three, Shape.rowMajor_val_one]
    show (0 * 1 + 0) * 128 + q.val = q.val
    omega
  · exact extractStridedSlice_apply _ x4 slices_S2x3x128_S1x1x128_1_2_0 (ix3 (0 : Fin 1) (0 : Fin 1) q)
      (ix3 (1 : Fin 2) (2 : Fin 3) q) (fun a => match a with
        | ⟨0, _⟩ => rfl
        | ⟨1, _⟩ => rfl
        | ⟨2, _⟩ => by show q.val = 0 + q.val; omega)

/-- Layer 0's dense part is the specification's layer 0, rectifier included: entry by entry the two add the same terms in
    the same order. -/
theorem refLayer0_eq (h a0 a1 a2 : FVec Ideal S100000x128 .f32) (x2 x3 : FVec Ideal S2x3x128x128 .f32) (x4 : FVec Ideal S2x3x128 .f32) :
    refLayer0 h a0 a1 a2 x2 x3 x4 = Cert.Spec.dense true h a0 a1 a2 x2 x3 x4 (0 : Fin 2) := by
  funext i
  obtain ⟨p, q, rfl⟩ : ∃ (p : Fin 100000) (q : Fin 128), i = ix2 p q := ⟨i 0, i 1, eq_ix2 i⟩
  rw [Cert.Spec.dense_relu]
  unfold Cert.Spec.lin Cert.Spec.z refLayer0
  simp only [maximumf_apply, addf_apply, hdot_apply, wread_0_0, wread_0_1, wread_0_2]
  rw [zeros_apply, bread_0_0, bread_0_1, bread_0_2]

/-- Layer 1's dense part is the specification's layer 1: entry by entry the two add the same terms in
    the same order. -/
theorem refLayer1_eq (h a0 a1 a2 : FVec Ideal S100000x128 .f32) (x2 x3 : FVec Ideal S2x3x128x128 .f32) (x4 : FVec Ideal S2x3x128 .f32) :
    refLayer1 h a0 a1 a2 x2 x3 x4 = Cert.Spec.dense false h a0 a1 a2 x2 x3 x4 (1 : Fin 2) := by
  funext i
  obtain ⟨p, q, rfl⟩ : ∃ (p : Fin 100000) (q : Fin 128), i = ix2 p q := ⟨i 0, i 1, eq_ix2 i⟩
  rw [Cert.Spec.dense_plain]
  unfold Cert.Spec.lin Cert.Spec.z refLayer1
  simp only [maximumf_apply, addf_apply, hdot_apply, wread_1_0, wread_1_1, wread_1_2]
  rw [zeros_apply, bread_1_0, bread_1_1, bread_1_2]

end Cert.RefDense

end
-- ==== Proof.RefFold.lean ====
/-
  The reference's operation list, cut at the first layer's output, and what each half leaves in the buffers that matter.

  The contents of the device's buffers after a list of operations is the fold of the operations' results over the
  starting contents, and the fold over a concatenation is the fold over the second list started from the fold over the
  first. `opsA` is the list up to and including the rectifier that writes the first layer's output, `opsB` the rest.
  Read over ANY starting contents `W`: after `opsA` the first layer's output buffer holds `refLayer0` of the features
  `W` has in argument 0, of the three neighbour means `opsA` computes from `W`, and of the weights and biases `W` has
  in arguments 2, 3, 4 — hence the specification's first dense layer of them —, and the seven argument buffers hold what
  they held. Read over ANY contents `Y`: after `opsB` the second layer's output buffer holds `refLayer1` of what `Y` has
  in the first layer's output buffer, of the three neighbour means `opsB` computes from `Y`, and of `Y`'s arguments
  2, 3, 4, and the result buffer holds that output times the classifier's matrix plus its bias row.
-/
import proofs.«133929_j46901042872931_1_alg».proof.Proof.Gen.ReferenceIdeal
import proofs.«133929_j46901042872931_1_alg».proof.Proof.RefDense
import Idealize.ShloMosaic.Lib.StableHlo.Run

noncomputable section

namespace Cert.RefFold

open Cert.ReferenceIdeal Cert.ReferenceIdeal.Gen Idealize.ShloMosaic Idealize.ShloMosaic.TcCoe Idealize.SL.Sem Idealize.ShloMosaic.StableHlo

section Lists
variable {F : FTy → Type} [FloatOps F]

set_option maxHeartbeats 40000000 in
/-- The operations up to and including the one that writes the first layer's output. -/
abbrev opsA : List (HloOp τ sig (Elt F)) :=
  ( nullary main_cst (constant S_ .f32 0x00000000#32)
    :: unary main_cst main_v0 (broadcastInDim S100000x128 ![] bcast_S_S100000x128 : (⟨S_, .f32⟩ : BufTy).Contents (Elt F) → (⟨S100000x128, .f32⟩ : BufTy).Contents (Elt F))
    :: unary main_arg1 main_v1 ((extractStridedSlice S1x2x400000 ![0, 0, 0] · slices_S3x2x400000_S1x2x400000_0_0_0) : (⟨S3x2x400000, .i32⟩ : BufTy).Contents (Elt F) → (⟨S1x2x400000, .i32⟩ : BufTy).Contents (Elt F))
    :: reshape main_v1 main_v2 rfl shapeCasts_S1x2x400000_S2x400000
    :: unary main_v2 main_v3 ((extractStridedSlice S1x400000 ![0, 0] · slices_S2x400000_S1x400000_0_0) : (⟨S2x400000, .i32⟩ : BufTy).Contents (Elt F) → (⟨S1x400000, .i32⟩ : BufTy).Contents (Elt F))
    :: reshape main_v3 main_v4 rfl shapeCasts_S1x400000_S400000
    :: unary main_v2 main_v5 ((extractStridedSlice S1x400000 ![1, 0] · slices_S2x400000_S1x400000_1_0) : (⟨S2x400000, .i32⟩ : BufTy).Contents (Elt F) → (⟨S1x400000, .i32⟩ : BufTy).Contents (Elt F))
    :: reshape main_v5 main_v6 rfl shapeCasts_S1x400000_S400000
    :: nullary main_c (constantI S_ 32 0#32)
    :: unary main_c main_v7 (broadcastInDim S400000 ![] bcast_S_S400000 : (⟨S_, .i32⟩ : BufTy).Contents (Elt F) → (⟨S400000, .i32⟩ : BufTy).Contents (Elt F))
    :: binary main_v4 main_v7 main_v8 (cmpi .slt : (⟨S400000, .i32⟩ : BufTy).Contents (Elt F) → (⟨S400000, .i32⟩ : BufTy).Contents (Elt F) → (⟨S400000, .i1⟩ : BufTy).Contents (Elt F))
    :: nullary main_c_0 (constantI S_ 32 100000#32)
    :: unary main_c_0 main_v9 (broadcastInDim S400000 ![] bcast_S_S400000 : (⟨S_, .i32⟩ : BufTy).Contents (Elt F) → (⟨S400000, .i32⟩ : BufTy).Contents (Elt F))
    :: binary main_v4 main_v9 main_v10 (addi : (⟨S400000, .i32⟩ : BufTy).Contents (Elt F) → (⟨S400000, .i32⟩ : BufTy).Contents (Elt F) → (⟨S400000, .i32⟩ : BufTy).Contents (Elt F))
    :: ternary main_v8 main_v10 main_v4 main_v11 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F))
    :: unary main_v11 main_v12 (broadcastInDim S400000x1 ![0] bcast_S400000_S400000x1_0 : (⟨S400000, .i32⟩ : BufTy).Contents (Elt F) → (⟨S400000x1, .i32⟩ : BufTy).Contents (Elt F))
    :: binary main_arg0 main_v12 main_v13 ((fun x i => Host.gather gather_S100000x128_S400000x1_S400000x128_1_0_n_n_0_1_1128 x i) : (⟨S100000x128, .f32⟩ : BufTy).Contents (Elt F) → (⟨S400000x1, .i32⟩ : BufTy).Contents (Elt F) → (⟨S400000x128, .f32⟩ : BufTy).Contents (Elt F))
    :: nullary main_cst_1 (constant S_ .f32 0x00000000#32)
    :: unary main_cst_1 main_v14 (broadcastInDim S100000x128 ![] bcast_S_S100000x128 : (⟨S_, .f32⟩ : BufTy).Contents (Elt F) → (⟨S100000x128, .f32⟩ : BufTy).Contents (Elt F))
    :: unary main_v6 main_v15 (broadcastInDim S400000x1 ![0] bcast_S400000_S400000x1_0 : (⟨S400000, .i32⟩ : BufTy).Contents (Elt F) → (⟨S400000x1, .i32⟩ : BufTy).Contents (Elt F))
    :: ternary main_v14 main_v15 main_v13 main_v16 ((fun x i u => Host.scatterAdd scatter_S100000x128_S400000x1_S400000x128_1_0_0_1 x i u) : (⟨S100000x128, .f32⟩ : BufTy).Contents (Elt F) → (⟨S400000x1, .i32⟩ : BufTy).Contents (Elt F) → (⟨S400000x128, .f32⟩ : BufTy).Contents (Elt F) → (⟨S100000x128, .f32⟩ : BufTy).Contents (Elt F))
    :: nullary main_cst_2 (constant S_ .f32 0x3F800000#32)
    :: unary main_cst_2 main_v17 (broadcastInDim S400000 ![] bcast_S_S400000 : (⟨S_, .f32⟩ : BufTy).Contents (Elt F) → (⟨S400000, .f32⟩ : BufTy).Contents (Elt F))
    :: nullary main_cst_3 (constant S_ .f32 0x00000000#32)
    :: unary main_cst_3 main_v18 (broadcastInDim S100000 ![] bcast_S_S100000 : (⟨S_, .f32⟩ : BufTy).Contents (Elt F) → (⟨S100000, .f32⟩ : BufTy).Contents (Elt F))
    :: unary main_v6 main_v19 (broadcastInDim S400000x1 ![0] bcast_S400000_S400000x1_0 : (⟨S400000, .i32⟩ : BufTy).Contents (Elt F) → (⟨S400000x1, .i32⟩ : BufTy).Contents (Elt F))
    :: ternary main_v18 main_v19 main_v17 main_v20 ((fun x i u => Host.scatterAdd scatter_S100000_S400000x1_S400000_n_0_0_1 x i u) : (⟨S100000, .f32⟩ : BufTy).Contents (Elt F) → (⟨S400000x1, .i32⟩ : BufTy).Contents (Elt F) → (⟨S400000, .f32⟩ : BufTy).Contents (Elt F) → (⟨S100000, .f32⟩ : BufTy).Contents (Elt F))
    :: nullary main_cst_4 (constant S_ .f32 0x3F800000#32)
    :: unary main_cst_4 main_v21 (broadcastInDim S100000 ![] bcast_S_S100000 : (⟨S_, .f32⟩ : BufTy).Contents (Elt F) → (⟨S100000, .f32⟩ : BufTy).Contents (Elt F))
    :: binary main_v20 main_v21 main_v22 (maximumf : (⟨S100000, .f32⟩ : BufTy).Contents (Elt F) → (⟨S100000, .f32⟩ : BufTy).Contents (Elt F) → (⟨S100000, .f32⟩ : BufTy).Contents (Elt F))
    :: unary main_v22 main_v23 (broadcastInDim S100000x1 ![0] bcast_S100000_S100000x1_0 : (⟨S100000, .f32⟩ : BufTy).Contents (Elt F) → (⟨S100000x1, .f32⟩ : BufTy).Contents (Elt F))
    :: unary main_v23 main_v24 (broadcastInDim S100000x128 ![0, 1] bcast_S100000x1_S100000x128_0_1 : (⟨S100000x1, .f32⟩ : BufTy).Contents (Elt F) → (⟨S100000x128, .f32⟩ : BufTy).Contents (Elt F))
    :: binary main_v16 main_v24 main_v25 (Host.divf : (⟨S100000x128, .f32⟩ : BufTy).Contents (Elt F) → (⟨S100000x128, .f32⟩ : BufTy).Contents (Elt F) → (⟨S100000x128, .f32⟩ : BufTy).Contents (Elt F))
    :: unary main_arg2 main_v26 ((extractStridedSlice S1x1x128x128 ![0, 0, 0, 0] · slices_S2x3x128x128_S1x1x128x128_0_0_0_0) : (⟨S2x3x128x128, .f32⟩ : BufTy).Contents (Elt F) → (⟨S1x1x128x128, .f32⟩ : BufTy).Contents (Elt F))
    :: reshape main_v26 main_v27 rfl shapeCasts_S1x1x128x128_S128x128
    :: binary main_v25 main_v27 main_v28 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F))
    :: binary main_v0 main_v28 main_v29 (addf : (⟨S100000x128, .f32⟩ : BufTy).Contents (Elt F) → (⟨S100000x128, .f32⟩ : BufTy).Contents (Elt F) → (⟨S100000x128, .f32⟩ : BufTy).Contents (Elt F))
    :: unary main_arg3 main_v30 ((extractStridedSlice S1x1x128x128 ![0, 0, 0, 0] · slices_S2x3x128x128_S1x1x128x128_0_0_0_0) : (⟨S2x3x128x128, .f32⟩ : BufTy).Contents (Elt F) → (⟨S1x1x128x128, .f32⟩ : BufTy).Contents (Elt F))
    :: reshape main_v30 main_v31 rfl shapeCasts_S1x1x128x128_S128x128
    :: binary main_arg0 main_v31 main_v32 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F))
    :: binary main_v29 main_v32 main_v33 (addf : (⟨S100000x128, .f32⟩ : BufTy).Contents (Elt F) → (⟨S100000x128, .f32⟩ : BufTy).Contents (Elt F) → (⟨S100000x128, .f32⟩ : BufTy).Contents (Elt F))
    :: unary main_arg4 main_v34 ((extractStridedSlice S1x1x128 ![0, 0, 0] · slices_S2x3x128_S1x1x128_0_0_0) : (⟨S2x3x128, .f32⟩ : BufTy).Contents (Elt F) → (⟨S1x1x128, .f32⟩ : BufTy).Contents (Elt F))
    :: reshape main_v34 main_v35 rfl shapeCasts_S1x1x128_S128
    :: unary main_v35 main_v36 (broadcastInDim S1x128 ![1] bcast_S128_S1x128_1 : (⟨S128, .f32⟩ : BufTy).Contents (Elt F) → (⟨S1x128, .f32⟩ : BufTy).Contents (Elt F))
    :: unary main_v36 main_v37 (broadcastInDim S100000x128 ![0, 1] bcast_S1x128_S100000x128_0_1 : (⟨S1x128, .f32⟩ : BufTy).Contents (Elt F) → (⟨S100000x128, .f32⟩ : BufTy).Contents (Elt F))
    :: binary main_v33 main_v37 main_v38 (addf : (⟨S100000x128, .f32⟩ : BufTy).Contents (Elt F) → (⟨S100000x128, .f32⟩ : BufTy).Contents (Elt F) → (⟨S100000x128, .f32⟩ : BufTy).Contents (Elt F))
    :: unary main_arg1 main_v39 ((extractStridedSlice S1x2x400000 ![1, 0, 0] · slices_S3x2x400000_S1x2x400000_1_0_0) : (⟨S3x2x400000, .i32⟩ : BufTy).Contents (Elt F) → (⟨S1x2x400000, .i32⟩ : BufTy).Contents (Elt F))
    :: reshape main_v39 main_v40 rfl shapeCasts_S1x2x400000_S2x400000
    :: unary main_v40 main_v41 ((extractStridedSlice S1x400000 ![0, 0] · slices_S2x400000_S1x400000_0_0) : (⟨S2x400000, .i32⟩ : BufTy).Contents (Elt F) → (⟨S1x400000, .i32⟩ : BufTy).Contents (Elt F))
    :: reshape main_v41 main_v42 rfl shapeCasts_S1x400000_S400000
    :: unary main_v40 main_v43 ((extractStridedSlice S1x400000 ![1, 0] · slices_S2x400000_S1x400000_1_0) : (⟨S2x400000, .i32⟩ : BufTy).Contents (Elt F) → (⟨S1x400000, .i32⟩ : BufTy).Contents (Elt F))
    :: reshape main_v43 main_v44 rfl shapeCasts_S1x400000_S400000
    :: nullary main_c_5 (constantI S_ 32 0#32)
    :: unary main_c_5 main_v45 (broadcastInDim S400000 ![] bcast_S_S400000 : (⟨S_, .i32⟩ : BufTy).Contents (Elt F) → (⟨S400000, .i32⟩ : BufTy).Contents (Elt F))
    :: binary main_v42 main_v45 main_v46 (cmpi .slt : (⟨S400000, .i32⟩ : BufTy).Contents (Elt F) → (⟨S400000, .i32⟩ : BufTy).Contents (Elt F) → (⟨S400000, .i1⟩ : BufTy).Contents (Elt F))
    :: nullary main_c_6 (constantI S_ 32 100000#32)
    :: unary main_c_6 main_v47 (broadcastInDim S400000 ![] bcast_S_S400000 : (⟨S_, .i32⟩ : BufTy).Contents (Elt F) → (⟨S400000, .i32⟩ : BufTy).Contents (Elt F))
    :: binary main_v42 main_v47 main_v48 (addi : (⟨S400000, .i32⟩ : BufTy).Contents (Elt F) → (⟨S400000, .i32⟩ : BufTy).Contents (Elt F) → (⟨S400000, .i32⟩ : BufTy).Contents (Elt F))
    :: ternary main_v46 main_v48 main_v42 main_v49 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F))
    :: unary main_v49 main_v50 (broadcastInDim S400000x1 ![0] bcast_S400000_S400000x1_0 : (⟨S400000, .i32⟩ : BufTy).Contents (Elt F) → (⟨S400000x1, .i32⟩ : BufTy).Contents (Elt F))
    :: binary main_arg0 main_v50 main_v51 ((fun x i => Host.gather gather_S100000x128_S400000x1_S400000x128_1_0_n_n_0_1_1128 x i) : (⟨S100000x128, .f32⟩ : BufTy).Contents (Elt F) → (⟨S400000x1, .i32⟩ : BufTy).Contents (Elt F) → (⟨S400000x128, .f32⟩ : BufTy).Contents (Elt F))
    :: nullary main_cst_7 (constant S_ .f32 0x00000000#32)
    :: unary main_cst_7 main_v52 (broadcastInDim S100000x128 ![] bcast_S_S100000x128 : (⟨S_, .f32⟩ : BufTy).Contents (Elt F) → (⟨S100000x128, .f32⟩ : BufTy).Contents (Elt F))
    :: unary main_v44 main_v53 (broadcastInDim S400000x1 ![0] bcast_S400000_S400000x1_0 : (⟨S400000, .i32⟩ : BufTy).Contents (Elt F) → (⟨S400000x1, .i32⟩ : BufTy).Contents (Elt F))
    :: ternary main_v52 main_v53 main_v51 main_v54 ((fun x i u => Host.scatterAdd scatter_S100000x128_S400000x1_S400000x128_1_0_0_1 x i u) : (⟨S100000x128, .f32⟩ : BufTy).Contents (Elt F) → (⟨S400000x1, .i32⟩ : BufTy).Contents (Elt F) → (⟨S400000x128, .f32⟩ : BufTy).Contents (Elt F) → (⟨S100000x128, .f32⟩ : BufTy).Contents (Elt F))
    :: nullary main_cst_8 (constant S_ .f32 0x3F800000#32)
    :: unary main_cst_8 main_v55 (broadcastInDim S400000 ![] bcast_S_S400000 : (⟨S_, .f32⟩ : BufTy).Contents (Elt F) → (⟨S400000, .f32⟩ : BufTy).Contents (Elt F))
    :: nullary main_cst_9 (constant S_ .f32 0x00000000#32)
    :: unary main_cst_9 main_v56 (broadcastInDim S100000 ![] bcast_S_S100000 : (⟨S_, .f32⟩ : BufTy).Contents (Elt F) → (⟨S100000, .f32⟩ : BufTy).Contents (Elt F))
    :: unary main_v44 main_v57 (broadcastInDim S400000x1 ![0] bcast_S400000_S400000x1_0 : (⟨S400000, .i32⟩ : BufTy).Contents (Elt F) → (⟨S400000x1, .i32⟩ : BufTy).Contents (Elt F))
    :: ternary main_v56 main_v57 main_v55 main_v58 ((fun x i u => Host.scatterAdd scatter_S100000_S400000x1_S400000_n_0_0_1 x i u) : (⟨S100000, .f32⟩ : BufTy).Contents (Elt F) → (⟨S400000x1, .i32⟩ : BufTy).Contents (Elt F) → (⟨S400000, .f32⟩ : BufTy).Contents (Elt F) → (⟨S100000, .f32⟩ : BufTy).Contents (Elt F))
    :: nullary main_cst_10 (constant S_ .f32 0x3F800000#32)
    :: unary main_cst_10 main_v59 (broadcastInDim S100000 ![] bcast_S_S100000 : (⟨S_, .f32⟩ : BufTy).Contents (Elt F) → (⟨S100000, .f32⟩ : BufTy).Contents (Elt F))
    :: binary main_v58 main_v59 main_v60 (maximumf : (⟨S100000, .f32⟩ : BufTy).Contents (Elt F) → (⟨S100000, .f32⟩ : BufTy).Contents (Elt F) → (⟨S100000, .f32⟩ : BufTy).Contents (Elt F))
    :: unary main_v60 main_v61 (broadcastInDim S100000x1 ![0] bcast_S100000_S100000x1_0 : (⟨S100000, .f32⟩ : BufTy).Contents (Elt F) → (⟨S100000x1, .f32⟩ : BufTy).Contents (Elt F))
    :: unary main_v61 main_v62 (broadcastInDim S100000x128 ![0, 1] bcast_S100000x1_S100000x128_0_1 : (⟨S100000x1, .f32⟩ : BufTy).Contents (Elt F) → (⟨S100000x128, .f32⟩ : BufTy).Contents (Elt F))
    :: binary main_v54 main_v62 main_v63 (Host.divf : (⟨S100000x128, .f32⟩ : BufTy).Contents (Elt F) → (⟨S100000x128, .f32⟩ : BufTy).Contents (Elt F) → (⟨S100000x128, .f32⟩ : BufTy).Contents (Elt F))
    :: unary main_arg2 main_v64 ((extractStridedSlice S1x1x128x128 ![0, 1, 0, 0] · slices_S2x3x128x128_S1x1x128x128_0_1_0_0) : (⟨S2x3x128x128, .f32⟩ : BufTy).Contents (Elt F) → (⟨S1x1x128x128, .f32⟩ : BufTy).Contents (Elt F))
    :: reshape main_v64 main_v65 rfl shapeCasts_S1x1x128x128_S128x128
    :: binary main_v63 main_v65 main_v66 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F))
    :: binary main_v38 main_v66 main_v67 (addf : (⟨S100000x128, .f32⟩ : BufTy).Contents (Elt F) → (⟨S100000x128, .f32⟩ : BufTy).Contents (Elt F) → (⟨S100000x128, .f32⟩ : BufTy).Contents (Elt F))
    :: unary main_arg3 main_v68 ((extractStridedSlice S1x1x128x128 ![0, 1, 0, 0] · slices_S2x3x128x128_S1x1x128x128_0_1_0_0) : (⟨S2x3x128x128, .f32⟩ : BufTy).Contents (Elt F) → (⟨S1x1x128x128, .f32⟩ : BufTy).Contents (Elt F))
    :: reshape main_v68 main_v69 rfl shapeCasts_S1x1x128x128_S128x128
    :: binary main_arg0 main_v69 main_v70 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F))
    :: binary main_v67 main_v70 main_v71 (addf : (⟨S100000x128, .f32⟩ : BufTy).Contents (Elt F) → (⟨S100000x128, .f32⟩ : BufTy).Contents (Elt F) → (⟨S100000x128, .f32⟩ : BufTy).Contents (Elt F))
    :: unary main_arg4 main_v72 ((extractStridedSlice S1x1x128 ![0, 1, 0] · slices_S2x3x128_S1x1x128_0_1_0) : (⟨S2x3x128, .f32⟩ : BufTy).Contents (Elt F) → (⟨S1x1x128, .f32⟩ : BufTy).Contents (Elt F))
    :: reshape main_v72 main_v73 rfl shapeCasts_S1x1x128_S128
    :: unary main_v73 main_v74 (broadcastInDim S1x128 ![1] bcast_S128_S1x128_1 : (⟨S128, .f32⟩ : BufTy).Contents (Elt F) → (⟨S1x128, .f32⟩ : BufTy).Contents (Elt F))
    :: unary main_v74 main_v75 (broadcastInDim S100000x128 ![0, 1] bcast_S1x128_S100000x128_0_1 : (⟨S1x128, .f32⟩ : BufTy).Contents (Elt F) → (⟨S100000x128, .f32⟩ : BufTy).Contents (Elt F))
    :: binary main_v71 main_v75 main_v76 (addf : (⟨S100000x128, .f32⟩ : BufTy).Contents (Elt F) → (⟨S100000x128, .f32⟩ : BufTy).Contents (Elt F) → (⟨S100000x128, .f32⟩ : BufTy).Contents (Elt F))
    :: unary main_arg1 main_v77 ((extractStridedSlice S1x2x400000 ![2, 0, 0] · slices_S3x2x400000_S1x2x400000_2_0_0) : (⟨S3x2x400000, .i32⟩ : BufTy).Contents (Elt F) → (⟨S1x2x400000, .i32⟩ : BufTy).Contents (Elt F))
    :: reshape main_v77 main_v78 rfl shapeCasts_S1x2x400000_S2x400000
    :: unary main_v78 main_v79 ((extractStridedSlice S1x400000 ![0, 0] · slices_S2x400000_S1x400000_0_0) : (⟨S2x400000, .i32⟩ : BufTy).Contents (Elt F) → (⟨S1x400000, .i32⟩ : BufTy).Contents (Elt F))
    :: reshape main_v79 main_v80 rfl shapeCasts_S1x400000_S400000
    :: unary main_v78 main_v81 ((extractStridedSlice S1x400000 ![1, 0] · slices_S2x400000_S1x400000_1_0) : (⟨S2x400000, .i32⟩ : BufTy).Contents (Elt F) → (⟨S1x400000, .i32⟩ : BufTy).Contents (Elt F))
    :: reshape main_v81 main_v82 rfl shapeCasts_S1x400000_S400000
    :: nullary main_c_11 (constantI S_ 32 0#32)
    :: unary main_c_11 main_v83 (broadcastInDim S400000 ![] bcast_S_S400000 : (⟨S_, .i32⟩ : BufTy).Contents (Elt F) → (⟨S400000, .i32⟩ : BufTy).Contents (Elt F))
    :: binary main_v80 main_v83 main_v84 (cmpi .slt : (⟨S400000, .i32⟩ : BufTy).Contents (Elt F) → (⟨S400000, .i32⟩ : BufTy).Contents (Elt F) → (⟨S400000, .i1⟩ : BufTy).Contents (Elt F))
    :: nullary main_c_12 (constantI S_ 32 100000#32)
    :: unary main_c_12 main_v85 (broadcastInDim S400000 ![] bcast_S_S400000 : (⟨S_, .i32⟩ : BufTy).Contents (Elt F) → (⟨S400000, .i32⟩ : BufTy).Contents (Elt F))
    :: binary main_v80 main_v85 main_v86 (addi : (⟨S400000, .i32⟩ : BufTy).Contents (Elt F) → (⟨S400000, .i32⟩ : BufTy).Contents (Elt F) → (⟨S400000, .i32⟩ : BufTy).Contents (Elt F))
    :: ternary main_v84 main_v86 main_v80 main_v87 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F))
    :: unary main_v87 main_v88 (broadcastInDim S400000x1 ![0] bcast_S400000_S400000x1_0 : (⟨S400000, .i32⟩ : BufTy).Contents (Elt F) → (⟨S400000x1, .i32⟩ : BufTy).Contents (Elt F))
    :: binary main_arg0 main_v88 main_v89 ((fun x i => Host.gather gather_S100000x128_S400000x1_S400000x128_1_0_n_n_0_1_1128 x i) : (⟨S100000x128, .f32⟩ : BufTy).Contents (Elt F) → (⟨S400000x1, .i32⟩ : BufTy).Contents (Elt F) → (⟨S400000x128, .f32⟩ : BufTy).Contents (Elt F))
    :: nullary main_cst_13 (constant S_ .f32 0x00000000#32)
    :: unary main_cst_13 main_v90 (broadcastInDim S100000x128 ![] bcast_S_S100000x128 : (⟨S_, .f32⟩ : BufTy).Contents (Elt F) → (⟨S100000x128, .f32⟩ : BufTy).Contents (Elt F))
    :: unary main_v82 main_v91 (broadcastInDim S400000x1 ![0] bcast_S400000_S400000x1_0 : (⟨S400000, .i32⟩ : BufTy).Contents (Elt F) → (⟨S400000x1, .i32⟩ : BufTy).Contents (Elt F))
    :: ternary main_v90 main_v91 main_v89 main_v92 ((fun x i u => Host.scatterAdd scatter_S100000x128_S400000x1_S400000x128_1_0_0_1 x i u) : (⟨S100000x128, .f32⟩ : BufTy).Contents (Elt F) → (⟨S400000x1, .i32⟩ : BufTy).Contents (Elt F) → (⟨S400000x128, .f32⟩ : BufTy).Contents (Elt F) → (⟨S100000x128, .f32⟩ : BufTy).Contents (Elt F))
    :: nullary main_cst_14 (constant S_ .f32 0x3F800000#32)
    :: unary main_cst_14 main_v93 (broadcastInDim S400000 ![] bcast_S_S400000 : (⟨S_, .f32⟩ : BufTy).Contents (Elt F) → (⟨S400000, .f32⟩ : BufTy).Contents (Elt F))
    :: nullary main_cst_15 (constant S_ .f32 0x00000000#32)
    :: unary main_cst_15 main_v94 (broadcastInDim S100000 ![] bcast_S_S100000 : (⟨S_, .f32⟩ : BufTy).Contents (Elt F) → (⟨S100000, .f32⟩ : BufTy).Contents (Elt F))
    :: unary main_v82 main_v95 (broadcastInDim S400000x1 ![0] bcast_S400000_S400000x1_0 : (⟨S400000, .i32⟩ : BufTy).Contents (Elt F) → (⟨S400000x1, .i32⟩ : BufTy).Contents (Elt F))
    :: ternary main_v94 main_v95 main_v93 main_v96 ((fun x i u => Host.scatterAdd scatter_S100000_S400000x1_S400000_n_0_0_1 x i u) : (⟨S100000, .f32⟩ : BufTy).Contents (Elt F) → (⟨S400000x1, .i32⟩ : BufTy).Contents (Elt F) → (⟨S400000, .f32⟩ : BufTy).Contents (Elt F) → (⟨S100000, .f32⟩ : BufTy).Contents (Elt F))
    :: nullary main_cst_16 (constant S_ .f32 0x3F800000#32)
    :: unary main_cst_16 main_v97 (broadcastInDim S100000 ![] bcast_S_S100000 : (⟨S_, .f32⟩ : BufTy).Contents (Elt F) → (⟨S100000, .f32⟩ : BufTy).Contents (Elt F))
    :: binary main_v96 main_v97 main_v98 (maximumf : (⟨S100000, .f32⟩ : BufTy).Contents (Elt F) → (⟨S100000, .f32⟩ : BufTy).Contents (Elt F) → (⟨S100000, .f32⟩ : BufTy).Contents (Elt F))
    :: unary main_v98 main_v99 (broadcastInDim S100000x1 ![0] bcast_S100000_S100000x1_0 : (⟨S100000, .f32⟩ : BufTy).Contents (Elt F) → (⟨S100000x1, .f32⟩ : BufTy).Contents (Elt F))
    :: unary main_v99 main_v100 (broadcastInDim S100000x128 ![0, 1] bcast_S100000x1_S100000x128_0_1 : (⟨S100000x1, .f32⟩ : BufTy).Contents (Elt F) → (⟨S100000x128, .f32⟩ : BufTy).Contents (Elt F))
    :: binary main_v92 main_v100 main_v101 (Host.divf : (⟨S100000x128, .f32⟩ : BufTy).Contents (Elt F) → (⟨S100000x128, .f32⟩ : BufTy).Contents (Elt F) → (⟨S100000x128, .f32⟩ : BufTy).Contents (Elt F))
    :: unary main_arg2 main_v102 ((extractStridedSlice S1x1x128x128 ![0, 2, 0, 0] · slices_S2x3x128x128_S1x1x128x128_0_2_0_0) : (⟨S2x3x128x128, .f32⟩ : BufTy).Contents (Elt F) → (⟨S1x1x128x128, .f32⟩ : BufTy).Contents (Elt F))
    :: reshape main_v102 main_v103 rfl shapeCasts_S1x1x128x128_S128x128
    :: binary main_v101 main_v103 main_v104 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F))
    :: binary main_v76 main_v104 main_v105 (addf : (⟨S100000x128, .f32⟩ : BufTy).Contents (Elt F) → (⟨S100000x128, .f32⟩ : BufTy).Contents (Elt F) → (⟨S100000x128, .f32⟩ : BufTy).Contents (Elt F))
    :: unary main_arg3 main_v106 ((extractStridedSlice S1x1x128x128 ![0, 2, 0, 0] · slices_S2x3x128x128_S1x1x128x128_0_2_0_0) : (⟨S2x3x128x128, .f32⟩ : BufTy).Contents (Elt F) → (⟨S1x1x128x128, .f32⟩ : BufTy).Contents (Elt F))
    :: reshape main_v106 main_v107 rfl shapeCasts_S1x1x128x128_S128x128
    :: binary main_arg0 main_v107 main_v108 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F))
    :: binary main_v105 main_v108 main_v109 (addf : (⟨S100000x128, .f32⟩ : BufTy).Contents (Elt F) → (⟨S100000x128, .f32⟩ : BufTy).Contents (Elt F) → (⟨S100000x128, .f32⟩ : BufTy).Contents (Elt F))
    :: unary main_arg4 main_v110 ((extractStridedSlice S1x1x128 ![0, 2, 0] · slices_S2x3x128_S1x1x128_0_2_0) : (⟨S2x3x128, .f32⟩ : BufTy).Contents (Elt F) → (⟨S1x1x128, .f32⟩ : BufTy).Contents (Elt F))
    :: reshape main_v110 main_v111 rfl shapeCasts_S1x1x128_S128
    :: unary main_v111 main_v112 (broadcastInDim S1x128 ![1] bcast_S128_S1x128_1 : (⟨S128, .f32⟩ : BufTy).Contents (Elt F) → (⟨S1x128, .f32⟩ : BufTy).Contents (Elt F))
    :: unary main_v112 main_v113 (broadcastInDim S100000x128 ![0, 1] bcast_S1x128_S100000x128_0_1 : (⟨S1x128, .f32⟩ : BufTy).Contents (Elt F) → (⟨S100000x128, .f32⟩ : BufTy).Contents (Elt F))
    :: binary main_v109 main_v113 main_v114 (addf : (⟨S100000x128, .f32⟩ : BufTy).Contents (Elt F) → (⟨S100000x128, .f32⟩ : BufTy).Contents (Elt F) → (⟨S100000x128, .f32⟩ : BufTy).Contents (Elt F))
    :: TRef.nullary (TRef.of (T := ⟨S_, .f32⟩) main_call0_cst) (constant S_ .f32 0x00000000#32)
    :: TRef.unary (TRef.of (T := ⟨S_, .f32⟩) main_call0_cst) (TRef.of (T := ⟨S100000x128, .f32⟩) main_call0_v0) (broadcastInDim S100000x128 ![] bcast_S_S100000x128)
    :: TRef.binary (TRef.of (T := ⟨S100000x128, .f32⟩) main_v114) (TRef.of (T := ⟨S100000x128, .f32⟩) main_call0_v0) (TRef.of (T := ⟨S100000x128, .f32⟩) main_v115) maximumf
    :: [] )

set_option maxHeartbeats 40000000 in
/-- The operations after the first layer's output. -/
abbrev opsB : List (HloOp τ sig (Elt F)) :=
  ( nullary main_cst_17 (constant S_ .f32 0x00000000#32)
    :: unary main_cst_17 main_v116 (broadcastInDim S100000x128 ![] bcast_S_S100000x128 : (⟨S_, .f32⟩ : BufTy).Contents (Elt F) → (⟨S100000x128, .f32⟩ : BufTy).Contents (Elt F))
    :: unary main_arg1 main_v117 ((extractStridedSlice S1x2x400000 ![0, 0, 0] · slices_S3x2x400000_S1x2x400000_0_0_0) : (⟨S3x2x400000, .i32⟩ : BufTy).Contents (Elt F) → (⟨S1x2x400000, .i32⟩ : BufTy).Contents (Elt F))
    :: reshape main_v117 main_v118 rfl shapeCasts_S1x2x400000_S2x400000
    :: unary main_v118 main_v119 ((extractStridedSlice S1x400000 ![0, 0] · slices_S2x400000_S1x400000_0_0) : (⟨S2x400000, .i32⟩ : BufTy).Contents (Elt F) → (⟨S1x400000, .i32⟩ : BufTy).Contents (Elt F))
    :: reshape main_v119 main_v120 rfl shapeCasts_S1x400000_S400000
    :: unary main_v118 main_v121 ((extractStridedSlice S1x400000 ![1, 0] · slices_S2x400000_S1x400000_1_0) : (⟨S2x400000, .i32⟩ : BufTy).Contents (Elt F) → (⟨S1x400000, .i32⟩ : BufTy).Contents (Elt F))
    :: reshape main_v121 main_v122 rfl shapeCasts_S1x400000_S400000
    :: nullary main_c_18 (constantI S_ 32 0#32)
    :: unary main_c_18 main_v123 (broadcastInDim S400000 ![] bcast_S_S400000 : (⟨S_, .i32⟩ : BufTy).Contents (Elt F) → (⟨S400000, .i32⟩ : BufTy).Contents (Elt F))
    :: binary main_v120 main_v123 main_v124 (cmpi .slt : (⟨S400000, .i32⟩ : BufTy).Contents (Elt F) → (⟨S400000, .i32⟩ : BufTy).Contents (Elt F) → (⟨S400000, .i1⟩ : BufTy).Contents (Elt F))
    :: nullary main_c_19 (constantI S_ 32 100000#32)
    :: unary main_c_19 main_v125 (broadcastInDim S400000 ![] bcast_S_S400000 : (⟨S_, .i32⟩ : BufTy).Contents (Elt F) → (⟨S400000, .i32⟩ : BufTy).Contents (Elt F))
    :: binary main_v120 main_v125 main_v126 (addi : (⟨S400000, .i32⟩ : BufTy).Contents (Elt F) → (⟨S400000, .i32⟩ : BufTy).Contents (Elt F) → (⟨S400000, .i32⟩ : BufTy).Contents (Elt F))
    :: ternary main_v124 main_v126 main_v120 main_v127 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F))
    :: unary main_v127 main_v128 (broadcastInDim S400000x1 ![0] bcast_S400000_S400000x1_0 : (⟨S400000, .i32⟩ : BufTy).Contents (Elt F) → (⟨S400000x1, .i32⟩ : BufTy).Contents (Elt F))
    :: binary main_v115 main_v128 main_v129 ((fun x i => Host.gather gather_S100000x128_S400000x1_S400000x128_1_0_n_n_0_1_1128 x i) : (⟨S100000x128, .f32⟩ : BufTy).Contents (Elt F) → (⟨S400000x1, .i32⟩ : BufTy).Contents (Elt F) → (⟨S400000x128, .f32⟩ : BufTy).Contents (Elt F))
    :: nullary main_cst_20 (constant S_ .f32 0x00000000#32)
    :: unary main_cst_20 main_v130 (broadcastInDim S100000x128 ![] bcast_S_S100000x128 : (⟨S_, .f32⟩ : BufTy).Contents (Elt F) → (⟨S100000x128, .f32⟩ : BufTy).Contents (Elt F))
    :: unary main_v122 main_v131 (broadcastInDim S400000x1 ![0] bcast_S400000_S400000x1_0 : (⟨S400000, .i32⟩ : BufTy).Contents (Elt F) → (⟨S400000x1, .i32⟩ : BufTy).Contents (Elt F))
    :: ternary main_v130 main_v131 main_v129 main_v132 ((fun x i u => Host.scatterAdd scatter_S100000x128_S400000x1_S400000x128_1_0_0_1 x i u) : (⟨S100000x128, .f32⟩ : BufTy).Contents (Elt F) → (⟨S400000x1, .i32⟩ : BufTy).Contents (Elt F) → (⟨S400000x128, .f32⟩ : BufTy).Contents (Elt F) → (⟨S100000x128, .f32⟩ : BufTy).Contents (Elt F))
    :: nullary main_cst_21 (constant S_ .f32 0x3F800000#32)
    :: unary main_cst_21 main_v133 (broadcastInDim S400000 ![] bcast_S_S400000 : (⟨S_, .f32⟩ : BufTy).Contents (Elt F) → (⟨S400000, .f32⟩ : BufTy).Contents (Elt F))
    :: nullary main_cst_22 (constant S_ .f32 0x00000000#32)
    :: unary main_cst_22 main_v134 (broadcastInDim S100000 ![] bcast_S_S100000 : (⟨S_, .f32⟩ : BufTy).Contents (Elt F) → (⟨S100000, .f32⟩ : BufTy).Contents (Elt F))
    :: unary main_v122 main_v135 (broadcastInDim S400000x1 ![0] bcast_S400000_S400000x1_0 : (⟨S400000, .i32⟩ : BufTy).Contents (Elt F) → (⟨S400000x1, .i32⟩ : BufTy).Contents (Elt F))
    :: ternary main_v134 main_v135 main_v133 main_v136 ((fun x i u => Host.scatterAdd scatter_S100000_S400000x1_S400000_n_0_0_1 x i u) : (⟨S100000, .f32⟩ : BufTy).Contents (Elt F) → (⟨S400000x1, .i32⟩ : BufTy).Contents (Elt F) → (⟨S400000, .f32⟩ : BufTy).Contents (Elt F) → (⟨S100000, .f32⟩ : BufTy).Contents (Elt F))
    :: nullary main_cst_23 (constant S_ .f32 0x3F800000#32)
    :: unary main_cst_23 main_v137 (broadcastInDim S100000 ![] bcast_S_S100000 : (⟨S_, .f32⟩ : BufTy).Contents (Elt F) → (⟨S100000, .f32⟩ : BufTy).Contents (Elt F))
    :: binary main_v136 main_v137 main_v138 (maximumf : (⟨S100000, .f32⟩ : BufTy).Contents (Elt F) → (⟨S100000, .f32⟩ : BufTy).Contents (Elt F) → (⟨S100000, .f32⟩ : BufTy).Contents (Elt F))
    :: unary main_v138 main_v139 (broadcastInDim S100000x1 ![0] bcast_S100000_S100000x1_0 : (⟨S100000, .f32⟩ : BufTy).Contents (Elt F) → (⟨S100000x1, .f32⟩ : BufTy).Contents (Elt F))
    :: unary main_v139 main_v140 (broadcastInDim S100000x128 ![0, 1] bcast_S100000x1_S100000x128_0_1 : (⟨S100000x1, .f32⟩ : BufTy).Contents (Elt F) → (⟨S100000x128, .f32⟩ : BufTy).Contents (Elt F))
    :: binary main_v132 main_v140 main_v141 (Host.divf : (⟨S100000x128, .f32⟩ : BufTy).Contents (Elt F) → (⟨S100000x128, .f32⟩ : BufTy).Contents (Elt F) → (⟨S100000x128, .f32⟩ : BufTy).Contents (Elt F))
    :: unary main_arg2 main_v142 ((extractStridedSlice S1x1x128x128 ![1, 0, 0, 0] · slices_S2x3x128x128_S1x1x128x128_1_0_0_0) : (⟨S2x3x128x128, .f32⟩ : BufTy).Contents (Elt F) → (⟨S1x1x128x128, .f32⟩ : BufTy).Contents (Elt F))
    :: reshape main_v142 main_v143 rfl shapeCasts_S1x1x128x128_S128x128
    :: binary main_v141 main_v143 main_v144 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F))
    :: binary main_v116 main_v144 main_v145 (addf : (⟨S100000x128, .f32⟩ : BufTy).Contents (Elt F) → (⟨S100000x128, .f32⟩ : BufTy).Contents (Elt F) → (⟨S100000x128, .f32⟩ : BufTy).Contents (Elt F))
    :: unary main_arg3 main_v146 ((extractStridedSlice S1x1x128x128 ![1, 0, 0, 0] · slices_S2x3x128x128_S1x1x128x128_1_0_0_0) : (⟨S2x3x128x128, .f32⟩ : BufTy).Contents (Elt F) → (⟨S1x1x128x128, .f32⟩ : BufTy).Contents (Elt F))
    :: reshape main_v146 main_v147 rfl shapeCasts_S1x1x128x128_S128x128
    :: binary main_v115 main_v147 main_v148 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F))
    :: binary main_v145 main_v148 main_v149 (addf : (⟨S100000x128, .f32⟩ : BufTy).Contents (Elt F) → (⟨S100000x128, .f32⟩ : BufTy).Contents (Elt F) → (⟨S100000x128, .f32⟩ : BufTy).Contents (Elt F))
    :: unary main_arg4 main_v150 ((extractStridedSlice S1x1x128 ![1, 0, 0] · slices_S2x3x128_S1x1x128_1_0_0) : (⟨S2x3x128, .f32⟩ : BufTy).Contents (Elt F) → (⟨S1x1x128, .f32⟩ : BufTy).Contents (Elt F))
    :: reshape main_v150 main_v151 rfl shapeCasts_S1x1x128_S128
    :: unary main_v151 main_v152 (broadcastInDim S1x128 ![1] bcast_S128_S1x128_1 : (⟨S128, .f32⟩ : BufTy).Contents (Elt F) → (⟨S1x128, .f32⟩ : BufTy).Contents (Elt F))
    :: unary main_v152 main_v153 (broadcastInDim S100000x128 ![0, 1] bcast_S1x128_S100000x128_0_1 : (⟨S1x128, .f32⟩ : BufTy).Contents (Elt F) → (⟨S100000x128, .f32⟩ : BufTy).Contents (Elt F))
    :: binary main_v149 main_v153 main_v154 (addf : (⟨S100000x128, .f32⟩ : BufTy).Contents (Elt F) → (⟨S100000x128, .f32⟩ : BufTy).Contents (Elt F) → (⟨S100000x128, .f32⟩ : BufTy).Contents (Elt F))
    :: unary main_arg1 main_v155 ((extractStridedSlice S1x2x400000 ![1, 0, 0] · slices_S3x2x400000_S1x2x400000_1_0_0) : (⟨S3x2x400000, .i32⟩ : BufTy).Contents (Elt F) → (⟨S1x2x400000, .i32⟩ : BufTy).Contents (Elt F))
    :: reshape main_v155 main_v156 rfl shapeCasts_S1x2x400000_S2x400000
    :: unary main_v156 main_v157 ((extractStridedSlice S1x400000 ![0, 0] · slices_S2x400000_S1x400000_0_0) : (⟨S2x400000, .i32⟩ : BufTy).Contents (Elt F) → (⟨S1x400000, .i32⟩ : BufTy).Contents (Elt F))
    :: reshape main_v157 main_v158 rfl shapeCasts_S1x400000_S400000
    :: unary main_v156 main_v159 ((extractStridedSlice S1x400000 ![1, 0] · slices_S2x400000_S1x400000_1_0) : (⟨S2x400000, .i32⟩ : BufTy).Contents (Elt F) → (⟨S1x400000, .i32⟩ : BufTy).Contents (Elt F))
    :: reshape main_v159 main_v160 rfl shapeCasts_S1x400000_S400000
    :: nullary main_c_24 (constantI S_ 32 0#32)
    :: unary main_c_24 main_v161 (broadcastInDim S400000 ![] bcast_S_S400000 : (⟨S_, .i32⟩ : BufTy).Contents (Elt F) → (⟨S400000, .i32⟩ : BufTy).Contents (Elt F))
    :: binary main_v158 main_v161 main_v162 (cmpi .slt : (⟨S400000, .i32⟩ : BufTy).Contents (Elt F) → (⟨S400000, .i32⟩ : BufTy).Contents (Elt F) → (⟨S400000, .i1⟩ : BufTy).Contents (Elt F))
    :: nullary main_c_25 (constantI S_ 32 100000#32)
    :: unary main_c_25 main_v163 (broadcastInDim S400000 ![] bcast_S_S400000 : (⟨S_, .i32⟩ : BufTy).Contents (Elt F) → (⟨S400000, .i32⟩ : BufTy).Contents (Elt F))
    :: binary main_v158 main_v163 main_v164 (addi : (⟨S400000, .i32⟩ : BufTy).Contents (Elt F) → (⟨S400000, .i32⟩ : BufTy).Contents (Elt F) → (⟨S400000, .i32⟩ : BufTy).Contents (Elt F))
    :: ternary main_v162 main_v164 main_v158 main_v165 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F))
    :: unary main_v165 main_v166 (broadcastInDim S400000x1 ![0] bcast_S400000_S400000x1_0 : (⟨S400000, .i32⟩ : BufTy).Contents (Elt F) → (⟨S400000x1, .i32⟩ : BufTy).Contents (Elt F))
    :: binary main_v115 main_v166 main_v167 ((fun x i => Host.gather gather_S100000x128_S400000x1_S400000x128_1_0_n_n_0_1_1128 x i) : (⟨S100000x128, .f32⟩ : BufTy).Contents (Elt F) → (⟨S400000x1, .i32⟩ : BufTy).Contents (Elt F) → (⟨S400000x128, .f32⟩ : BufTy).Contents (Elt F))
    :: nullary main_cst_26 (constant S_ .f32 0x00000000#32)
    :: unary main_cst_26 main_v168 (broadcastInDim S100000x128 ![] bcast_S_S100000x128 : (⟨S_, .f32⟩ : BufTy).Contents (Elt F) → (⟨S100000x128, .f32⟩ : BufTy).Contents (Elt F))
    :: unary main_v160 main_v169 (broadcastInDim S400000x1 ![0] bcast_S400000_S400000x1_0 : (⟨S400000, .i32⟩ : BufTy).Contents (Elt F) → (⟨S400000x1, .i32⟩ : BufTy).Contents (Elt F))
    :: ternary main_v168 main_v169 main_v167 main_v170 ((fun x i u => Host.scatterAdd scatter_S100000x128_S400000x1_S400000x128_1_0_0_1 x i u) : (⟨S100000x128, .f32⟩ : BufTy).Contents (Elt F) → (⟨S400000x1, .i32⟩ : BufTy).Contents (Elt F) → (⟨S400000x128, .f32⟩ : BufTy).Contents (Elt F) → (⟨S100000x128, .f32⟩ : BufTy).Contents (Elt F))
    :: nullary main_cst_27 (constant S_ .f32 0x3F800000#32)
    :: unary main_cst_27 main_v171 (broadcastInDim S400000 ![] bcast_S_S400000 : (⟨S_, .f32⟩ : BufTy).Contents (Elt F) → (⟨S400000, .f32⟩ : BufTy).Contents (Elt F))
    :: nullary main_cst_28 (constant S_ .f32 0x00000000#32)
    :: unary main_cst_28 main_v172 (broadcastInDim S100000 ![] bcast_S_S100000 : (⟨S_, .f32⟩ : BufTy).Contents (Elt F) → (⟨S100000, .f32⟩ : BufTy).Contents (Elt F))
    :: unary main_v160 main_v173 (broadcastInDim S400000x1 ![0] bcast_S400000_S400000x1_0 : (⟨S400000, .i32⟩ : BufTy).Contents (Elt F) → (⟨S400000x1, .i32⟩ : BufTy).Contents (Elt F))
    :: ternary main_v172 main_v173 main_v171 main_v174 ((fun x i u => Host.scatterAdd scatter_S100000_S400000x1_S400000_n_0_0_1 x i u) : (⟨S100000, .f32⟩ : BufTy).Contents (Elt F) → (⟨S400000x1, .i32⟩ : BufTy).Contents (Elt F) → (⟨S400000, .f32⟩ : BufTy).Contents (Elt F) → (⟨S100000, .f32⟩ : BufTy).Contents (Elt F))
    :: nullary main_cst_29 (constant S_ .f32 0x3F800000#32)
    :: unary main_cst_29 main_v175 (broadcastInDim S100000 ![] bcast_S_S100000 : (⟨S_, .f32⟩ : BufTy).Contents (Elt F) → (⟨S100000, .f32⟩ : BufTy).Contents (Elt F))
    :: binary main_v174 main_v175 main_v176 (maximumf : (⟨S100000, .f32⟩ : BufTy).Contents (Elt F) → (⟨S100000, .f32⟩ : BufTy).Contents (Elt F) → (⟨S100000, .f32⟩ : BufTy).Contents (Elt F))
    :: unary main_v176 main_v177 (broadcastInDim S100000x1 ![0] bcast_S100000_S100000x1_0 : (⟨S100000, .f32⟩ : BufTy).Contents (Elt F) → (⟨S100000x1, .f32⟩ : BufTy).Contents (Elt F))
    :: unary main_v177 main_v178 (broadcastInDim S100000x128 ![0, 1] bcast_S100000x1_S100000x128_0_1 : (⟨S100000x1, .f32⟩ : BufTy).Contents (Elt F) → (⟨S100000x128, .f32⟩ : BufTy).Contents (Elt F))
    :: binary main_v170 main_v178 main_v179 (Host.divf : (⟨S100000x128, .f32⟩ : BufTy).Contents (Elt F) → (⟨S100000x128, .f32⟩ : BufTy).Contents (Elt F) → (⟨S100000x128, .f32⟩ : BufTy).Contents (Elt F))
    :: unary main_arg2 main_v180 ((extractStridedSlice S1x1x128x128 ![1, 1, 0, 0] · slices_S2x3x128x128_S1x1x128x128_1_1_0_0) : (⟨S2x3x128x128, .f32⟩ : BufTy).Contents (Elt F) → (⟨S1x1x128x128, .f32⟩ : BufTy).Contents (Elt F))
    :: reshape main_v180 main_v181 rfl shapeCasts_S1x1x128x128_S128x128
    :: binary main_v179 main_v181 main_v182 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F))
    :: binary main_v154 main_v182 main_v183 (addf : (⟨S100000x128, .f32⟩ : BufTy).Contents (Elt F) → (⟨S100000x128, .f32⟩ : BufTy).Contents (Elt F) → (⟨S100000x128, .f32⟩ : BufTy).Contents (Elt F))
    :: unary main_arg3 main_v184 ((extractStridedSlice S1x1x128x128 ![1, 1, 0, 0] · slices_S2x3x128x128_S1x1x128x128_1_1_0_0) : (⟨S2x3x128x128, .f32⟩ : BufTy).Contents (Elt F) → (⟨S1x1x128x128, .f32⟩ : BufTy).Contents (Elt F))
    :: reshape main_v184 main_v185 rfl shapeCasts_S1x1x128x128_S128x128
    :: binary main_v115 main_v185 main_v186 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F))
    :: binary main_v183 main_v186 main_v187 (addf : (⟨S100000x128, .f32⟩ : BufTy).Contents (Elt F) → (⟨S100000x128, .f32⟩ : BufTy).Contents (Elt F) → (⟨S100000x128, .f32⟩ : BufTy).Contents (Elt F))
    :: unary main_arg4 main_v188 ((extractStridedSlice S1x1x128 ![1, 1, 0] · slices_S2x3x128_S1x1x128_1_1_0) : (⟨S2x3x128, .f32⟩ : BufTy).Contents (Elt F) → (⟨S1x1x128, .f32⟩ : BufTy).Contents (Elt F))
    :: reshape main_v188 main_v189 rfl shapeCasts_S1x1x128_S128
    :: unary main_v189 main_v190 (broadcastInDim S1x128 ![1] bcast_S128_S1x128_1 : (⟨S128, .f32⟩ : BufTy).Contents (Elt F) → (⟨S1x128, .f32⟩ : BufTy).Contents (Elt F))
    :: unary main_v190 main_v191 (broadcastInDim S100000x128 ![0, 1] bcast_S1x128_S100000x128_0_1 : (⟨S1x128, .f32⟩ : BufTy).Contents (Elt F) → (⟨S100000x128, .f32⟩ : BufTy).Contents (Elt F))
    :: binary main_v187 main_v191 main_v192 (addf : (⟨S100000x128, .f32⟩ : BufTy).Contents (Elt F) → (⟨S100000x128, .f32⟩ : BufTy).Contents (Elt F) → (⟨S100000x128, .f32⟩ : BufTy).Contents (Elt F))
    :: unary main_arg1 main_v193 ((extractStridedSlice S1x2x400000 ![2, 0, 0] · slices_S3x2x400000_S1x2x400000_2_0_0) : (⟨S3x2x400000, .i32⟩ : BufTy).Contents (Elt F) → (⟨S1x2x400000, .i32⟩ : BufTy).Contents (Elt F))
    :: reshape main_v193 main_v194 rfl shapeCasts_S1x2x400000_S2x400000
    :: unary main_v194 main_v195 ((extractStridedSlice S1x400000 ![0, 0] · slices_S2x400000_S1x400000_0_0) : (⟨S2x400000, .i32⟩ : BufTy).Contents (Elt F) → (⟨S1x400000, .i32⟩ : BufTy).Contents (Elt F))
    :: reshape main_v195 main_v196 rfl shapeCasts_S1x400000_S400000
    :: unary main_v194 main_v197 ((extractStridedSlice S1x400000 ![1, 0] · slices_S2x400000_S1x400000_1_0) : (⟨S2x400000, .i32⟩ : BufTy).Contents (Elt F) → (⟨S1x400000, .i32⟩ : BufTy).Contents (Elt F))
    :: reshape main_v197 main_v198 rfl shapeCasts_S1x400000_S400000
    :: nullary main_c_30 (constantI S_ 32 0#32)
    :: unary main_c_30 main_v199 (broadcastInDim S400000 ![] bcast_S_S400000 : (⟨S_, .i32⟩ : BufTy).Contents (Elt F) → (⟨S400000, .i32⟩ : BufTy).Contents (Elt F))
    :: binary main_v196 main_v199 main_v200 (cmpi .slt : (⟨S400000, .i32⟩ : BufTy).Contents (Elt F) → (⟨S400000, .i32⟩ : BufTy).Contents (Elt F) → (⟨S400000, .i1⟩ : BufTy).Contents (Elt F))
    :: nullary main_c_31 (constantI S_ 32 100000#32)
    :: unary main_c_31 main_v201 (broadcastInDim S400000 ![] bcast_S_S400000 : (⟨S_, .i32⟩ : BufTy).Contents (Elt F) → (⟨S400000, .i32⟩ : BufTy).Contents (Elt F))
    :: binary main_v196 main_v201 main_v202 (addi : (⟨S400000, .i32⟩ : BufTy).Contents (Elt F) → (⟨S400000, .i32⟩ : BufTy).Contents (Elt F) → (⟨S400000, .i32⟩ : BufTy).Contents (Elt F))
    :: ternary main_v200 main_v202 main_v196 main_v203 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F))
    :: unary main_v203 main_v204 (broadcastInDim S400000x1 ![0] bcast_S400000_S400000x1_0 : (⟨S400000, .i32⟩ : BufTy).Contents (Elt F) → (⟨S400000x1, .i32⟩ : BufTy).Contents (Elt F))
    :: binary main_v115 main_v204 main_v205 ((fun x i => Host.gather gather_S100000x128_S400000x1_S400000x128_1_0_n_n_0_1_1128 x i) : (⟨S100000x128, .f32⟩ : BufTy).Contents (Elt F) → (⟨S400000x1, .i32⟩ : BufTy).Contents (Elt F) → (⟨S400000x128, .f32⟩ : BufTy).Contents (Elt F))
    :: nullary main_cst_32 (constant S_ .f32 0x00000000#32)
    :: unary main_cst_32 main_v206 (broadcastInDim S100000x128 ![] bcast_S_S100000x128 : (⟨S_, .f32⟩ : BufTy).Contents (Elt F) → (⟨S100000x128, .f32⟩ : BufTy).Contents (Elt F))
    :: unary main_v198 main_v207 (broadcastInDim S400000x1 ![0] bcast_S400000_S400000x1_0 : (⟨S400000, .i32⟩ : BufTy).Contents (Elt F) → (⟨S400000x1, .i32⟩ : BufTy).Contents (Elt F))
    :: ternary main_v206 main_v207 main_v205 main_v208 ((fun x i u => Host.scatterAdd scatter_S100000x128_S400000x1_S400000x128_1_0_0_1 x i u) : (⟨S100000x128, .f32⟩ : BufTy).Contents (Elt F) → (⟨S400000x1, .i32⟩ : BufTy).Contents (Elt F) → (⟨S400000x128, .f32⟩ : BufTy).Contents (Elt F) → (⟨S100000x128, .f32⟩ : BufTy).Contents (Elt F))
    :: nullary main_cst_33 (constant S_ .f32 0x3F800000#32)
    :: unary main_cst_33 main_v209 (broadcastInDim S400000 ![] bcast_S_S400000 : (⟨S_, .f32⟩ : BufTy).Contents (Elt F) → (⟨S400000, .f32⟩ : BufTy).Contents (Elt F))
    :: nullary main_cst_34 (constant S_ .f32 0x00000000#32)
    :: unary main_cst_34 main_v210 (broadcastInDim S100000 ![] bcast_S_S100000 : (⟨S_, .f32⟩ : BufTy).Contents (Elt F) → (⟨S100000, .f32⟩ : BufTy).Contents (Elt F))
    :: unary main_v198 main_v211 (broadcastInDim S400000x1 ![0] bcast_S400000_S400000x1_0 : (⟨S400000, .i32⟩ : BufTy).Contents (Elt F) → (⟨S400000x1, .i32⟩ : BufTy).Contents (Elt F))
    :: ternary main_v210 main_v211 main_v209 main_v212 ((fun x i u => Host.scatterAdd scatter_S100000_S400000x1_S400000_n_0_0_1 x i u) : (⟨S100000, .f32⟩ : BufTy).Contents (Elt F) → (⟨S400000x1, .i32⟩ : BufTy).Contents (Elt F) → (⟨S400000, .f32⟩ : BufTy).Contents (Elt F) → (⟨S100000, .f32⟩ : BufTy).Contents (Elt F))
    :: nullary main_cst_35 (constant S_ .f32 0x3F800000#32)
    :: unary main_cst_35 main_v213 (broadcastInDim S100000 ![] bcast_S_S100000 : (⟨S_, .f32⟩ : BufTy).Contents (Elt F) → (⟨S100000, .f32⟩ : BufTy).Contents (Elt F))
    :: binary main_v212 main_v213 main_v214 (maximumf : (⟨S100000, .f32⟩ : BufTy).Contents (Elt F) → (⟨S100000, .f32⟩ : BufTy).Contents (Elt F) → (⟨S100000, .f32⟩ : BufTy).Contents (Elt F))
    :: unary main_v214 main_v215 (broadcastInDim S100000x1 ![0] bcast_S100000_S100000x1_0 : (⟨S100000, .f32⟩ : BufTy).Contents (Elt F) → (⟨S100000x1, .f32⟩ : BufTy).Contents (Elt F))
    :: unary main_v215 main_v216 (broadcastInDim S100000x128 ![0, 1] bcast_S100000x1_S100000x128_0_1 : (⟨S100000x1, .f32⟩ : BufTy).Contents (Elt F) → (⟨S100000x128, .f32⟩ : BufTy).Contents (Elt F))
    :: binary main_v208 main_v216 main_v217 (Host.divf : (⟨S100000x128, .f32⟩ : BufTy).Contents (Elt F) → (⟨S100000x128, .f32⟩ : BufTy).Contents (Elt F) → (⟨S100000x128, .f32⟩ : BufTy).Contents (Elt F))
    :: unary main_arg2 main_v218 ((extractStridedSlice S1x1x128x128 ![1, 2, 0, 0] · slices_S2x3x128x128_S1x1x128x128_1_2_0_0) : (⟨S2x3x128x128, .f32⟩ : BufTy).Contents (Elt F) → (⟨S1x1x128x128, .f32⟩ : BufTy).Contents (Elt F))
    :: reshape main_v218 main_v219 rfl shapeCasts_S1x1x128x128_S128x128
    :: binary main_v217 main_v219 main_v220 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F))
    :: binary main_v192 main_v220 main_v221 (addf : (⟨S100000x128, .f32⟩ : BufTy).Contents (Elt F) → (⟨S100000x128, .f32⟩ : BufTy).Contents (Elt F) → (⟨S100000x128, .f32⟩ : BufTy).Contents (Elt F))
    :: unary main_arg3 main_v222 ((extractStridedSlice S1x1x128x128 ![1, 2, 0, 0] · slices_S2x3x128x128_S1x1x128x128_1_2_0_0) : (⟨S2x3x128x128, .f32⟩ : BufTy).Contents (Elt F) → (⟨S1x1x128x128, .f32⟩ : BufTy).Contents (Elt F))
    :: reshape main_v222 main_v223 rfl shapeCasts_S1x1x128x128_S128x128
    :: binary main_v115 main_v223 main_v224 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F))
    :: binary main_v221 main_v224 main_v225 (addf : (⟨S100000x128, .f32⟩ : BufTy).Contents (Elt F) → (⟨S100000x128, .f32⟩ : BufTy).Contents (Elt F) → (⟨S100000x128, .f32⟩ : BufTy).Contents (Elt F))
    :: unary main_arg4 main_v226 ((extractStridedSlice S1x1x128 ![1, 2, 0] · slices_S2x3x128_S1x1x128_1_2_0) : (⟨S2x3x128, .f32⟩ : BufTy).Contents (Elt F) → (⟨S1x1x128, .f32⟩ : BufTy).Contents (Elt F))
    :: reshape main_v226 main_v227 rfl shapeCasts_S1x1x128_S128
    :: unary main_v227 main_v228 (broadcastInDim S1x128 ![1] bcast_S128_S1x128_1 : (⟨S128, .f32⟩ : BufTy).Contents (Elt F) → (⟨S1x128, .f32⟩ : BufTy).Contents (Elt F))
    :: unary main_v228 main_v229 (broadcastInDim S100000x128 ![0, 1] bcast_S1x128_S100000x128_0_1 : (⟨S1x128, .f32⟩ : BufTy).Contents (Elt F) → (⟨S100000x128, .f32⟩ : BufTy).Contents (Elt F))
    :: binary main_v225 main_v229 main_v230 (addf : (⟨S100000x128, .f32⟩ : BufTy).Contents (Elt F) → (⟨S100000x128, .f32⟩ : BufTy).Contents (Elt F) → (⟨S100000x128, .f32⟩ : BufTy).Contents (Elt F))
    :: binary main_v230 main_arg5 main_v231 ((fun l r => Host.dotGeneral dot_S100000x128_S128x2_S100000x2_1_0_0_1_n_n none l r) : (⟨S100000x128, .f32⟩ : BufTy).Contents (Elt F) → (⟨S128x2, .f32⟩ : BufTy).Contents (Elt F) → (⟨S100000x2, .f32⟩ : BufTy).Contents (Elt F))
    :: unary main_arg6 main_v232 (broadcastInDim S1x2 ![1] bcast_S2_S1x2_1 : (⟨S2, .f32⟩ : BufTy).Contents (Elt F) → (⟨S1x2, .f32⟩ : BufTy).Contents (Elt F))
    :: unary main_v232 main_v233 (broadcastInDim S100000x2 ![0, 1] bcast_S1x2_S100000x2_0_1 : (⟨S1x2, .f32⟩ : BufTy).Contents (Elt F) → (⟨S100000x2, .f32⟩ : BufTy).Contents (Elt F))
    :: binary main_v231 main_v233 main_v234 (addf : (⟨S100000x2, .f32⟩ : BufTy).Contents (Elt F) → (⟨S100000x2, .f32⟩ : BufTy).Contents (Elt F) → (⟨S100000x2, .f32⟩ : BufTy).Contents (Elt F))
    :: [] )

end Lists

/-- The fold over a concatenation is the fold over its second part from the fold over its first. -/
theorem after_append : ∀ (l₁ l₂ : List (HloOp τ sig (Elt Ideal))) (W : Valuation τ sig (Elt Ideal)),
    after (l₁ ++ l₂) W = after l₂ (after l₁ W)
  | [], _, _ => rfl
  | op :: l₁, l₂, W => by rw [List.cons_append, after_cons, after_cons, after_append l₁ l₂]

set_option maxRecDepth 8192 in
/-- The first half leaves argument 0 as it was. -/
theorem opsA_keeps_arg0 (W : Valuation τ sig (Elt Ideal)) :
    after (opsA (F := Ideal)) W (Proc.devRef .tc main_arg0) = W (Proc.devRef .tc main_arg0) := by
  after_results_simp <;> rfl

set_option maxRecDepth 8192 in
/-- The first half leaves argument 1 as it was. -/
theorem opsA_keeps_arg1 (W : Valuation τ sig (Elt Ideal)) :
    after (opsA (F := Ideal)) W (Proc.devRef .tc main_arg1) = W (Proc.devRef .tc main_arg1) := by
  after_results_simp <;> rfl

set_option maxRecDepth 8192 in
/-- The first half leaves argument 2 as it was. -/
theorem opsA_keeps_arg2 (W : Valuation τ sig (Elt Ideal)) :
    after (opsA (F := Ideal)) W (Proc.devRef .tc main_arg2) = W (Proc.devRef .tc main_arg2) := by
  after_results_simp <;> rfl

set_option maxRecDepth 8192 in
/-- The first half leaves argument 3 as it was. -/
theorem opsA_keeps_arg3 (W : Valuation τ sig (Elt Ideal)) :
    after (opsA (F := Ideal)) W (Proc.devRef .tc main_arg3) = W (Proc.devRef .tc main_arg3) := by
  after_results_simp <;> rfl

set_option maxRecDepth 8192 in
/-- The first half leaves argument 4 as it was. -/
theorem opsA_keeps_arg4 (W : Valuation τ sig (Elt Ideal)) :
    after (opsA (F := Ideal)) W (Proc.devRef .tc main_arg4) = W (Proc.devRef .tc main_arg4) := by
  after_results_simp <;> rfl

set_option maxRecDepth 8192 in
/-- The first half leaves argument 5 as it was. -/
theorem opsA_keeps_arg5 (W : Valuation τ sig (Elt Ideal)) :
    after (opsA (F := Ideal)) W (Proc.devRef .tc main_arg5) = W (Proc.devRef .tc main_arg5) := by
  after_results_simp <;> rfl

set_option maxRecDepth 8192 in
/-- The first half leaves argument 6 as it was. -/
theorem opsA_keeps_arg6 (W : Valuation τ sig (Elt Ideal)) :
    after (opsA (F := Ideal)) W (Proc.devRef .tc main_arg6) = W (Proc.devRef .tc main_arg6) := by
  after_results_simp <;> rfl

set_option maxRecDepth 8192 in
set_option maxHeartbeats 4000000 in
/-- After the first half the first layer's output buffer holds `refLayer0` of the features, the three neighbour means
    the half computes, the weights and the biases. -/
theorem layer0_fold (W : Valuation τ sig (Elt Ideal)) :
    after (opsA (F := Ideal)) W (Proc.devRef .tc main_v115) = Cert.RefDense.refLayer0 (W (Proc.devRef .tc main_arg0)) (after (opsA (F := Ideal)) W (Proc.devRef .tc main_v25))
      (after (opsA (F := Ideal)) W (Proc.devRef .tc main_v63)) (after (opsA (F := Ideal)) W (Proc.devRef .tc main_v101)) (W (Proc.devRef .tc main_arg2)) (W (Proc.devRef .tc main_arg3))
      (W (Proc.devRef .tc main_arg4)) := by
  unfold Cert.RefDense.refLayer0
  after_results_simp
  rfl

set_option maxRecDepth 8192 in
set_option maxHeartbeats 4000000 in
/-- After the second half the second layer's output buffer holds `refLayer1` of the first layer's output, the three
    neighbour means the half computes, the weights and the biases. -/
theorem layer1_fold (Y : Valuation τ sig (Elt Ideal)) :
    after (opsB (F := Ideal)) Y (Proc.devRef .tc main_v230) = Cert.RefDense.refLayer1 (Y (Proc.devRef .tc main_v115)) (after (opsB (F := Ideal)) Y (Proc.devRef .tc main_v141))
      (after (opsB (F := Ideal)) Y (Proc.devRef .tc main_v179)) (after (opsB (F := Ideal)) Y (Proc.devRef .tc main_v217)) (Y (Proc.devRef .tc main_arg2)) (Y (Proc.devRef .tc main_arg3))
      (Y (Proc.devRef .tc main_arg4)) := by
  unfold Cert.RefDense.refLayer1
  after_results_simp
  rfl

set_option maxRecDepth 8192 in
set_option maxHeartbeats 4000000 in
/-- After the second half the result buffer holds the second layer's output times the classifier's matrix, plus the
    classifier's bias row repeated down the rows. -/
theorem final_fold (Y : Valuation τ sig (Elt Ideal)) :
    after (opsB (F := Ideal)) Y (Proc.devRef .tc main_v234) =
      addf (Host.dotGeneral (F := Ideal) (φ₁ := .f32) (φ₂ := .f32) dot_S100000x128_S128x2_S100000x2_1_0_0_1_n_n none
          (after (opsB (F := Ideal)) Y (Proc.devRef .tc main_v230) : FVec Ideal S100000x128 .f32) (Y (Proc.devRef .tc main_arg5) : FVec Ideal S128x2 .f32))
        (broadcastInDim S100000x2 ![0, 1] bcast_S1x2_S100000x2_0_1
          (broadcastInDim S1x2 ![1] bcast_S2_S1x2_1 (Y (Proc.devRef .tc main_arg6) : FVec Ideal S2 .f32))) := by
  after_results_simp

/-- After the first half the first layer's output buffer holds the specification's first dense layer, rectifier
    included, of the features, the three neighbour means the half computes, the weights and the biases. -/
theorem layer0_dense (W : Valuation τ sig (Elt Ideal)) :
    after (opsA (F := Ideal)) W (Proc.devRef .tc main_v115) = Cert.Spec.dense true (W (Proc.devRef .tc main_arg0)) (after (opsA (F := Ideal)) W (Proc.devRef .tc main_v25))
      (after (opsA (F := Ideal)) W (Proc.devRef .tc main_v63)) (after (opsA (F := Ideal)) W (Proc.devRef .tc main_v101)) (W (Proc.devRef .tc main_arg2)) (W (Proc.devRef .tc main_arg3))
      (W (Proc.devRef .tc main_arg4)) (0 : Fin 2) :=
  (layer0_fold W).trans (Cert.RefDense.refLayer0_eq ..)

/-- After the second half the second layer's output buffer holds the specification's second dense layer, no rectifier,
    of the first layer's output, the three neighbour means the half computes, the weights and the biases. -/
theorem layer1_dense (Y : Valuation τ sig (Elt Ideal)) :
    after (opsB (F := Ideal)) Y (Proc.devRef .tc main_v230) = Cert.Spec.dense false (Y (Proc.devRef .tc main_v115)) (after (opsB (F := Ideal)) Y (Proc.devRef .tc main_v141))
      (after (opsB (F := Ideal)) Y (Proc.devRef .tc main_v179)) (after (opsB (F := Ideal)) Y (Proc.devRef .tc main_v217)) (Y (Proc.devRef .tc main_arg2)) (Y (Proc.devRef .tc main_arg3))
      (Y (Proc.devRef .tc main_arg4)) (1 : Fin 2) :=
  (layer1_fold Y).trans (Cert.RefDense.refLayer1_eq ..)

end Cert.RefFold

end
-- ==== Proof.RefFoldSplit.lean ====
/-
  The reference's operation list is the concatenation of its two halves, so the fold of the whole list over any
  starting contents is the fold of the second half over the fold of the first.
-/
import proofs.«133929_j46901042872931_1_alg».proof.Proof.RefRun
import proofs.«133929_j46901042872931_1_alg».proof.Proof.RefFold

noncomputable section

namespace Cert.RefFold

open Cert.ReferenceIdeal Cert.ReferenceIdeal.Gen Cert.ReferenceIdeal.RunP Idealize.ShloMosaic Idealize.ShloMosaic.TcCoe Idealize.SL.Sem Idealize.ShloMosaic.StableHlo

set_option maxRecDepth 8192 in
/-- The two halves are the whole list. -/
theorem ops_split : (RunP.ops (F := Ideal)) = opsA (F := Ideal) ++ opsB (F := Ideal) := rfl

/-- The fold over the whole list is the fold over the second half from the fold over the first. -/
theorem after_ops (W : Valuation τ sig (Elt Ideal)) :
    after (RunP.ops (F := Ideal)) W = after (opsB (F := Ideal)) (after (opsA (F := Ideal)) W) := by
  rw [ops_split, after_append]

end Cert.RefFold

end
-- ==== Proof.Join.lean ====
/-
  The two programs compute one function of their arguments.

  Both programs form each relation's neighbour mean by the same host operations (gather the source rows, add them into the
  destination rows, divide by the clamped in-degree); the kernel program then runs the dense stage in its pipelined
  kernel, the reference by host products. Relation by relation the neighbour means agree when the features they are
  taken of agree; each layer's dense stage is `Cert.Spec.dense` of the features, the means and the layer's weights on
  both sides; the classifier on top is the same host product and bias. So from memories that agree on the arguments
  the kernel program's result buffer and the reference's end holding the same array.
-/
import proofs.«133929_j46901042872931_1_alg».proof.Proof.KernelIdealWhole
import proofs.«133929_j46901042872931_1_alg».proof.Proof.KernelIdealArr0
import proofs.«133929_j46901042872931_1_alg».proof.Proof.KernelIdealArr1
import proofs.«133929_j46901042872931_1_alg».proof.Proof.KernelIdealHost
import proofs.«133929_j46901042872931_1_alg».proof.Proof.RefFoldSplit

noncomputable section

namespace Cert.Join

open Idealize.ShloMosaic Idealize.ShloMosaic.TcCoe Idealize.SL.Sem Idealize.ShloMosaic.StableHlo Idealize.ShloMosaic.ValueIdx

/-! ## The neighbour means agree, relation by relation -/

set_option maxRecDepth 8192 in
set_option maxHeartbeats 16000000 in
theorem aggA_0 (W : Valuation Cert.KernelIdeal.τ Cert.KernelIdeal.sig (Elt Ideal)) (Y : Valuation Cert.ReferenceIdeal.τ Cert.ReferenceIdeal.sig (Elt Ideal))
    (h0 : (W (Proc.devRef (τ := Cert.KernelIdeal.τ) (sig := Cert.KernelIdeal.sig) .tc Cert.KernelIdeal.main_arg0) : FVec Ideal Cert.KernelIdeal.S100000x128 .f32) = Y (Proc.devRef (τ := Cert.ReferenceIdeal.τ) (sig := Cert.ReferenceIdeal.sig) .tc Cert.ReferenceIdeal.main_arg0))
    (h1 : (W (Proc.devRef (τ := Cert.KernelIdeal.τ) (sig := Cert.KernelIdeal.sig) .tc Cert.KernelIdeal.main_arg1) : (⟨Cert.KernelIdeal.S3x2x400000, .i32⟩ : BufTy).Contents (Elt Ideal)) = Y (Proc.devRef (τ := Cert.ReferenceIdeal.τ) (sig := Cert.ReferenceIdeal.sig) .tc Cert.ReferenceIdeal.main_arg1)) :
    (after Cert.KernelIdeal.Gen.hostOps0 W (Proc.devRef (τ := Cert.KernelIdeal.τ) (sig := Cert.KernelIdeal.sig) .tc Cert.KernelIdeal.main_v24) : FVec Ideal Cert.KernelIdeal.S100000x128 .f32) = after (Cert.RefFold.opsA (F := Ideal)) Y (Proc.devRef (τ := Cert.ReferenceIdeal.τ) (sig := Cert.ReferenceIdeal.sig) .tc Cert.ReferenceIdeal.main_v25) := by
  after_results_simp
  first | rw [h0, h1] | simp only [h0, h1]
  rfl

set_option maxRecDepth 8192 in
set_option maxHeartbeats 16000000 in
theorem aggA_1 (W : Valuation Cert.KernelIdeal.τ Cert.KernelIdeal.sig (Elt Ideal)) (Y : Valuation Cert.ReferenceIdeal.τ Cert.ReferenceIdeal.sig (Elt Ideal))
    (h0 : (W (Proc.devRef (τ := Cert.KernelIdeal.τ) (sig := Cert.KernelIdeal.sig) .tc Cert.KernelIdeal.main_arg0) : FVec Ideal Cert.KernelIdeal.S100000x128 .f32) = Y (Proc.devRef (τ := Cert.ReferenceIdeal.τ) (sig := Cert.ReferenceIdeal.sig) .tc Cert.ReferenceIdeal.main_arg0))
    (h1 : (W (Proc.devRef (τ := Cert.KernelIdeal.τ) (sig := Cert.KernelIdeal.sig) .tc Cert.KernelIdeal.main_arg1) : (⟨Cert.KernelIdeal.S3x2x400000, .i32⟩ : BufTy).Contents (Elt Ideal)) = Y (Proc.devRef (τ := Cert.ReferenceIdeal.τ) (sig := Cert.ReferenceIdeal.sig) .tc Cert.ReferenceIdeal.main_arg1)) :
    (after Cert.KernelIdeal.Gen.hostOps0 W (Proc.devRef (τ := Cert.KernelIdeal.τ) (sig := Cert.KernelIdeal.sig) .tc Cert.KernelIdeal.main_v49) : FVec Ideal Cert.KernelIdeal.S100000x128 .f32) = after (Cert.RefFold.opsA (F := Ideal)) Y (Proc.devRef (τ := Cert.ReferenceIdeal.τ) (sig := Cert.ReferenceIdeal.sig) .tc Cert.ReferenceIdeal.main_v63) := by
  after_results_simp
  first | rw [h0, h1] | simp only [h0, h1]
  rfl

set_option maxRecDepth 8192 in
set_option maxHeartbeats 16000000 in
theorem aggA_2 (W : Valuation Cert.KernelIdeal.τ Cert.KernelIdeal.sig (Elt Ideal)) (Y : Valuation Cert.ReferenceIdeal.τ Cert.ReferenceIdeal.sig (Elt Ideal))
    (h0 : (W (Proc.devRef (τ := Cert.KernelIdeal.τ) (sig := Cert.KernelIdeal.sig) .tc Cert.KernelIdeal.main_arg0) : FVec Ideal Cert.KernelIdeal.S100000x128 .f32) = Y (Proc.devRef (τ := Cert.ReferenceIdeal.τ) (sig := Cert.ReferenceIdeal.sig) .tc Cert.ReferenceIdeal.main_arg0))
    (h1 : (W (Proc.devRef (τ := Cert.KernelIdeal.τ) (sig := Cert.KernelIdeal.sig) .tc Cert.KernelIdeal.main_arg1) : (⟨Cert.KernelIdeal.S3x2x400000, .i32⟩ : BufTy).Contents (Elt Ideal)) = Y (Proc.devRef (τ := Cert.ReferenceIdeal.τ) (sig := Cert.ReferenceIdeal.sig) .tc Cert.ReferenceIdeal.main_arg1)) :
    (after Cert.KernelIdeal.Gen.hostOps0 W (Proc.devRef (τ := Cert.KernelIdeal.τ) (sig := Cert.KernelIdeal.sig) .tc Cert.KernelIdeal.main_v74) : FVec Ideal Cert.KernelIdeal.S100000x128 .f32) = after (Cert.RefFold.opsA (F := Ideal)) Y (Proc.devRef (τ := Cert.ReferenceIdeal.τ) (sig := Cert.ReferenceIdeal.sig) .tc Cert.ReferenceIdeal.main_v101) := by
  after_results_simp
  first | rw [h0, h1] | simp only [h0, h1]
  rfl

set_option maxRecDepth 8192 in
set_option maxHeartbeats 16000000 in
theorem aggB_0 (W : Valuation Cert.KernelIdeal.τ Cert.KernelIdeal.sig (Elt Ideal)) (Y : Valuation Cert.ReferenceIdeal.τ Cert.ReferenceIdeal.sig (Elt Ideal))
    (h0 : (W (Proc.devRef (τ := Cert.KernelIdeal.τ) (sig := Cert.KernelIdeal.sig) .tc Cert.KernelIdeal.main_v85) : FVec Ideal Cert.KernelIdeal.S100000x128 .f32) = Y (Proc.devRef (τ := Cert.ReferenceIdeal.τ) (sig := Cert.ReferenceIdeal.sig) .tc Cert.ReferenceIdeal.main_v115))
    (h1 : (W (Proc.devRef (τ := Cert.KernelIdeal.τ) (sig := Cert.KernelIdeal.sig) .tc Cert.KernelIdeal.main_arg1) : (⟨Cert.KernelIdeal.S3x2x400000, .i32⟩ : BufTy).Contents (Elt Ideal)) = Y (Proc.devRef (τ := Cert.ReferenceIdeal.τ) (sig := Cert.ReferenceIdeal.sig) .tc Cert.ReferenceIdeal.main_arg1)) :
    (after Cert.KernelIdeal.Gen.hostOps1 W (Proc.devRef (τ := Cert.KernelIdeal.τ) (sig := Cert.KernelIdeal.sig) .tc Cert.KernelIdeal.main_v110) : FVec Ideal Cert.KernelIdeal.S100000x128 .f32) = after (Cert.RefFold.opsB (F := Ideal)) Y (Proc.devRef (τ := Cert.ReferenceIdeal.τ) (sig := Cert.ReferenceIdeal.sig) .tc Cert.ReferenceIdeal.main_v141) := by
  after_results_simp
  first | rw [h0, h1] | simp only [h0, h1]
  rfl

set_option maxRecDepth 8192 in
set_option maxHeartbeats 16000000 in
theorem aggB_1 (W : Valuation Cert.KernelIdeal.τ Cert.KernelIdeal.sig (Elt Ideal)) (Y : Valuation Cert.ReferenceIdeal.τ Cert.ReferenceIdeal.sig (Elt Ideal))
    (h0 : (W (Proc.devRef (τ := Cert.KernelIdeal.τ) (sig := Cert.KernelIdeal.sig) .tc Cert.KernelIdeal.main_v85) : FVec Ideal Cert.KernelIdeal.S100000x128 .f32) = Y (Proc.devRef (τ := Cert.ReferenceIdeal.τ) (sig := Cert.ReferenceIdeal.sig) .tc Cert.ReferenceIdeal.main_v115))
    (h1 : (W (Proc.devRef (τ := Cert.KernelIdeal.τ) (sig := Cert.KernelIdeal.sig) .tc Cert.KernelIdeal.main_arg1) : (⟨Cert.KernelIdeal.S3x2x400000, .i32⟩ : BufTy).Contents (Elt Ideal)) = Y (Proc.devRef (τ := Cert.ReferenceIdeal.τ) (sig := Cert.ReferenceIdeal.sig) .tc Cert.ReferenceIdeal.main_arg1)) :
    (after Cert.KernelIdeal.Gen.hostOps1 W (Proc.devRef (τ := Cert.KernelIdeal.τ) (sig := Cert.KernelIdeal.sig) .tc Cert.KernelIdeal.main_v135) : FVec Ideal Cert.KernelIdeal.S100000x128 .f32) = after (Cert.RefFold.opsB (F := Ideal)) Y (Proc.devRef (τ := Cert.ReferenceIdeal.τ) (sig := Cert.ReferenceIdeal.sig) .tc Cert.ReferenceIdeal.main_v179) := by
  after_results_simp
  first | rw [h0, h1] | simp only [h0, h1]
  rfl

set_option maxRecDepth 8192 in
set_option maxHeartbeats 16000000 in
theorem aggB_2 (W : Valuation Cert.KernelIdeal.τ Cert.KernelIdeal.sig (Elt Ideal)) (Y : Valuation Cert.ReferenceIdeal.τ Cert.ReferenceIdeal.sig (Elt Ideal))
    (h0 : (W (Proc.devRef (τ := Cert.KernelIdeal.τ) (sig := Cert.KernelIdeal.sig) .tc Cert.KernelIdeal.main_v85) : FVec Ideal Cert.KernelIdeal.S100000x128 .f32) = Y (Proc.devRef (τ := Cert.ReferenceIdeal.τ) (sig := Cert.ReferenceIdeal.sig) .tc Cert.ReferenceIdeal.main_v115))
    (h1 : (W (Proc.devRef (τ := Cert.KernelIdeal.τ) (sig := Cert.KernelIdeal.sig) .tc Cert.KernelIdeal.main_arg1) : (⟨Cert.KernelIdeal.S3x2x400000, .i32⟩ : BufTy).Contents (Elt Ideal)) = Y (Proc.devRef (τ := Cert.ReferenceIdeal.τ) (sig := Cert.ReferenceIdeal.sig) .tc Cert.ReferenceIdeal.main_arg1)) :
    (after Cert.KernelIdeal.Gen.hostOps1 W (Proc.devRef (τ := Cert.KernelIdeal.τ) (sig := Cert.KernelIdeal.sig) .tc Cert.KernelIdeal.main_v160) : FVec Ideal Cert.KernelIdeal.S100000x128 .f32) = after (Cert.RefFold.opsB (F := Ideal)) Y (Proc.devRef (τ := Cert.ReferenceIdeal.τ) (sig := Cert.ReferenceIdeal.sig) .tc Cert.ReferenceIdeal.main_v217) := by
  after_results_simp
  first | rw [h0, h1] | simp only [h0, h1]
  rfl

/-! ## Congruences: equal operands, equal results (the two programs' records of one operation are one record) -/

theorem dense_congr (relu : Bool) {h h' a0 a0' a1 a1' a2 a2' : Cert.Spec.SN.Idx → EReal} {Wn Wn' Wr Wr' : Cert.Spec.SW.Idx → EReal}
    {b b' : Cert.Spec.SB.Idx → EReal} (l : Fin 2) (eh : h = h') (e0 : a0 = a0') (e1 : a1 = a1') (e2 : a2 = a2')
    (en : Wn = Wn') (er : Wr = Wr') (eb : b = b') :
    Cert.Spec.dense relu h a0 a1 a2 Wn Wr b l = Cert.Spec.dense relu h' a0' a1' a2' Wn' Wr' b' l := by
  subst eh e0 e1 e2 en er eb; rfl

/-! ## The result buffers agree -/

section Result

variable (m : (ℓ : Loc Cert.KernelIdeal.nD Cert.KernelIdeal.τ Cert.KernelIdeal.sig) → Buf (Elt Ideal) ℓ) (ρ : Dev Cert.KernelIdeal.nD → PrngReg) (m' : (ℓ : Loc Cert.ReferenceIdeal.nD Cert.ReferenceIdeal.τ Cert.ReferenceIdeal.sig) → Buf (Elt Ideal) ℓ) (c : Dev Cert.KernelIdeal.nD)
  (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
  (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
  (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
  (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
  (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
  (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
  (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))

/-- the reference's buffers after its first half, from its launch memory -/
abbrev Y1 : Valuation Cert.ReferenceIdeal.τ Cert.ReferenceIdeal.sig (Elt Ideal) := after (Cert.RefFold.opsA (F := Ideal)) (launchContents m' c)

include h0 h1 h2 h3 h4 in
/-- THE FIRST LAYER: the first kernel region's output array is the reference's first-layer output. -/
theorem layer0_eq : (Cert.KernelIdeal.Whole.W2 m ρ c (Proc.devRef (τ := Cert.KernelIdeal.τ) (sig := Cert.KernelIdeal.sig) .tc Cert.KernelIdeal.main_v85) : FVec Ideal Cert.KernelIdeal.S100000x128 .f32) = Y1 m' c (Proc.devRef (τ := Cert.ReferenceIdeal.τ) (sig := Cert.ReferenceIdeal.sig) .tc Cert.ReferenceIdeal.main_v115) := by
  refine ((Cert.KernelIdeal.Whole.W2_arr m ρ c 5).trans (Cert.KernelIdeal.Arr0.final (Cert.KernelIdeal.Whole.V1 m ρ) c)).trans ?_
  refine Eq.trans ?_ (Cert.RefFold.layer0_dense (launchContents m' c)).symm
  refine (Cert.Spec.denseStack_eq_dense true _ _ _ _ _ _ _ _ _ _ _ (0 : Fin 2)
    (Cert.KernelIdeal.HostRead.stackA_0 (Cert.KernelIdeal.Whole.W0 m ρ c)) (Cert.KernelIdeal.HostRead.stackA_1 (Cert.KernelIdeal.Whole.W0 m ρ c)) (Cert.KernelIdeal.HostRead.stackA_2 (Cert.KernelIdeal.Whole.W0 m ρ c))
    (Cert.KernelIdeal.HostRead.wnA (Cert.KernelIdeal.Whole.W0 m ρ c)) (Cert.KernelIdeal.HostRead.wrA (Cert.KernelIdeal.Whole.W0 m ρ c)) (Cert.KernelIdeal.HostRead.biasA (Cert.KernelIdeal.Whole.W0 m ρ c))).trans ?_
  exact dense_congr true (0 : Fin 2) ((Cert.KernelIdeal.Whole.W1_main_arg0 m ρ c).trans h0.symm)
    (aggA_0 (Cert.KernelIdeal.Whole.W0 m ρ c) (launchContents m' c) h0.symm h1.symm)
    (aggA_1 (Cert.KernelIdeal.Whole.W0 m ρ c) (launchContents m' c) h0.symm h1.symm)
    (aggA_2 (Cert.KernelIdeal.Whole.W0 m ρ c) (launchContents m' c) h0.symm h1.symm)
    h2.symm h3.symm h4.symm

include h0 h1 h2 h3 h4 in
/-- THE SECOND LAYER: the second kernel region's output array is the reference's second-layer output. -/
theorem layer1_eq : (Cert.KernelIdeal.Whole.W4 m ρ c (Proc.devRef (τ := Cert.KernelIdeal.τ) (sig := Cert.KernelIdeal.sig) .tc Cert.KernelIdeal.main_v171) : FVec Ideal Cert.KernelIdeal.S100000x128 .f32) = after (Cert.RefFold.opsB (F := Ideal)) (Y1 m' c) (Proc.devRef (τ := Cert.ReferenceIdeal.τ) (sig := Cert.ReferenceIdeal.sig) .tc Cert.ReferenceIdeal.main_v230) := by
  have hH : (Cert.KernelIdeal.Whole.W2 m ρ c (Proc.devRef (τ := Cert.KernelIdeal.τ) (sig := Cert.KernelIdeal.sig) .tc Cert.KernelIdeal.main_v85) : FVec Ideal Cert.KernelIdeal.S100000x128 .f32) = Y1 m' c (Proc.devRef (τ := Cert.ReferenceIdeal.τ) (sig := Cert.ReferenceIdeal.sig) .tc Cert.ReferenceIdeal.main_v115) := layer0_eq m ρ m' c h0 h1 h2 h3 h4
  have hE : (Cert.KernelIdeal.Whole.W2 m ρ c (Proc.devRef (τ := Cert.KernelIdeal.τ) (sig := Cert.KernelIdeal.sig) .tc Cert.KernelIdeal.main_arg1) : (⟨Cert.KernelIdeal.S3x2x400000, .i32⟩ : BufTy).Contents (Elt Ideal)) = Y1 m' c (Proc.devRef (τ := Cert.ReferenceIdeal.τ) (sig := Cert.ReferenceIdeal.sig) .tc Cert.ReferenceIdeal.main_arg1) :=
    (Cert.KernelIdeal.Whole.W2_main_arg1 m ρ c).trans (h1.symm.trans (Cert.RefFold.opsA_keeps_arg1 (launchContents m' c)).symm)
  refine ((Cert.KernelIdeal.Whole.W4_arr m ρ c 5).trans (Cert.KernelIdeal.Arr1.final (Cert.KernelIdeal.Whole.V3 m ρ) c)).trans ?_
  refine Eq.trans ?_ (Cert.RefFold.layer1_dense (Y1 m' c)).symm
  refine (Cert.Spec.denseStack_eq_dense false _ _ _ _ _ _ _ _ _ _ _ (1 : Fin 2)
    (Cert.KernelIdeal.HostRead.stackB_0 (Cert.KernelIdeal.Whole.W2 m ρ c)) (Cert.KernelIdeal.HostRead.stackB_1 (Cert.KernelIdeal.Whole.W2 m ρ c)) (Cert.KernelIdeal.HostRead.stackB_2 (Cert.KernelIdeal.Whole.W2 m ρ c))
    (Cert.KernelIdeal.HostRead.wnB (Cert.KernelIdeal.Whole.W2 m ρ c)) (Cert.KernelIdeal.HostRead.wrB (Cert.KernelIdeal.Whole.W2 m ρ c)) (Cert.KernelIdeal.HostRead.biasB (Cert.KernelIdeal.Whole.W2 m ρ c))).trans ?_
  exact dense_congr false (1 : Fin 2) ((Cert.KernelIdeal.HostRead.keepsB (Cert.KernelIdeal.Whole.W2 m ρ c)).trans hH)
    (aggB_0 (Cert.KernelIdeal.Whole.W2 m ρ c) (Y1 m' c) hH hE) (aggB_1 (Cert.KernelIdeal.Whole.W2 m ρ c) (Y1 m' c) hH hE) (aggB_2 (Cert.KernelIdeal.Whole.W2 m ρ c) (Y1 m' c) hH hE)
    ((Cert.KernelIdeal.Whole.W2_main_arg2 m ρ c).trans (h2.symm.trans (Cert.RefFold.opsA_keeps_arg2 (launchContents m' c)).symm))
    ((Cert.KernelIdeal.Whole.W2_main_arg3 m ρ c).trans (h3.symm.trans (Cert.RefFold.opsA_keeps_arg3 (launchContents m' c)).symm))
    ((Cert.KernelIdeal.Whole.W2_main_arg4 m ρ c).trans (h4.symm.trans (Cert.RefFold.opsA_keeps_arg4 (launchContents m' c)).symm))

include h0 h1 h2 h3 h4 h5 h6 in
/-- THE RESULTS: what the reference's run leaves in its result buffer is what the kernel program's run leaves in its. -/
theorem result_eq :
    (after (Cert.ReferenceIdeal.RunP.ops (F := Ideal)) (launchContents m' c) (Proc.devRef (τ := Cert.ReferenceIdeal.τ) (sig := Cert.ReferenceIdeal.sig) .tc Cert.ReferenceIdeal.main_v234) : FVec Ideal Cert.KernelIdeal.S100000x2 .f32)
      = Cert.KernelIdeal.Whole.W5 m ρ c (Proc.devRef (τ := Cert.KernelIdeal.τ) (sig := Cert.KernelIdeal.sig) .tc Cert.KernelIdeal.main_v175) := by
  rw [Cert.RefFold.after_ops]
  refine (Cert.RefFold.final_fold (Y1 m' c)).trans ?_
  refine Eq.trans ?_ (Cert.KernelIdeal.HostRead.closing (Cert.KernelIdeal.Whole.W4 m ρ c)).symm
  have eX : (after (Cert.RefFold.opsB (F := Ideal)) (Y1 m' c) (Proc.devRef (τ := Cert.ReferenceIdeal.τ) (sig := Cert.ReferenceIdeal.sig) .tc Cert.ReferenceIdeal.main_v230) : FVec Ideal Cert.KernelIdeal.S100000x128 .f32) = Cert.KernelIdeal.Whole.W4 m ρ c (Proc.devRef (τ := Cert.KernelIdeal.τ) (sig := Cert.KernelIdeal.sig) .tc Cert.KernelIdeal.main_v171) :=
    (layer1_eq m ρ m' c h0 h1 h2 h3 h4).symm
  have eA : (Y1 m' c (Proc.devRef (τ := Cert.ReferenceIdeal.τ) (sig := Cert.ReferenceIdeal.sig) .tc Cert.ReferenceIdeal.main_arg5) : FVec Ideal Cert.KernelIdeal.S128x2 .f32) = Cert.KernelIdeal.Whole.W4 m ρ c (Proc.devRef (τ := Cert.KernelIdeal.τ) (sig := Cert.KernelIdeal.sig) .tc Cert.KernelIdeal.main_arg5) :=
    (Cert.RefFold.opsA_keeps_arg5 (launchContents m' c)).trans (h5.trans (Cert.KernelIdeal.Whole.W4_main_arg5 m ρ c).symm)
  have eB : (Y1 m' c (Proc.devRef (τ := Cert.ReferenceIdeal.τ) (sig := Cert.ReferenceIdeal.sig) .tc Cert.ReferenceIdeal.main_arg6) : FVec Ideal Cert.KernelIdeal.S2 .f32) = Cert.KernelIdeal.Whole.W4 m ρ c (Proc.devRef (τ := Cert.KernelIdeal.τ) (sig := Cert.KernelIdeal.sig) .tc Cert.KernelIdeal.main_arg6) :=
    (Cert.RefFold.opsA_keeps_arg6 (launchContents m' c)).trans (h6.trans (Cert.KernelIdeal.Whole.W4_main_arg6 m ρ c).symm)
  rw [eX, eA, eB]
  rfl

end Result

end Cert.Join

end
-- ==== Proof.lean ====
/-
  The certificate of a two-layer relational graph network: a pipelined kernel for each layer's dense stage against the
  plain host computation.

  Each layer forms, per relation, the mean of the neighbours' feature rows (gather the source rows, add them into the
  destination rows, divide by the in-degree clamped below at one) — the same host operations in both programs — and then
  adds, relation after relation, the neighbour product, the root product and the bias, starting from zero; the first
  layer ends with a rectifier; a linear classifier follows the second. The kernel program runs the additions in a
  pipelined kernel over twenty blocks of 5000 rows, the reference as host products over all rows; both add in the same
  order, so the two results are the same function of the arguments on the extended reals, with no appeal to finiteness.

  The three frames are the programs' runs with the result dropped (the kernel program's run is the launch of its two
  regions among its host operations; the reference's is its operation list run in order); the idealization rewrote
  nothing; and the results agree by `Cert.Join.result_eq`.
-/
import proofs.«133929_j46901042872931_1_alg».proof.Defs
import proofs.«133929_j46901042872931_1_alg».proof.Proof.Gen.Kernel
import proofs.«133929_j46901042872931_1_alg».proof.Proof.Gen.KernelIdeal
import proofs.«133929_j46901042872931_1_alg».proof.Proof.Gen.ReferenceIdeal
import proofs.«133929_j46901042872931_1_alg».proof.Proof.Gen.Pre_finite_inputs
import proofs.«133929_j46901042872931_1_alg».proof.Proof.KernelWhole
import proofs.«133929_j46901042872931_1_alg».proof.Proof.KernelIdealWhole
import proofs.«133929_j46901042872931_1_alg».proof.Proof.RefRun
import proofs.«133929_j46901042872931_1_alg».proof.Proof.Join
import Idealize.ShloMosaic.Adequacy
import Idealize.ShloMosaic.Init

noncomputable section

namespace Cert.Proof

open Idealize.ShloMosaic Idealize.ShloMosaic.TcCoe Idealize.SL.Sem

/-- The kernel program, word level: it runs to the end and leaves its arguments as launched. -/
theorem frame_k : Cert.frame_Kernel := fun m ρ _ =>
  (θ_run Cert.Kernel.defs _ _).mono (fun _ h c => (h c).2) (Cert.Kernel.Whole.run (F := Bits) m ρ)

/-- The kernel program at the ideal values: the same run. -/
theorem frame_ki : Cert.frame_KernelIdeal := fun m ρ _ =>
  (θ_run Cert.KernelIdeal.defs _ _).mono (fun _ h c => (h c).2) (Cert.KernelIdeal.Whole.run (F := Ideal) m ρ)

/-- The reference: its operation list run in order. -/
theorem frame_ri : Cert.frame_ReferenceIdeal := fun m ρ _ =>
  (θ_run Cert.ReferenceIdeal.defs _ _).mono (fun _ h c => (h c).2) (Cert.ReferenceIdeal.RunP.run (F := Ideal) m ρ)

/-- The idealization rewrote no operation. -/
theorem preserves : Cert.preserves_Kernel_KernelIdeal := trivial

/-- From memories agreeing on the arguments both programs run to the end with one result array. -/
theorem algebraic : Cert.algebraic_KernelIdeal_ReferenceIdeal := by
  intro m ρ m' ρ' _ hagree
  refine ⟨fun c => Cert.KernelIdeal.Whole.W5 m ρ c (Proc.devRef .tc Cert.KernelIdeal.main_v175),
    Cert.KernelIdeal.Whole.run (F := Ideal) m ρ, ?_⟩
  refine (θ_run Cert.ReferenceIdeal.defs _ _).mono (fun _ h c => ⟨(h c).1.trans ?_, (h c).2⟩)
    (Cert.ReferenceIdeal.RunP.run (F := Ideal) m' ρ')
  obtain ⟨h0, h1, h2, h3, h4, h5, h6⟩ := hagree c
  exact Cert.Join.result_eq m ρ m' c h0 h1 h2 h3 h4 h5 h6

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
